-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200x64 : Shape := ⟨3, ![4096, 200, 64]⟩
abbrev S4096 : Shape := ⟨1, ![4096]⟩
abbrev S4x64 : Shape := ⟨2, ![4, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .sle main_arg1 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x200x64 .f32) (main_arg1 : IVec S4096 32) (main_arg2 : FVec F S4x64 .f32) (main_arg3 : FVec F S4x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg1 main_v14
  let main_c_5 : IVec S_ 32 := constantI S_ 32 3#32
  fn_part1 (F := F) main_arg1 main_v13 main_v15 main_c_5
-- ==== Kernel.lean ====
abbrev S4096x200x64 : Shape := ⟨3, ![4096, 200, 64]⟩
abbrev S4096 : Shape := ⟨1, ![4096]⟩
abbrev S4x64 : Shape := ⟨2, ![4, 64]⟩
abbrev S32x128x128 : Shape := ⟨3, ![32, 128, 128]⟩
abbrev S128 : Shape := ⟨1, ![128]⟩
abbrev S2x4x64 : Shape := ⟨3, ![2, 4, 64]⟩
abbrev S128x128 : Shape := ⟨2, ![128, 128]⟩
abbrev S_ : Shape := ⟨0, ![]⟩
abbrev S1x4x64 : Shape := ⟨3, ![1, 4, 64]⟩
abbrev S16 : Shape := ⟨1, ![16]⟩
abbrev S1x1x16 : Shape := ⟨3, ![1, 1, 16]⟩
abbrev S1 : Shape := ⟨1, ![1]⟩
abbrev S1x16 : Shape := ⟨2, ![1, 16]⟩
abbrev S1x128x128 : Shape := ⟨3, ![1, 128, 128]⟩
abbrev S200x64x4096 : Shape := ⟨3, ![200, 64, 4096]⟩
abbrev S200x64x128 : Shape := ⟨3, ![200, 64, 128]⟩
abbrev S1x64x128 : Shape := ⟨3, ![1, 64, 128]⟩
abbrev S64x128 : Shape := ⟨2, ![64, 128]⟩

abbrev nBuf : Table → Nat
  | .hbm => 8
  | .local .tc .vmem => 6
  | .local .scVector .vmem => 3
  | _ => 0

abbrev bufTy : (tb : Table) → Fin (nBuf tb) → BufTy
  | .hbm, ⟨0, _⟩ => ⟨S4096x200x64, .f32⟩
  | .hbm, ⟨1, _⟩ => ⟨S4096, .i32⟩
  | .hbm, ⟨2, _⟩ => ⟨S4x64, .f32⟩
  | .hbm, ⟨3, _⟩ => ⟨S4x64, .f32⟩
  | .hbm, ⟨4, _⟩ => ⟨S32x128x128, .f32⟩
  | .hbm, ⟨5, _⟩ => ⟨S200x64x4096, .f32⟩
  | .hbm, ⟨6, _⟩ => ⟨S200x64x4096, .f32⟩
  | .hbm, ⟨7, _⟩ => ⟨S4096x200x64, .f32⟩
  | .local .tc .vmem, ⟨0, _⟩ => ⟨S1x128x128, .f32⟩
  | .local .tc .vmem, ⟨1, _⟩ => ⟨S1x128x128, .f32⟩
  | .local .tc .vmem, ⟨2, _⟩ => ⟨S200x64x128, .f32⟩
  | .local .tc .vmem, ⟨3, _⟩ => ⟨S200x64x128, .f32⟩
  | .local .tc .vmem, ⟨4, _⟩ => ⟨S200x64x128, .f32⟩
  | .local .tc .vmem, ⟨5, _⟩ => ⟨S200x64x128, .f32⟩
  | .local .scVector .vmem, ⟨0, _⟩ => ⟨S128, .i32⟩
  | .local .scVector .vmem, ⟨1, _⟩ => ⟨S2x4x64, .f32⟩
  | .local .scVector .vmem, ⟨2, _⟩ => ⟨S128x128, .f32⟩
  | _, _ => ⟨S4096x200x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg2_scv : Ref sig .scVector := ⟨.hbm, 2, rfl⟩
abbrev main_arg3_scv : Ref sig .scVector := ⟨.hbm, 3, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_43 : BitVec 32 := 0#32
  let c4_i32 : BitVec 32 := 4#32
  let v87 : BitVec 32 := Scalar.addi c0_i32_43 c4_i32
  let c1_i32_44 : BitVec 32 := 1#32
  ⟨c0_i32_43, v87, c1_i32_44⟩
def k0_off2 (k0_t1 : Fin k0_t1_loop.trips) : Fin 3 → Nat :=
  let c0_i32_46 : BitVec 32 := 0#32
  let v89 : Index := Scalar.indexCast c0_i32_46
  let c0_i32_47 : BitVec 32 := 0#32
  let v90 : Index := Scalar.indexCast c0_i32_47
  let c0_i32_43 : BitVec 32 := 0#32
  let c1_i32_44 : BitVec 32 := 1#32
  let arg12 : BitVec 32 := Scf.iv c0_i32_43 c1_i32_44 k0_t1
  let c16_i32 : BitVec 32 := 16#32
  let v88 : BitVec 32 := Scalar.muli arg12 c16_i32
  let v91 : Index := Scalar.indexCast v88
  ![0, 0, v91.toNat]
def k0_off3 (k0_t1 : Fin k0_t1_loop.trips) : Fin 3 → Nat :=
  let c0_i32_49 : BitVec 32 := 0#32
  let v95 : Index := Scalar.indexCast c0_i32_49
  let c1_i32_50 : BitVec 32 := 1#32
  let v96 : Index := Scalar.indexCast c1_i32_50
  let c0_i32_43 : BitVec 32 := 0#32
  let c1_i32_44 : BitVec 32 := 1#32
  let arg12 : BitVec 32 := Scf.iv c0_i32_43 c1_i32_44 k0_t1
  let c16_i32_48 : BitVec 32 := 16#32
  let v94 : BitVec 32 := Scalar.muli arg12 c16_i32_48
  let v97 : Index := Scalar.indexCast v94
  ![0, 1, v97.toNat]
def k0_off4 (k0_t1 : Fin k0_t1_loop.trips) : Fin 3 → Nat :=
  let c0_i32_52 : BitVec 32 := 0#32
  let v101 : Index := Scalar.indexCast c0_i32_52
  let c2_i32_53 : BitVec 32 := 2#32
  let v102 : Index := Scalar.indexCast c2_i32_53
  let c0_i32_43 : BitVec 32 := 0#32
  let c1_i32_44 : BitVec 32 := 1#32
  let arg12 : BitVec 32 := Scf.iv c0_i32_43 c1_i32_44 k0_t1
  let c16_i32_51 : BitVec 32 := 16#32
  let v100 : BitVec 32 := Scalar.muli arg12 c16_i32_51
  let v103 : Index := Scalar.indexCast v100
  ![0, 2, v103.toNat]
def k0_off5 (k0_t1 : Fin k0_t1_loop.trips) : Fin 3 → Nat :=
  let c0_i32_55 : BitVec 32 := 0#32
  let v107 : Index := Scalar.indexCast c0_i32_55
  let c3_i32 : BitVec 32 := 3#32
  let v108 : Index := Scalar.indexCast c3_i32
  let c0_i32_43 : BitVec 32 := 0#32
  let c1_i32_44 : BitVec 32 := 1#32
  let arg12 : BitVec 32 := Scf.iv c0_i32_43 c1_i32_44 k0_t1
  let c16_i32_54 : BitVec 32 := 16#32
  let v106 : BitVec 32 := Scalar.muli arg12 c16_i32_54
  let v109 : Index := Scalar.indexCast v106
  ![0, 3, v109.toNat]
def k0_off6 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v130 : Index := Scalar.indexCast v122
  let c0_59 : Index := 0#32
  ![v130.toNat, 0]
def k0_off7 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v141 : Index := Scalar.indexCast v122
  let c16_60 : Index := 16#32
  ![v141.toNat, 16]
def k0_off8 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v152 : Index := Scalar.indexCast v122
  let c32_61 : Index := 32#32
  ![v152.toNat, 32]
def k0_off9 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v163 : Index := Scalar.indexCast v122
  let c48_62 : Index := 48#32
  ![v163.toNat, 48]
def k0_off10 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v174 : Index := Scalar.indexCast v122
  let c64_63 : Index := 64#32
  ![v174.toNat, 64]
def k0_off11 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v185 : Index := Scalar.indexCast v122
  let c80_64 : Index := 80#32
  ![v185.toNat, 80]
def k0_off12 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v196 : Index := Scalar.indexCast v122
  let c96_65 : Index := 96#32
  ![v196.toNat, 96]
def k0_off13 (k0_t1 : Fin k0_t1_loop.trips) (c0_i32_57 : BitVec 32) (c0_i32_58 : BitVec 32) : Fin 2 → Nat :=
  let c0_i32_43 : BitVec 32 := 0#32
  let c1_i32_44 : BitVec 32 := 1#32
  let arg12 : BitVec 32 := Scf.iv c0_i32_43 c1_i32_44 k0_t1
  let c16_i32_56 : BitVec 32 := 16#32
  let v120 : BitVec 32 := Scalar.muli arg12 c16_i32_56
  let v121 : BitVec 32 := Scalar.addi v120 c0_i32_57
  let v122 : BitVec 32 := Scalar.addi v121 c0_i32_58
  let v207 : Index := Scalar.indexCast v122
  let c112_66 : Index := 112#32
  ![v207.toNat, 112]
def k0_off14 (k0_t1 : Fin k0_t1_loop.trips) : Fin 3 → Nat :=
  let c1_i32_222 : BitVec 32 := 1#32
  let v1697 : Index := Scalar.indexCast c1_i32_222
  let c0_i32_223 : BitVec 32 := 0#32
  let v1698 : Index := Scalar.indexCast c0_i32_223
  let c0_i32_43 : BitVec 32 := 0#32
  let c1_i32_44 : BitVec 32 := 1#32
  let arg12 : BitVec 32 := Scf.iv c0_i32_43 c1_i32_44 k0_t1
  let c16_i32_221 : BitVec 32 := 16#32
  let v1696 : BitVec 32 := Scalar.muli arg12 c16_i32_221
  let v1699 : Index := Scalar.indexCast v1696
  ![1, 0, v1699.toNat]
def k0_off15 (k0_t1 : Fin k0_t1_loop.trips) : Fin 3 → Nat :=
  let c1_i32_225 : BitVec 32 := 1#32
  let v1703 : Index := Scalar.indexCast c1_i32_225
  let c1_i32_226 : BitVec 32 := 1#32
  let v1704 : Index := Scalar.indexCast c1_i32_226
  let c0_i32_43 : BitVec 32 := 0#32
  let c1_i32_44 : BitVec 32 := 1#32
  let arg12 : BitVec 32 := Scf.iv c0_i32_43 c1_i32_44 k0_t1
  let c16_i32_224 : BitVec 32 := 16#32
  let v1702 : BitVec 32 := Scalar.muli arg12 c16_i32_224
  let v1705 : Index := Scalar.indexCast v1702
  ![1, 1, v1705.toNat]
def k0_off16 (k0_t1 : Fin k0_t1_loop.trips) : Fin 3 → Nat :=
  let c1_i32_228 : BitVec 32 := 1#32
  let v1709 : Index := Scalar.indexCast c1_i32_228
  let c2_i32_229 : BitVec 32 := 2#32
  let v1710 : Index := Scalar.indexCast c2_i32_229
  let c0_i32_43 : BitVec 32 := 0#32
  let c1_i32_44 : BitVec 32 := 1#32
  let arg12 : BitVec 32 := Scf.iv c0_i32_43 c1_i32_44 k0_t1
  let c16_i32_227 : BitVec 32 := 16#32
  let v1708 : BitVec 32 := Scalar.muli arg12 c16_i32_227
  let v1711 : Index := Scalar.indexCast v1708
  ![1, 2, v1711.toNat]
def k0_off17 (k0_t1 : Fin k0_t1_loop.trips) : Fin 3 → Nat :=
  let c1_i32_231 : BitVec 32 := 1#32
  let v1715 : Index := Scalar.indexCast c1_i32_231
  let c3_i32_232 : BitVec 32 := 3#32
  let v1716 : Index := Scalar.indexCast c3_i32_232
  let c0_i32_43 : BitVec 32 := 0#32
  let c1_i32_44 : BitVec 32 := 1#32
  let arg12 : BitVec 32 := Scf.iv c0_i32_43 c1_i32_44 k0_t1
  let c16_i32_230 : BitVec 32 := 16#32
  let v1714 : BitVec 32 := Scalar.muli arg12 c16_i32_230
  let v1717 : Index := Scalar.indexCast v1714
  ![1, 3, v1717.toNat]
def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_46_r0 : BitVec 32 := 0#32
  let c0_i32_47_r0 : BitVec 32 := 0#32
  ![v1.toNat, 0, 0]
abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S200x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S200x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x4x64_S1x4x64_0_0_0 : ∀ a, (![0, 0, 0] : Fin 3 → Nat) a + S1x4x64.size a ≤ S2x4x64.size a
  squeezes_S1x4x64_S4x64 : S1x4x64.Squeezes S4x64
  inb_S2x4x64_S1x4x64_1_0_0 : ∀ a, (![1, 0, 0] : Fin 3 → Nat) a + S1x4x64.size a ≤ S2x4x64.size a
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  h_S1x1x16 : 0 < S1x1x16.numel
  shapeCasts_S1x1x16_S16 : S1x1x16.ShapeCasts S16
  slices_S16_o0_S1 : S16.Slices ![0] S1
  inpos_S1_p0 : ∀ a, (![0] : Fin 1 → Nat) a < S1.size a
  h_S1x16 : 0 < S1x16.numel
  shapeCasts_S1x16_S16 : S1x16.ShapeCasts S16
  shapeCasts_S16_S1x16 : S16.ShapeCasts S1x16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  squeezes_S1x128x128_S128x128 : S1x128x128.Squeezes S128x128
  transposes_S4096x200x64_S200x64x4096_1_2_0 : S4096x200x64.Transposes [1, 2, 0] S200x64x4096
  inb_S1x128x128_S1x64x128_0_0_0 : ∀ a, (![0, 0, 0] : Fin 3 → Nat) a + S1x64x128.size a ≤ S1x128x128.size a
  h_S1x64x128 : 0 < S1x64x128.numel
  shapeCasts_S1x64x128_S64x128 : S1x64x128.ShapeCasts S64x128
  inb_S1x128x128_S1x64x128_0_64_0 : ∀ a, (![0, 64, 0] : Fin 3 → Nat) a + S1x64x128.size a ≤ S1x128x128.size a
  inb_S200x64x128_S200x64x128_0_0_0 : ∀ a, (![0, 0, 0] : Fin 3 → Nat) a + S200x64x128.size a ≤ S200x64x128.size a
  h_S200x64x128 : 0 < S200x64x128.numel
  shapeCasts_S200x64x128_S200x64x128 : S200x64x128.ShapeCasts S200x64x128
  shapeCasts_S64x128_S1x64x128 : S64x128.ShapeCasts S1x64x128
  broadcasts_S1x64x128_S200x64x128 : S1x64x128.Broadcasts S200x64x128
  transposes_S200x64x4096_S4096x200x64_2_0_1 : S200x64x4096.Transposes [2, 0, 1] S4096x200x64
  hcc0_scratch3 : 0 + S_.numel ≤ 10
  hcc0_scratch4 : 1 + S_.numel ≤ 10
  hcc0_scratch5 : 2 + S_.numel ≤ 10
  hcc0_scoped0 : 3 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_t1_ok : k0_t1_loop.OK
  k0_off2_inb : ∀ k0_t1 : Fin k0_t1_loop.trips, ∀ a, (k0_off2 k0_t1) a + S1x1x16.size a ≤ S2x4x64.size a
  k0_off3_inb : ∀ k0_t1 : Fin k0_t1_loop.trips, ∀ a, (k0_off3 k0_t1) a + S1x1x16.size a ≤ S2x4x64.size a
  k0_off4_inb : ∀ k0_t1 : Fin k0_t1_loop.trips, ∀ a, (k0_off4 k0_t1) a + S1x1x16.size a ≤ S2x4x64.size a
  k0_off5_inb : ∀ k0_t1 : Fin k0_t1_loop.trips, ∀ a, (k0_off5 k0_t1) a + S1x1x16.size a ≤ S2x4x64.size a
  k0_off6_inb : ∀ k0_t1 : Fin k0_t1_loop.trips, ∀ (r₁ : Fin 16) (r₂ : Fin 2), ∀ a, (k0_off6 k0_t1 (BitVec.ofNat 32 r₁.val) (BitVec.ofNat 32 (64 * r₂.val))) a + S1x16.size a ≤ S128x128.size a
  k0_off7_inb : ∀ k0_t1 : Fin k0_t1_loop.trips, ∀ (r₁ : Fin 16) (r₂ : Fin 2), ∀ a, (k0_off7 k0_t1 (BitVec.ofNat 32 r₁.val) (BitVec.ofNat 32 (64 * r₂.val))) a + S1x16.size a ≤ S128x128.size a
  k0_off8_inb : ∀ k0_t1 : Fin k0_t1_loop.trips, ∀ (r₁ : Fin 16) (r₂ : Fin 2), ∀ a, (k0_off8 k0_t1 (BitVec.ofNat 32 r₁.val) (BitVec.ofNat 32 (64 * r₂.val))) a + S1x16.size a ≤ S128x128.size a
  k0_off9_inb : ∀ k0_t1 : Fin k0_t1_loop.trips, ∀ (r₁ : Fin 16) (r₂ : Fin 2), ∀ a, (k0_off9 k0_t1 (BitVec.ofNat 32 r₁.val) (BitVec.ofNat 32 (64 * r₂.val))) a + S1x16.size a ≤ S128x128.size a
  k0_off10_inb : ∀ k0_t1 : Fin k0_t1_loop.trips, ∀ (r₁ : Fin 16) (r₂ : Fin 2), ∀ a, (k0_off10 k0_t1 (BitVec.ofNat 32 r₁.val) (BitVec.ofNat 32 (64 * r₂.val))) a + S1x16.size a ≤ S128x128.size a
  k0_off11_inb : ∀ k0_t1 : Fin k0_t1_loop.trips, ∀ (r₁ : Fin 16) (r₂ : Fin 2), ∀ a, (k0_off11 k0_t1 (BitVec.ofNat 32 r₁.val) (BitVec.ofNat 32 (64 * r₂.val))) a + S1x16.size a ≤ S128x128.size a
  k0_off12_inb : ∀ k0_t1 : Fin k0_t1_loop.trips, ∀ (r₁ : Fin 16) (r₂ : Fin 2), ∀ a, (k0_off12 k0_t1 (BitVec.ofNat 32 r₁.val) (BitVec.ofNat 32 (64 * r₂.val))) a + S1x16.size a ≤ S128x128.size a
  k0_off13_inb : ∀ k0_t1 : Fin k0_t1_loop.trips, ∀ (r₁ : Fin 16) (r₂ : Fin 2), ∀ a, (k0_off13 k0_t1 (BitVec.ofNat 32 r₁.val) (BitVec.ofNat 32 (64 * r₂.val))) a + S1x16.size a ≤ S128x128.size a
  k0_off14_inb : ∀ k0_t1 : Fin k0_t1_loop.trips, ∀ a, (k0_off14 k0_t1) a + S1x1x16.size a ≤ S2x4x64.size a
  k0_off15_inb : ∀ k0_t1 : Fin k0_t1_loop.trips, ∀ a, (k0_off15 k0_t1) a + S1x1x16.size a ≤ S2x4x64.size a
  k0_off16_inb : ∀ k0_t1 : Fin k0_t1_loop.trips, ∀ a, (k0_off16 k0_t1) a + S1x1x16.size a ≤ S2x4x64.size a
  k0_off17_inb : ∀ k0_t1 : Fin k0_t1_loop.trips, ∀ a, (k0_off17 k0_t1) a + S1x1x16.size a ≤ S2x4x64.size a
  k0_off18_inb : ∀ i : grid0.Coords, ∀ a, (k0_off18 i) a + S1x128x128.size a ≤ S32x128x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S32x128x128.size a
  hwx1_0 : ∀ i : grid1.Coords, EltTy.bits .f32 = 32 ∨ (Rect.block (s := S32x128x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x64x128.size a ≤ S200x64x4096.size a
  hwx1_1 : ∀ i : grid1.Coords, EltTy.bits .f32 = 32 ∨ (Rect.block (s := S200x64x4096) S200x64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x64x128.size a ≤ S200x64x4096.size a
  hwx1_2 : ∀ i : grid1.Coords, EltTy.bits .f32 = 32 ∨ (Rect.block (s := S200x64x4096) S200x64x128.size (cc1_transform_2 i) (hinb1_2 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0

abbrev win1_0 : Pipeline.Window sig grid1 :=
  Pipeline.Window.ofSpec (Memref.whole main_v0) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S200x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S200x64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x200x64 : Shape := ⟨3, ![4096, 200, 64]⟩
abbrev S4096 : Shape := ⟨1, ![4096]⟩
abbrev S4x64 : Shape := ⟨2, ![4, 64]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S4096x1x64 : Shape := ⟨3, ![4096, 1, 64]⟩

abbrev nBuf : Space → Nat
  | .hbm => 56
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S4096, .i32⟩
  | .hbm, ⟨2, _⟩ => ⟨S4x64, .f32⟩
  | .hbm, ⟨3, _⟩ => ⟨S4x64, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x64, .f32⟩
  | .hbm, ⟨23, _⟩ => ⟨S4096x64, .i1⟩
  | .hbm, ⟨24, _⟩ => ⟨S_, .f32⟩
  | .hbm, ⟨25, _⟩ => ⟨S4096x64, .f32⟩
  | .hbm, ⟨26, _⟩ => ⟨S4096x64, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S1x1, .i32⟩
  | .hbm, ⟨40, _⟩ => ⟨S4096x1, .i32⟩
  | .hbm, ⟨41, _⟩ => ⟨S4096x1, .i1⟩
  | .hbm, ⟨42, _⟩ => ⟨S4096x1, .i1⟩
  | .hbm, ⟨43, _⟩ => ⟨S_, .i1⟩
  | .hbm, ⟨44, _⟩ => ⟨S4096, .i1⟩
  | .hbm, ⟨45, _⟩ => ⟨S4096x64, .f32⟩
  | .hbm, ⟨46, _⟩ => ⟨S4096x64, .i1⟩
  | .hbm, ⟨47, _⟩ => ⟨S_, .f32⟩
  | .hbm, ⟨48, _⟩ => ⟨S4096x64, .f32⟩
  | .hbm, ⟨49, _⟩ => ⟨S4096x64, .f32⟩
  | .hbm, ⟨50, _⟩ => ⟨S4096x1x64, .f32⟩
  | .hbm, ⟨51, _⟩ => ⟨S4096x200x64, .f32⟩
  | .hbm, ⟨52, _⟩ => ⟨S4096x200x64, .f32⟩
  | .hbm, ⟨53, _⟩ => ⟨S4096x1x64, .f32⟩
  | .hbm, ⟨54, _⟩ => ⟨S4096x200x64, .f32⟩
  | .hbm, ⟨55, _⟩ => ⟨S4096x200x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x64_0 : S4096.BroadcastsInDim S4096x64 (![0] : Fin 1 → Fin S4096x64.rank)
  bcast_S_S4096x64 : S_.BroadcastsInDim S4096x64 (![] : Fin 0 → Fin S4096x64.rank)
  bcast_S4096x64_S4096x1x64_0_2 : S4096x64.BroadcastsInDim S4096x1x64 (![0, 2] : Fin 2 → Fin S4096x1x64.rank)
  bcast_S4096x1x64_S4096x200x64_0_1_2 : S4096x1x64.BroadcastsInDim S4096x200x64 (![0, 1, 2] : Fin 3 → Fin S4096x200x64.rank)
  gather_S4x64_S4096x1_S4096x64_1_0_n_n_0_1_164_wf : GatherDims.WF S4x64 S4096x1 S4096x64 [1] [0] [] [0] [] 1 ![1, 64]

variable [Facts₀]

def gather_S4x64_S4096x1_S4096x64_1_0_n_n_0_1_164 : GatherDims S4x64 S4096x1 S4096x64 where
  offsetDims := [1]
  collapsedSliceDims := [0]
  operandBatchingDims := []
  startIndicesBatchingDims := []
  startIndexMap := [0]
  indexVectorDim := 1
  sliceSizes := ![1, 64]
  wf := gather_S4x64_S4096x1_S4096x64_1_0_n_n_0_1_164_wf

class Facts : Prop extends Facts₀ where

variable [Facts]
-- ==== Proof.Spec.lean ====
/-
  The function both programs compute, stated once, index by index, over literal shapes.

  A batch of 4096 samples, each a 200 × 64 array of features, is modulated per sample: sample `b` carries a
  choice `a b ∈ {0, 1, 2, 3}` of one of four rows of two 4 × 64 tables `γ` (scales) and `β` (shifts), and
    out (b, l, d) = feat (b, l, d) · γ (a b, d) + β (a b, d).

  One side looks the row up directly (`refOut`). The other first builds, for each block `w` of 128 consecutive
  samples, a 128 × 128 array whose row `r` holds at lane `k` the entry `d = r` of the chosen row of `γ`
  (rows 0 … 63) or the entry `d = r − 64` of the chosen row of `β` (rows 64 … 127) for sample `128 w + k`, the
  choice made by three comparisons of the index (`pick4`, `gbtOf`); then multiplies and adds on the features laid
  out as 200 × 64 × 4096 (`filmOf`), between two transpositions (`kerOut`). For an index in `{0, 1, 2, 3}` the
  three comparisons choose exactly the row the index names (`pick4_eq`), and a sample number is its block
  times 128 plus its lane, so the two sides agree entry by entry (`kerOut_eq_refOut`); no law of the
  arithmetic is used, only that both sides apply the same product and sum to the same three numbers.
-/
import Idealize.ShloMosaic.Lib.ValueIdx
import Idealize.ShloMosaic.Lib.Pipeline.Value

noncomputable section

namespace Cert.Proof.Affine

open Idealize.ShloMosaic Idealize.ShloMosaic.ValueIdx

abbrev SFeat : Shape := ⟨3, ![4096, 200, 64]⟩
abbrev SIdx : Shape := ⟨1, ![4096]⟩
abbrev STab : Shape := ⟨2, ![4, 64]⟩
abbrev SGbt : Shape := ⟨3, ![32, 128, 128]⟩
abbrev SFeatT : Shape := ⟨3, ![200, 64, 4096]⟩

/-- One of four values chosen by three comparisons of a word: below two? then zero or not; else two or not. -/
def pick4 {α : Type} (a : BitVec 32) (v0 v1 v2 v3 : α) : α :=
  Scalar.select (IntOp.cmpi .slt a 2#32) (Scalar.select (IntOp.cmpi .eq a 0#32) v0 v1) (Scalar.select (IntOp.cmpi .eq a 2#32) v2 v3)

/-- The row a word names, as a row number of a four-row table. -/
def rowOf (a : BitVec 32) : Fin 4 := ⟨a.toNat % 4, Nat.mod_lt _ (by decide)⟩

/-- For a word that is 0, 1, 2 or 3 the three comparisons choose the value it names. -/
theorem pick4_eq {α : Type} (a : BitVec 32) (h : a.toNat ≤ 3) (v : Fin 4 → α) : pick4 a (v 0) (v 1) (v 2) (v 3) = v (rowOf a) := by
  rcases Nat.lt_or_ge a.toNat 1 with h0 | h0
  · have : a = 0#32 := BitVec.eq_of_toNat_eq (by simp; omega)
    subst this; rfl
  rcases Nat.lt_or_ge a.toNat 2 with h1 | h1
  · have : a = 1#32 := BitVec.eq_of_toNat_eq (by simp; omega)
    subst this; rfl
  rcases Nat.lt_or_ge a.toNat 3 with h2 | h2
  · have : a = 2#32 := BitVec.eq_of_toNat_eq (by simp; omega)
    subst this; rfl
  · have : a = 3#32 := BitVec.eq_of_toNat_eq (by simp; omega)
    subst this; rfl

section Tables
variable {α : Type}

/-- Entry `r` of the stacked pair of tables' row `j`: `γ (j, r)` for `r < 64`, `β (j, r − 64)` from 64 on. -/
def tabAt (gamma beta : STab.Idx → α) (r : Fin 128) (j : Fin 4) : α :=
  if h : r.val < 64 then gamma (ix2 j ⟨r.val, h⟩) else beta (ix2 j ⟨r.val - 64, by have := r.isLt; omega⟩)

/-- The sample at lane `k` of block `w`. -/
def sampleOf (w : Fin 32) (k : Fin 128) : Fin 4096 := ⟨w.val * 128 + k.val, by have := w.isLt; have := k.isLt; omega⟩

/-- The blocks' arrays at coordinates: the chosen table entry for the sample at that lane. -/
def gbtAt (gamma beta : STab.Idx → α) (idx : SIdx.Idx → BitVec 32) (w : Fin 32) (r : Fin 128) (k : Fin 128) : α :=
  pick4 (idx (ix1 (sampleOf w k))) (tabAt gamma beta r 0) (tabAt gamma beta r 1) (tabAt gamma beta r 2) (tabAt gamma beta r 3)

/-- The blocks' arrays, 32 × 128 × 128. -/
def gbtOf (gamma beta : STab.Idx → α) (idx : SIdx.Idx → BitVec 32) : SGbt.Idx → α :=
  fun j => gbtAt gamma beta idx (j 0) (j 1) (j 2)

end Tables

section Arith
variable {F : FTy → Type} [FloatOps F]

/-- The block of a sample and its lane in the block. -/
def blockOf (b : Fin 4096) : Fin 32 := ⟨b.val / 128, by have := b.isLt; omega⟩
def laneOf (b : Fin 4096) : Fin 128 := ⟨b.val % 128, Nat.mod_lt _ (by decide)⟩
def lowRow (d : Fin 64) : Fin 128 := ⟨d.val, by have := d.isLt; omega⟩
def highRow (d : Fin 64) : Fin 128 := ⟨64 + d.val, by have := d.isLt; omega⟩

/-- The modulation on the transposed layout at coordinates: features (l, d, b) times the block array's row `d`
    plus its row `64 + d`, both at the sample's block and lane. -/
def filmAt (g : SGbt.Idx → F .f32) (x : SFeatT.Idx → F .f32) (l : Fin 200) (d : Fin 64) (b : Fin 4096) : F .f32 :=
  FloatOps.addf (FloatOps.mulf (x (ix3 l d b)) (g (ix3 (blockOf b) (lowRow d) (laneOf b)))) (g (ix3 (blockOf b) (highRow d) (laneOf b)))

/-- The modulation on the transposed layout, 200 × 64 × 4096. -/
def filmOf (g : SGbt.Idx → F .f32) (x : SFeatT.Idx → F .f32) : SFeatT.Idx → F .f32 :=
  fun j => filmAt g x (j 0) (j 1) (j 2)

/-- The looked-up side: the row the index names, entry by entry. -/
def refOut (feat : SFeat.Idx → F .f32) (idx : SIdx.Idx → BitVec 32) (gamma beta : STab.Idx → F .f32) : SFeat.Idx → F .f32 :=
  fun j => FloatOps.addf (FloatOps.mulf (feat j) (gamma (ix2 (rowOf (idx (ix1 (j 0)))) (j 2)))) (beta (ix2 (rowOf (idx (ix1 (j 0)))) (j 2)))

/-- The blockwise side at coordinates, the two transpositions read through. -/
def kerAt (feat : SFeat.Idx → F .f32) (idx : SIdx.Idx → BitVec 32) (gamma beta : STab.Idx → F .f32) (b : Fin 4096) (l : Fin 200) (d : Fin 64) : F .f32 :=
  FloatOps.addf (FloatOps.mulf (feat (ix3 b l d)) (gbtAt gamma beta idx (blockOf b) (lowRow d) (laneOf b)))
    (gbtAt gamma beta idx (blockOf b) (highRow d) (laneOf b))

theorem sampleOf_block_lane (b : Fin 4096) : sampleOf (blockOf b) (laneOf b) = b :=
  Fin.ext (by show b.val / 128 * 128 + b.val % 128 = b.val; omega)

theorem tabAt_low {α : Type} (gamma beta : STab.Idx → α) (d : Fin 64) (j : Fin 4) : tabAt gamma beta (lowRow d) j = gamma (ix2 j d) := by
  unfold tabAt lowRow; rw [dif_pos d.isLt]
theorem tabAt_high {α : Type} (gamma beta : STab.Idx → α) (d : Fin 64) (j : Fin 4) : tabAt gamma beta (highRow d) j = beta (ix2 j d) := by
  unfold tabAt highRow
  rw [dif_neg (by show ¬ 64 + d.val < 64; omega)]
  exact congrArg beta (congrArg (ix2 j) (Fin.ext (by show 64 + d.val - 64 = d.val; omega)))

/-- Entry by entry the blockwise side is the looked-up side, for indices that name a row. -/
theorem kerAt_eq_refOut (feat : SFeat.Idx → F .f32) (idx : SIdx.Idx → BitVec 32) (gamma beta : STab.Idx → F .f32)
    (hidx : ∀ b : Fin 4096, (idx (ix1 b)).toNat ≤ 3) (b : Fin 4096) (l : Fin 200) (d : Fin 64) :
    kerAt feat idx gamma beta b l d = refOut feat idx gamma beta (ix3 b l d) := by
  unfold kerAt refOut gbtAt
  rw [sampleOf_block_lane, pick4_eq _ (hidx b) (fun j => tabAt gamma beta (lowRow d) j), pick4_eq _ (hidx b) (fun j => tabAt gamma beta (highRow d) j),
    tabAt_low, tabAt_high]

end Arith

end Cert.Proof.Affine

end
-- ==== Proof.KISetup.lean ====
/-
  The idealized program as the launch theorem of a SparseCore program sees it: the thirty-two vector subcores
  each run one task — copy in a block of 128 sample indices and the two 4 × 64 tables, choose per lane and per
  table entry, copy the 128 × 128 result out to the block's row of a 32 × 128 × 128 array — and the TensorCore then
  transposes the features, runs the multiply-and-add over thirty-two blocks of samples, and transposes back.
  Here: the program's names for the theorem's parameters, the ghost state (the launch handshakes' rounds, the
  TensorCore pipeline's rounds, and counters for the subcores' own copies), the arrays as locations, the way
  sample blocks and result rows are dealt to subcores (subcore `s` of SparseCore `c` takes block `2 s + c`), and
  what the one SparseCore call hands each subcore and takes back.
-/
import proofs.«202883_g575525617868_bridgefix_179_20_alg».proof.Defs
import proofs.«202883_g575525617868_bridgefix_179_20_alg».proof.Proof.Gen.KernelIdeal
import proofs.«202883_g575525617868_bridgefix_179_20_alg».proof.Proof.Gen.KernelIdeal.Skeleton
import proofs.«202883_g575525617868_bridgefix_179_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KISetup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev featLoc (d : Dev nD) : Loc nD τ sig := (SparseCore.T d).loc main_arg0
abbrev idxLoc (d : Dev nD) : Loc nD τ sig := (SparseCore.T d).loc main_arg1
abbrev gamLoc (d : Dev nD) : Loc nD τ sig := (SparseCore.T d).loc main_arg2
abbrev betLoc (d : Dev nD) : Loc nD τ sig := (SparseCore.T d).loc main_arg3
abbrev gbtLoc (d : Dev nD) : Loc nD τ sig := (SparseCore.T d).loc main_v0
abbrev ftLoc (d : Dev nD) : Loc nD τ sig := (SparseCore.T d).loc main_v1
abbrev otLoc (d : Dev nD) : Loc nD τ sig := (SparseCore.T d).loc main_v2
abbrev outLoc (d : Dev nD) : Loc nD τ sig := (SparseCore.T d).loc main_v3

/-- The 32 × 128 × 128 array of chosen table entries, of the launch memory's tables and indices. -/
def gbtM (d : Dev nD) : Buf (Elt F) (gbtLoc d) :=
  gbtOf (α := F .f32) (m (gamLoc d)) (m (betLoc d)) (m (idxLoc d))

/-! ## Blocks of samples and rows of the result, dealt to subcores -/

theorem hdivI : 32 ∣ S4096.size 0 := ⟨128, rfl⟩
theorem hdivG : 32 ∣ S32x128x128.size 0 := ⟨1, rfl⟩
/-- Block `w` of the sample indices: entries `128 w … 128 w + 127`. -/
abbrev iBlk (w : Fin 32) : Rect S4096 := Rect.part (s := S4096) (a₀ := 0) hdivI w
/-- Row `w` of the result array: its 128 × 128 entries. -/
abbrev gRow (w : Fin 32) : Rect S32x128x128 := Rect.part (s := S32x128x128) (a₀ := 0) hdivG w
abbrev iSet (w : Fin 32) : Finset S4096.Idx := (iBlk w).set
abbrev gSet (w : Fin 32) : Finset S32x128x128.Idx := (gRow w).set

/-- The block a subcore works on: subcore `s` of SparseCore `c` takes block `2 s + c`. -/
def widOf (c : Fin 2) (s : Fin 16) : Fin 32 := ⟨2 * s.val + c.val, by have := c.isLt; have := s.isLt; omega⟩

/-! ## What the call hands a subcore, and takes back -/

abbrev idxPts (d : Dev nD) (w : Fin 32) : sProp 𝕄 := idxLoc d ↦[iSet w]{fullShare} m (idxLoc d)
abbrev gamTok (d : Dev nD) (w : Fin 32) : sProp 𝕄 := gamLoc d ↦{Transfers.shareTok fullShare 32 w} m (gamLoc d)
abbrev betTok (d : Dev nD) (w : Fin 32) : sProp 𝕄 := betLoc d ↦{Transfers.shareTok fullShare 32 w} m (betLoc d)
abbrev gbtPts (d : Dev nD) (w : Fin 32) (f : Buf (Elt F) (gbtLoc d)) : sProp 𝕄 := gbtLoc d ↦[gSet w]{fullShare} f

/-- A subcore's task takes its block of indices, a read share of each table and its row of the result; it hands
    them back with the row holding the chosen entries. -/
def goOf (d : Dev nD) (w : Fin 32) : sProp 𝕄 := iprop(idxPts m d w ∗ gamTok m d w ∗ betTok m d w ∗ gbtPts d w (m (gbtLoc d)))
def tdOf (d : Dev nD) (w : Fin 32) : sProp 𝕄 := iprop(idxPts m d w ∗ gamTok m d w ∗ betTok m d w ∗ gbtPts d w (gbtM m d))

def P : (K (F := F)).Pay (nD := nD) (Val := Elt F) (Name := ℕ) (U := UU) where
  st := fun q d c => match q with | 0 => bigSep Finset.univ fun i : Fin 16 => goOf m d (widOf (Fin.cast nCore_zero c) i)
  dn := fun q d c => match q with | 0 => bigSep Finset.univ fun i : Fin 16 => tdOf m d (widOf (Fin.cast nCore_zero c) i)
  go := fun q d c i => match q with | 0 => goOf m d (widOf (Fin.cast nCore_zero c) (Fin.cast nSub_zero i))
  td := fun q d c i => match q with | 0 => tdOf m d (widOf (Fin.cast nCore_zero c) (Fin.cast nSub_zero i))
  x := fun _ _ => iprop(emp)

instance goOf_storable (d : Dev nD) (w : Fin 32) : BI.Storable (upEmb : UEmb _ 𝕄) (goOf m d w) := by unfold goOf; infer_instance
instance tdOf_storable (d : Dev nD) (w : Fin 32) : BI.Storable (upEmb : UEmb _ 𝕄) (tdOf m d w) := by unfold tdOf; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KISetup

end
-- ==== Proof.KIPieces.lean ====
/-
  One trip of a subcore's loop as a list of stores. At trip `k` the task reads, for each of the two tables `t`
  and each of its four rows `j`, the sixteen entries `16 k … 16 k + 15`; for each of those entries `i` and each
  group `g` of sixteen lanes it stores into row `16 k + i + 64 t` of its 128 × 128 result, lanes `16 g … 16 g + 15`,
  the entry of the row that the lane's sample index chooses by three comparisons. Here that trip's 256 stores are
  built from the coordinates `(t, i, g)`, last store first, in the very spelling the program computes them; then each
  store writes, on its own sixteen cells, one function of the cell's coordinates (`outTarget`): the chosen
  table entry at `(row / 64, ·, row % 64)` for the sample at that lane.
-/
import proofs.«202883_g575525617868_bridgefix_179_20_alg».proof.Proof.KISetup

noncomputable section

namespace Cert.Proof.KIPieces

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KISetup

variable {F : FTy → Type} [FloatOps F]

local notation "𝕄" => MT nD τ sig (HIx 1) (Elt F) ℕ UU ℕ

local notation "gamV" => (Memref.whole Cert.KernelIdeal.main_arg2_scv : Memref Cert.KernelIdeal.sig Kind.scVector Space.hbm Cert.KernelIdeal.S4x64 EltTy.f32)
local notation "betV" => (Memref.whole Cert.KernelIdeal.main_arg3_scv : Memref Cert.KernelIdeal.sig Kind.scVector Space.hbm Cert.KernelIdeal.S4x64 EltTy.f32)
local notation "idxV" => (Memref.whole Cert.KernelIdeal.main_arg1_scv : Memref Cert.KernelIdeal.sig Kind.scVector Space.hbm Cert.KernelIdeal.S4096 EltTy.i32)
local notation "gbtV" => (Memref.whole Cert.KernelIdeal.main_v0_scv : Memref Cert.KernelIdeal.sig Kind.scVector Space.hbm Cert.KernelIdeal.S32x128x128 EltTy.f32)
local notation "sIdx" => (Memref.whole Cert.KernelIdeal.cc0_scratch0 : Memref Cert.KernelIdeal.sig Kind.scVector Space.vmem Cert.KernelIdeal.S128 EltTy.i32)
local notation "sGb" => (Memref.whole Cert.KernelIdeal.cc0_scratch1 : Memref Cert.KernelIdeal.sig Kind.scVector Space.vmem Cert.KernelIdeal.S2x4x64 EltTy.f32)
local notation "sOut" => (Memref.whole Cert.KernelIdeal.cc0_scratch2 : Memref Cert.KernelIdeal.sig Kind.scVector Space.vmem Cert.KernelIdeal.S128x128 EltTy.f32)

section Pieces

theorem inbI : ∀ g : Fin 8, ∀ a, (![16 * g.val] : Fin 1 → Nat) a + S16.size a ≤ S128.size a := by decide
theorem slicesI : ∀ i : Fin 16, S16.Slices ![i.val] S1 := by decide

/-- The offsets of table `t`'s row `j` at trip `k`, and of the store of lane group `g`. -/
def offT (t : Fin 2) (j : Fin 4) (k : Fin k0_t1_loop.trips) : Fin 3 → Nat :=
  match t, j with
  | 0, 0 => k0_off2 k | 0, 1 => k0_off3 k | 0, 2 => k0_off4 k | 0, 3 => k0_off5 k
  | 1, 0 => k0_off14 k | 1, 1 => k0_off15 k | 1, 2 => k0_off16 k | 1, 3 => k0_off17 k
theorem inbT (t : Fin 2) (j : Fin 4) (k : Fin k0_t1_loop.trips) : ∀ a, (offT t j k) a + S1x1x16.size a ≤ S2x4x64.size a :=
  match t, j with
  | 0, 0 => k0_off2_inb k | 0, 1 => k0_off3_inb k | 0, 2 => k0_off4_inb k | 0, 3 => k0_off5_inb k
  | 1, 0 => k0_off14_inb k | 1, 1 => k0_off15_inb k | 1, 2 => k0_off16_inb k | 1, 3 => k0_off17_inb k
def offG (g : Fin 8) (k : Fin k0_t1_loop.trips) (a b : BitVec 32) : Fin 2 → Nat :=
  match g with
  | 0 => k0_off6 k a b | 1 => k0_off7 k a b | 2 => k0_off8 k a b | 3 => k0_off9 k a b
  | 4 => k0_off10 k a b | 5 => k0_off11 k a b | 6 => k0_off12 k a b | 7 => k0_off13 k a b
theorem inbG (g : Fin 8) (k : Fin k0_t1_loop.trips) (i : Fin 16) (t : Fin 2) :
    ∀ a, (offG g k (BitVec.ofNat 32 i.val) (BitVec.ofNat 32 (64 * t.val))) a + S1x16.size a ≤ S128x128.size a :=
  match g with
  | 0 => k0_off6_inb k i t | 1 => k0_off7_inb k i t | 2 => k0_off8_inb k i t | 3 => k0_off9_inb k i t
  | 4 => k0_off10_inb k i t | 5 => k0_off11_inb k i t | 6 => k0_off12_inb k i t | 7 => k0_off13_inb k i t

variable (c6 : Vec F S128 .i32) (c7 : Vec F S2x4x64 .f32)

/-- The sixteen sample indices of lane group `g`, as the task loads them. -/
def idxVec (g : Fin 8) : IVec S16 32 :=
  shapeCast S16 (View.readAt (Elt F) (sIdx).view (Rect.unit (s := S128) ![16 * g.val] S16.size (inbI g)).toLoadRect c6) shapeCasts_S16_S16
/-- The same before the task's reshaping, and the three comparisons of a lane group's indices. -/
def rawIdx (g : Fin 8) : Vec F S16 .i32 :=
  View.readAt (Elt F) (sIdx).view (Rect.unit (s := S128) ![16 * g.val] S16.size (inbI g)).toLoadRect c6
def isZero (g : Fin 8) : IVec S16 1 := cmpi .eq (idxVec (F := F) c6 g) (broadcast S16 0#32)
def isTwo (g : Fin 8) : IVec S16 1 := cmpi .eq (idxVec (F := F) c6 g) (broadcast S16 2#32)
def isLow (g : Fin 8) : IVec S16 1 := cmpi .slt (idxVec (F := F) c6 g) (broadcast S16 2#32)
/-- Entry `16 k + i` of row `j` of table `t`, as the task extracts it. -/
def valOf (k : Fin k0_t1_loop.trips) (t : Fin 2) (j : Fin 4) (i : Fin 16) : F .f32 :=
  extractAt ![0] (extractStridedSlice S1 ![i.val]
    (shapeCast S16 (View.readAt (Elt F) (sGb).view (Rect.unit (s := S2x4x64) (offT t j k) S1x1x16.size (inbT t j k)).toLoadRect c7) shapeCasts_S1x1x16_S16 : FVec F S16 .f32)
    (slicesI i)) inpos_S1_p0
/-- What one store writes: per lane the table entry the lane's index chooses. -/
def pieceVal (k : Fin k0_t1_loop.trips) (g : Fin 8) (t : Fin 2) (i : Fin 16) : FVec F S1x16 .f32 :=
  shapeCast S1x16
    (select (cmpi .slt (idxVec (F := F) c6 g) (broadcast S16 2#32))
      (select (cmpi .eq (idxVec (F := F) c6 g) (broadcast S16 0#32)) (broadcast S16 (valOf c7 k t 0 i)) (broadcast S16 (valOf c7 k t 1 i)))
      (select (cmpi .eq (idxVec (F := F) c6 g) (broadcast S16 2#32)) (broadcast S16 (valOf c7 k t 2 i)) (broadcast S16 (valOf c7 k t 3 i))) : FVec F S16 .f32)
    shapeCasts_S16_S1x16
def mkPiece (k : Fin k0_t1_loop.trips) (g : Fin 8) (t : Fin 2) (i : Fin 16) : View.Piece (Elt F) S128x128 .f32 :=
  ⟨Rect.unit (s := S128x128) (offG g k (BitVec.ofNat 32 i.val) (BitVec.ofNat 32 (64 * t.val))) S1x16.size (inbG g k i t), pieceVal c6 c7 k g t i⟩
/-- A trip's stores, the last first. -/
def tripPieces (k : Fin k0_t1_loop.trips) : List (View.Piece (Elt F) S128x128 .f32) :=
  ((List.finRange 2).flatMap fun t => (List.finRange 16).flatMap fun i => (List.finRange 8).map fun g => mkPiece c6 c7 k g t i).reverse

end Pieces

end Cert.Proof.KIPieces

end
-- ==== Proof.KITrip.lean ====
/-
  One trip of a subcore's loop, run once at a symbolic trip number: from the table scratch at contents `c7` and
  the result scratch at contents `f`, the trip leaves the tables as they were and the result scratch at `f` with
  the trip's 256 stores written over it, the stores being the list built from coordinates. What is known of the
  result scratch is carried as a property `Q` of the trip number and the contents, preserved by writing a trip's
  stores: which property, and why it is preserved, is the mathematics of another module.
-/
import proofs.«202883_g575525617868_bridgefix_179_20_alg».proof.Proof.KIPieces

noncomputable section

namespace Cert.Proof.KITrip

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KISetup

variable {F : FTy → Type} [FloatOps F]

local notation "𝕄" => MT nD τ sig (HIx 1) (Elt F) ℕ UU ℕ

local notation "gamV" => (Memref.whole Cert.KernelIdeal.main_arg2_scv : Memref Cert.KernelIdeal.sig Kind.scVector Space.hbm Cert.KernelIdeal.S4x64 EltTy.f32)
local notation "betV" => (Memref.whole Cert.KernelIdeal.main_arg3_scv : Memref Cert.KernelIdeal.sig Kind.scVector Space.hbm Cert.KernelIdeal.S4x64 EltTy.f32)
local notation "idxV" => (Memref.whole Cert.KernelIdeal.main_arg1_scv : Memref Cert.KernelIdeal.sig Kind.scVector Space.hbm Cert.KernelIdeal.S4096 EltTy.i32)
local notation "gbtV" => (Memref.whole Cert.KernelIdeal.main_v0_scv : Memref Cert.KernelIdeal.sig Kind.scVector Space.hbm Cert.KernelIdeal.S32x128x128 EltTy.f32)
local notation "sIdx" => (Memref.whole Cert.KernelIdeal.cc0_scratch0 : Memref Cert.KernelIdeal.sig Kind.scVector Space.vmem Cert.KernelIdeal.S128 EltTy.i32)
local notation "sGb" => (Memref.whole Cert.KernelIdeal.cc0_scratch1 : Memref Cert.KernelIdeal.sig Kind.scVector Space.vmem Cert.KernelIdeal.S2x4x64 EltTy.f32)
local notation "sOut" => (Memref.whole Cert.KernelIdeal.cc0_scratch2 : Memref Cert.KernelIdeal.sig Kind.scVector Space.vmem Cert.KernelIdeal.S128x128 EltTy.f32)

open Cert.Proof.KIPieces

abbrev cV (L : grid0.Coords) : Fin τ.nSC := (L 0).castLE hcore0
abbrev jV (L : grid0.Coords) : Fin τ.nSub := (L 1).castLE hsub0

/-- What a trip starts from and ends at: the tables' scratch unchanged, the result scratch at contents of which
    `Q` holds at the trip's number. -/
def tripInv (d : Dev nD) (L : grid0.Coords) (c7 : Buf (Elt F) ((V d (cV L) (jV L)).loc cc0_scratch1))
    (Q : Nat → Buf (Elt F) ((V d (cV L) (jV L)).loc cc0_scratch2) → Prop) (k : Nat) (_ : PUnit) : sProp 𝕄 :=
  iprop(((sGb).view.loc (V d (cV L) (jV L)) ↦{fullShare} c7) ∗ ∃ f, ((sOut).view.loc (V d (cV L) (jV L)) ↦{fullShare} f) ∗ ⌜Q k f⌝)

set_option maxHeartbeats 40000000 in
set_option maxRecDepth 65536 in
theorem trip (d : Dev nD) (L : grid0.Coords) (c6 : Buf (Elt F) ((V d (cV L) (jV L)).loc cc0_scratch0)) (c7 : Buf (Elt F) ((V d (cV L) (jV L)).loc cc0_scratch1))
    (Q : Nat → Buf (Elt F) ((V d (cV L) (jV L)).loc cc0_scratch2) → Prop)
    (hQ : ∀ (k : Fin k0_t1_loop.trips) (f : Buf (Elt F) ((V d (cV L) (jV L)).loc cc0_scratch2)), Q k.val f →
      Q (k.val + 1) ((sOut).view.writes (Elt F) f (tripPieces (F := F) c6 c7 k)))
    (k : Fin k0_t1_loop.trips) (acc : PUnit) :
    tripInv (F := F) d L c7 Q k.val acc
      ⊢ wp frame (wpE (defs₀ (F := F)) 𝒱₀ (V d (cV L) (jV L)) none) Set.univ
          (k0_t1_body L gamV (Memref.isWhole_whole _) betV (Memref.isWhole_whole _) idxV (Memref.isWhole_whole _) gbtV (Memref.isWhole_whole _)
            sIdx (Memref.isWhole_whole _) sGb (Memref.isWhole_whole _) sOut (Memref.isWhole_whole _) cc0_scratch3 cc0_scratch4 cc0_scratch5 cc0_scoped0
            (isZero (F := F) c6 0) (isTwo (F := F) c6 0) (isLow (F := F) c6 0) (isZero (F := F) c6 1) (isTwo (F := F) c6 1) (isLow (F := F) c6 1)
            (isZero (F := F) c6 2) (isTwo (F := F) c6 2) (isLow (F := F) c6 2) (isZero (F := F) c6 3) (isTwo (F := F) c6 3) (isLow (F := F) c6 3)
            (isZero (F := F) c6 4) (isTwo (F := F) c6 4) (isLow (F := F) c6 4) (idxVec (F := F) c6 5) (isZero (F := F) c6 5) 2#32
            (rawIdx (F := F) c6 6) (rawIdx (F := F) c6 7) k acc)
          fun acc' => tripInv (F := F) d L c7 Q (k.val + 1) acc' := by
  unfold tripInv
  iintro ⟨H7, %f, H8, %hq⟩
  sl_exec_parts
  sl_step
  isplitl [H7]; · iexact H7
  iexists _
  isplitl [H8]; · iexact H8
  ipureintro
  exact hQ k f hq

end Cert.Proof.KITrip

end
-- ==== Proof.KIValue.lean ====
/-
  What the result scratch of a subcore holds. Row `r` of the 128 × 128 scratch is written at trip `(r % 64) / 16`;
  its lane `c` is to hold the entry `(r / 64, ·, r % 64)` of the table scratch (table `r / 64`, entry `r % 64`) in the
  row that the sample index at lane `c` chooses (`outTarget`). Each store of trip `k` writes exactly that on its
  sixteen cells (`mkPiece_ok`), the stores of trip `k` cover every cell of the rows of trip `k` (`covered`) and
  touch no other row (`not_covered`); so "the rows of the trips before `k` hold the target" is kept by a trip
  (`Qv_step`), holds of nothing before the first (`Qv_zero`) and of the whole scratch after the fourth (`Qv_four`).
-/
import proofs.«202883_g575525617868_bridgefix_179_20_alg».proof.Proof.KIPieces
import Idealize.ShloMosaic.Lib.Writes
import Idealize.ShloMosaic.Lib.Pipeline.Value

noncomputable section

namespace Cert.Proof.KIValue

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KISetup

variable {F : FTy → Type} [FloatOps F]

local notation "𝕄" => MT nD τ sig (HIx 1) (Elt F) ℕ UU ℕ

local notation "gamV" => (Memref.whole Cert.KernelIdeal.main_arg2_scv : Memref Cert.KernelIdeal.sig Kind.scVector Space.hbm Cert.KernelIdeal.S4x64 EltTy.f32)
local notation "betV" => (Memref.whole Cert.KernelIdeal.main_arg3_scv : Memref Cert.KernelIdeal.sig Kind.scVector Space.hbm Cert.KernelIdeal.S4x64 EltTy.f32)
local notation "idxV" => (Memref.whole Cert.KernelIdeal.main_arg1_scv : Memref Cert.KernelIdeal.sig Kind.scVector Space.hbm Cert.KernelIdeal.S4096 EltTy.i32)
local notation "gbtV" => (Memref.whole Cert.KernelIdeal.main_v0_scv : Memref Cert.KernelIdeal.sig Kind.scVector Space.hbm Cert.KernelIdeal.S32x128x128 EltTy.f32)
local notation "sIdx" => (Memref.whole Cert.KernelIdeal.cc0_scratch0 : Memref Cert.KernelIdeal.sig Kind.scVector Space.vmem Cert.KernelIdeal.S128 EltTy.i32)
local notation "sGb" => (Memref.whole Cert.KernelIdeal.cc0_scratch1 : Memref Cert.KernelIdeal.sig Kind.scVector Space.vmem Cert.KernelIdeal.S2x4x64 EltTy.f32)
local notation "sOut" => (Memref.whole Cert.KernelIdeal.cc0_scratch2 : Memref Cert.KernelIdeal.sig Kind.scVector Space.vmem Cert.KernelIdeal.S128x128 EltTy.f32)

open Cert.Proof.KIPieces

theorem trips_lt (k : Fin k0_t1_loop.trips) : k.val < 4 := lt_of_lt_of_le k.isLt k0_t1_abs.2.1

theorem offT_eq (t : Fin 2) (j : Fin 4) (k : Fin k0_t1_loop.trips) : offT t j k = ![t.val, j.val, 16 * k.val] := by
  match t, j with
  | 0, 0 => exact k0_off2_eq k | 0, 1 => exact k0_off3_eq k | 0, 2 => exact k0_off4_eq k | 0, 3 => exact k0_off5_eq k
  | 1, 0 => exact k0_off14_eq k | 1, 1 => exact k0_off15_eq k | 1, 2 => exact k0_off16_eq k | 1, 3 => exact k0_off17_eq k

theorem offG_eq (g : Fin 8) (k : Fin k0_t1_loop.trips) (i : Fin 16) (t : Fin 2) :
    offG g k (BitVec.ofNat 32 i.val) (BitVec.ofNat 32 (64 * t.val)) = ![16 * k.val + i.val + 64 * t.val, 16 * g.val] := by
  match g with
  | 0 => exact k0_off6_eq k i t | 1 => exact k0_off7_eq k i t | 2 => exact k0_off8_eq k i t | 3 => exact k0_off9_eq k i t
  | 4 => exact k0_off10_eq k i t | 5 => exact k0_off11_eq k i t | 6 => exact k0_off12_eq k i t | 7 => exact k0_off13_eq k i t

section Reads

variable (c6 : Vec F S128 .i32) (c7 : Vec F S2x4x64 .f32)

/-- The sample index at lane `l` of group `g` is the scratch's entry `16 g + l`. -/
theorem idxVec_apply (g : Fin 8) (l : Fin 16) :
    idxVec (F := F) c6 g (ix1 l) = c6 (ix1 ⟨16 * g.val + l.val, by have := g.isLt; have := l.isLt; omega⟩) := by
  unfold idxVec
  refine (congrFun (shapeCast_self (s := S16) _ _) (ix1 l)).trans ?_
  rw [View.readAt_apply]
  show c6 _ = c6 _
  refine congrArg c6 (funext fun a => Fin.ext ?_)
  match a with
  | ⟨0, _⟩ => show 16 * g.val + 1 * l.val = 16 * g.val + l.val; omega

/-- The table entry the task extracts is the scratch's `(t, j, 16 k + i)`. -/
theorem valOf_eq (k : Fin k0_t1_loop.trips) (t : Fin 2) (j : Fin 4) (i : Fin 16) :
    valOf (F := F) c7 k t j i = c7 (ix3 t j ⟨16 * k.val + i.val, by have := trips_lt k; have := i.isLt; omega⟩) := by
  unfold valOf extractAt
  rw [extractStridedSlice_apply _ _ _ _ (ix1 i) (fun a => by match a with | ⟨0, _⟩ => show i.val = i.val + 0; omega),
    shapeCast_apply _ _ (ix1 i) (ix3 (0 : Fin 1) (0 : Fin 1) i) (by
      rw [Shape.rowMajor_val_three, Shape.rowMajor_val_one]; simp),
    View.readAt_apply]
  show c7 _ = c7 _
  refine congrArg c7 (funext fun a => Fin.ext ?_)
  have e := offT_eq t j k
  match a with
  | ⟨0, _⟩ => show offT t j k 0 + 1 * 0 = t.val; rw [e]; simp
  | ⟨1, _⟩ => show offT t j k 1 + 1 * 0 = j.val; rw [e]; simp
  | ⟨2, _⟩ => show offT t j k 2 + 1 * i.val = 16 * k.val + i.val; rw [e]; simp

end Reads

/-! ## The target -/

def tOf (r : Fin 128) : Fin 2 := ⟨r.val / 64, by have := r.isLt; omega⟩
def dOf (r : Fin 128) : Fin 64 := ⟨r.val % 64, Nat.mod_lt _ (by decide)⟩

/-- What cell `(r, c)` of the result scratch is to hold. -/
def outTarget (c6 : Vec F S128 .i32) (c7 : Vec F S2x4x64 .f32) : S128x128.Idx → F .f32 := fun y =>
  pick4 (c6 (ix1 (y 1))) (c7 (ix3 (tOf (y 0)) (0 : Fin 4) (dOf (y 0)))) (c7 (ix3 (tOf (y 0)) (1 : Fin 4) (dOf (y 0))))
    (c7 (ix3 (tOf (y 0)) (2 : Fin 4) (dOf (y 0)))) (c7 (ix3 (tOf (y 0)) (3 : Fin 4) (dOf (y 0))))

section Pieces

variable (c6 : Vec F S128 .i32) (c7 : Vec F S2x4x64 .f32)

theorem pieceVal_apply (k : Fin k0_t1_loop.trips) (g : Fin 8) (t : Fin 2) (i : Fin 16) (u : Fin 1) (l : Fin 16) :
    pieceVal (F := F) c6 c7 k g t i (ix2 u l)
      = pick4 (c6 (ix1 ⟨16 * g.val + l.val, by have := g.isLt; have := l.isLt; omega⟩))
          (c7 (ix3 t (0 : Fin 4) ⟨16 * k.val + i.val, by have := trips_lt k; have := i.isLt; omega⟩))
          (c7 (ix3 t (1 : Fin 4) ⟨16 * k.val + i.val, by have := trips_lt k; have := i.isLt; omega⟩))
          (c7 (ix3 t (2 : Fin 4) ⟨16 * k.val + i.val, by have := trips_lt k; have := i.isLt; omega⟩))
          (c7 (ix3 t (3 : Fin 4) ⟨16 * k.val + i.val, by have := trips_lt k; have := i.isLt; omega⟩)) := by
  unfold pieceVal
  rw [shapeCast_apply _ _ (ix2 u l) (ix1 l) (by
    rw [Shape.rowMajor_val_one, Shape.rowMajor_val_two]; have := u.isLt; simp <;> omega)]
  show pick4 (idxVec (F := F) c6 g (ix1 l)) (valOf (F := F) c7 k t 0 i) (valOf (F := F) c7 k t 1 i) (valOf (F := F) c7 k t 2 i) (valOf (F := F) c7 k t 3 i) = _
  rw [idxVec_apply, valOf_eq, valOf_eq, valOf_eq, valOf_eq]

/-- Each store writes the target on its own cells. -/
theorem mkPiece_ok (k : Fin k0_t1_loop.trips) (g : Fin 8) (t : Fin 2) (i : Fin 16) (x : (mkPiece (F := F) c6 c7 k g t i).1.shape.Idx) :
    (mkPiece (F := F) c6 c7 k g t i).2 x = outTarget (F := F) c6 c7 ((mkPiece (F := F) c6 c7 k g t i).1.emb x) := by
  obtain ⟨u, l, rfl⟩ : ∃ (u : Fin 1) (l : Fin 16), x = ix2 u l := ⟨x 0, x 1, eq_ix2 x⟩
  show pieceVal (F := F) c6 c7 k g t i (ix2 u l) = _
  rw [pieceVal_apply]
  have hk := trips_lt k; have hi := i.isLt; have ht := t.isLt; have hg := g.isLt; have hl := l.isLt
  have hu : u.val = 0 := by have := u.isLt; omega
  have e := offG_eq g k i t
  have e0 : (((mkPiece (F := F) c6 c7 k g t i).1.emb (ix2 u l)) 0).val = 16 * k.val + i.val + 64 * t.val := by
    show offG g k (BitVec.ofNat 32 i.val) (BitVec.ofNat 32 (64 * t.val)) 0 + 1 * u.val = _; rw [e, hu]; simp
  have e1 : (((mkPiece (F := F) c6 c7 k g t i).1.emb (ix2 u l)) 1).val = 16 * g.val + l.val := by
    show offG g k (BitVec.ofNat 32 i.val) (BitVec.ofNat 32 (64 * t.val)) 1 + 1 * l.val = _; rw [e]; simp
  unfold outTarget
  have h1 : ((mkPiece (F := F) c6 c7 k g t i).1.emb (ix2 u l)) 1 = (⟨16 * g.val + l.val, by omega⟩ : Fin 128) := Fin.ext e1
  have ht' : tOf (((mkPiece (F := F) c6 c7 k g t i).1.emb (ix2 u l)) 0) = t := Fin.ext (by show _ / 64 = t.val; rw [e0]; omega)
  have hd' : dOf (((mkPiece (F := F) c6 c7 k g t i).1.emb (ix2 u l)) 0) = (⟨16 * k.val + i.val, by omega⟩ : Fin 64) :=
    Fin.ext (by show _ % 64 = 16 * k.val + i.val; rw [e0]; omega)
  rw [h1, ht', hd']

theorem mem_tripPieces (k : Fin k0_t1_loop.trips) (p : View.Piece (Elt F) S128x128 .f32) :
    p ∈ tripPieces (F := F) c6 c7 k ↔ ∃ (t : Fin 2) (i : Fin 16) (g : Fin 8), p = mkPiece (F := F) c6 c7 k g t i := by
  unfold tripPieces
  simp only [List.mem_reverse, List.mem_flatMap, List.mem_map, List.mem_finRange, true_and]
  constructor
  · rintro ⟨t, i, g, rfl⟩; exact ⟨t, i, g, rfl⟩
  · rintro ⟨t, i, g, rfl⟩; exact ⟨t, i, g, rfl⟩

/-- The trip a row is written at. -/
def tripOf (y : S128x128.Idx) : Nat := ((y 0).val % 64) / 16

theorem mem_piece_iff (k : Fin k0_t1_loop.trips) (g : Fin 8) (t : Fin 2) (i : Fin 16) (y : S128x128.Idx) :
    y ∈ (mkPiece (F := F) c6 c7 k g t i).1.set ↔ (y 0).val = 16 * k.val + i.val + 64 * t.val ∧ 16 * g.val ≤ (y 1).val ∧ (y 1).val < 16 * g.val + 16 := by
  show y ∈ (Rect.unit (s := S128x128) (offG g k (BitVec.ofNat 32 i.val) (BitVec.ofNat 32 (64 * t.val))) S1x16.size (inbG g k i t)).set ↔ _
  rw [Rect.mem_set_unit, offG_eq]
  constructor
  · intro h
    have h0 := h 0; have h1 := h 1
    simp at h0 h1
    omega
  · rintro ⟨h0, h1, h2⟩ a
    match a with
    | ⟨0, _⟩ => simp; omega
    | ⟨1, _⟩ => simp; omega

theorem covered (k : Fin k0_t1_loop.trips) (y : S128x128.Idx) (h : tripOf y = k.val) : ∃ p ∈ tripPieces (F := F) c6 c7 k, y ∈ p.1.set := by
  have hy0 : (y 0).val < 128 := (y 0).isLt
  have hy1 : (y 1).val < 128 := (y 1).isLt
  unfold tripOf at h
  refine ⟨mkPiece (F := F) c6 c7 k ⟨(y 1).val / 16, by omega⟩ ⟨(y 0).val / 64, by omega⟩ ⟨(y 0).val % 16, Nat.mod_lt _ (by decide)⟩,
    (mem_tripPieces c6 c7 k _).mpr ⟨_, _, _, rfl⟩, (mem_piece_iff c6 c7 k _ _ _ y).mpr ⟨?_, ?_, ?_⟩⟩
  · show (y 0).val = 16 * k.val + (y 0).val % 16 + 64 * ((y 0).val / 64); omega
  · show 16 * ((y 1).val / 16) ≤ (y 1).val; omega
  · show (y 1).val < 16 * ((y 1).val / 16) + 16; omega

theorem not_covered (k : Fin k0_t1_loop.trips) (y : S128x128.Idx) (h : tripOf y ≠ k.val) : ∀ p ∈ tripPieces (F := F) c6 c7 k, y ∉ p.1.set := by
  intro p hp hy
  obtain ⟨t, i, g, rfl⟩ := (mem_tripPieces c6 c7 k p).mp hp
  obtain ⟨h0, -, -⟩ := (mem_piece_iff c6 c7 k g t i y).mp hy
  have := trips_lt k; have := i.isLt; have := t.isLt
  apply h; unfold tripOf; omega

/-- The rows of the trips before `k` hold the target. -/
def Qv (k : Nat) (f : S128x128.Idx → F .f32) : Prop := ∀ y, tripOf y < k → f y = outTarget (F := F) c6 c7 y

theorem Qv_zero (f : S128x128.Idx → F .f32) : Qv (F := F) c6 c7 0 f := fun _ h => absurd h (Nat.not_lt_zero _)

theorem Qv_step (k : Fin k0_t1_loop.trips) (f : S128x128.Idx → F .f32) (h : Qv (F := F) c6 c7 k.val f) :
    Qv (F := F) c6 c7 (k.val + 1) ((sOut).view.writes (Elt F) f (tripPieces (F := F) c6 c7 k)) := by
  intro y hy
  have hr : ∀ g' : (sOut).view.ty.Contents (Elt F), (sOut).view.read (Elt F) g' = g' := fun _ => rfl
  by_cases hrow : tripOf y = k.val
  · have h1 := View.read_writes_apply_of_pieces (v := (sOut).view) (f := f) (outTarget (F := F) c6 c7) (tripPieces (F := F) c6 c7 k)
      (fun p hp x => by obtain ⟨t, i, g, rfl⟩ := (mem_tripPieces c6 c7 k p).mp hp; exact mkPiece_ok c6 c7 k g t i x) y (covered c6 c7 k y hrow)
    rw [hr] at h1
    exact h1
  · have h2 := View.read_writes_apply_of_forall_not_mem (v := (sOut).view) (f := f) y (tripPieces (F := F) c6 c7 k) (not_covered c6 c7 k y hrow)
    rw [hr, hr] at h2
    exact h2.trans (h y (by omega))

theorem Qv_four (f : S128x128.Idx → F .f32) (h : Qv (F := F) c6 c7 4 f) : f = outTarget (F := F) c6 c7 :=
  funext fun y => h y (by unfold tripOf; have := (y 0).isLt; omega)

end Pieces

end Cert.Proof.KIValue

end
-- ==== Proof.KIViews.lean ====
/-
  A subcore's memrefs against the arrays the call deals it. Subcore `(c, s)` slices sample indices
  `128 (2 s + c) … + 127` and row `2 s + c` of the result array: those slices are block `2 s + c` of the partitions
  of the two arrays into thirty-two parts, so what the call hands over on a part is what the slice's memref holds.
  The table scratch, 2 × 4 × 64, is two halves, one per table, each the landing place of one copy: held as its
  halves while the copies are in flight and whole again after. Also here: the subcore's own four copy
  semaphores and three scratch buffers taken out of what it owns.
-/
import proofs.«202883_g575525617868_bridgefix_179_20_alg».proof.Proof.KIPieces

noncomputable section

namespace Cert.Proof.KIViews

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KISetup

variable {F : FTy → Type} [FloatOps F]

local notation "𝕄" => MT nD τ sig (HIx 1) (Elt F) ℕ UU ℕ

local notation "gamV" => (Memref.whole Cert.KernelIdeal.main_arg2_scv : Memref Cert.KernelIdeal.sig Kind.scVector Space.hbm Cert.KernelIdeal.S4x64 EltTy.f32)
local notation "betV" => (Memref.whole Cert.KernelIdeal.main_arg3_scv : Memref Cert.KernelIdeal.sig Kind.scVector Space.hbm Cert.KernelIdeal.S4x64 EltTy.f32)
local notation "idxV" => (Memref.whole Cert.KernelIdeal.main_arg1_scv : Memref Cert.KernelIdeal.sig Kind.scVector Space.hbm Cert.KernelIdeal.S4096 EltTy.i32)
local notation "gbtV" => (Memref.whole Cert.KernelIdeal.main_v0_scv : Memref Cert.KernelIdeal.sig Kind.scVector Space.hbm Cert.KernelIdeal.S32x128x128 EltTy.f32)
local notation "sIdx" => (Memref.whole Cert.KernelIdeal.cc0_scratch0 : Memref Cert.KernelIdeal.sig Kind.scVector Space.vmem Cert.KernelIdeal.S128 EltTy.i32)
local notation "sGb" => (Memref.whole Cert.KernelIdeal.cc0_scratch1 : Memref Cert.KernelIdeal.sig Kind.scVector Space.vmem Cert.KernelIdeal.S2x4x64 EltTy.f32)
local notation "sOut" => (Memref.whole Cert.KernelIdeal.cc0_scratch2 : Memref Cert.KernelIdeal.sig Kind.scVector Space.vmem Cert.KernelIdeal.S128x128 EltTy.f32)

open Cert.Proof.KIPieces

abbrev cV (L : grid0.Coords) : Fin τ.nSC := (L 0).castLE hcore0
abbrev jV (L : grid0.Coords) : Fin τ.nSub := (L 1).castLE hsub0

theorem bound0 : grid0.bound 0 = 2 := rfl
theorem bound1 : grid0.bound 1 = 16 := rfl
/-- The block a subcore works on. -/
def wL (L : grid0.Coords) : Fin 32 := widOf (Fin.cast bound0 (L 0)) (Fin.cast bound1 (L 1))
theorem wL_val (L : grid0.Coords) : (wL L).val = 2 * (L 1).val + (L 0).val := rfl

abbrev idxSl (L : grid0.Coords) : Memref sig .scVector .hbm S128 .i32 :=
  (idxV).slice (Rect.unit (s := S4096) (k0_off1 L) S128.size (k0_off1_inb L)) (fun _ => rfl)
abbrev outSl (L : grid0.Coords) : Memref sig .scVector .hbm S128x128 .f32 :=
  ((gbtV).slice (Rect.unit (s := S32x128x128) (k0_off18 L) S1x128x128.size (k0_off18_inb L)) (fun _ => rfl)).squeeze S128x128 squeezes_S1x128x128_S128x128
abbrev gbSl0 : Memref sig .scVector .vmem S4x64 .f32 :=
  ((sGb).slice (Rect.unit (s := S2x4x64) ![0, 0, 0] S1x4x64.size inb_S2x4x64_S1x4x64_0_0_0) (fun _ => rfl)).squeeze S4x64 squeezes_S1x4x64_S4x64
abbrev gbSl1 : Memref sig .scVector .vmem S4x64 .f32 :=
  ((sGb).slice (Rect.unit (s := S2x4x64) ![1, 0, 0] S1x4x64.size inb_S2x4x64_S1x4x64_1_0_0) (fun _ => rfl)).squeeze S4x64 squeezes_S1x4x64_S4x64

/-! ## The slices are the parts -/

theorem idxRect_eq (L : grid0.Coords) : Rect.unit (s := S4096) (k0_off1 L) S128.size (k0_off1_inb L) = iBlk (wL L) := by
  unfold iBlk Rect.part Rect.block
  congr 1 <;> funext a
  · rw [k0_off1_eq]
    match a with
    | ⟨0, _⟩ => simp [Shape.partIx, Shape.partSize, wL_val]; omega
  · match a with
    | ⟨0, _⟩ => simp [Shape.partSize]

theorem outRect_eq (L : grid0.Coords) : Rect.unit (s := S32x128x128) (k0_off18 L) S1x128x128.size (k0_off18_inb L) = gRow (wL L) := by
  unfold gRow Rect.part Rect.block
  congr 1 <;> funext a
  · rw [k0_off18_eq]
    match a with
    | ⟨0, _⟩ => simp [Shape.partIx, Shape.partSize, wL_val]
    | ⟨1, _⟩ => simp [Shape.partIx, Shape.partSize]
    | ⟨2, _⟩ => simp [Shape.partIx, Shape.partSize]
  · match a with
    | ⟨0, _⟩ => simp [Shape.partSize]
    | ⟨1, _⟩ => simp [Shape.partSize]
    | ⟨2, _⟩ => simp [Shape.partSize]

theorem set_idxSl (L : grid0.Coords) : (idxSl L).view.set = iSet (wL L) := by
  show ((View.whole (main_arg1_scv : Ref sig .scVector)).slice (Rect.unit (s := S4096) (k0_off1 L) S128.size (k0_off1_inb L))).set = _
  rw [View.set_slice_whole, idxRect_eq]

theorem set_outSl (L : grid0.Coords) : (outSl L).view.set = gSet (wL L) := by
  show (((View.whole (main_v0_scv : Ref sig .scVector)).slice (Rect.unit (s := S32x128x128) (k0_off18 L) S1x128x128.size (k0_off18_inb L))).reshape S128x128
    squeezes_S1x128x128_S128x128.numel_eq).set = _
  rw [View.set_reshape, View.set_slice_whole]
  exact congrArg (fun r : Rect S32x128x128 => r.set) (outRect_eq L)

/-! ## The table scratch as its two halves -/

theorem hdivT : 2 ∣ S2x4x64.size 0 := ⟨1, rfl⟩
abbrev tHalf (t : Fin 2) : Rect S2x4x64 := Rect.part (s := S2x4x64) (a₀ := 0) hdivT t
abbrev tSet (t : Fin 2) : Finset S2x4x64.Idx := (tHalf t).set

theorem half0_eq : Rect.unit (s := S2x4x64) ![0, 0, 0] S1x4x64.size inb_S2x4x64_S1x4x64_0_0_0 = tHalf 0 := by
  unfold tHalf Rect.part Rect.block
  congr 1 <;> funext a <;> match a with
    | ⟨0, _⟩ => simp [Shape.partIx, Shape.partSize]
    | ⟨1, _⟩ => simp [Shape.partIx, Shape.partSize]
    | ⟨2, _⟩ => simp [Shape.partIx, Shape.partSize]
theorem half1_eq : Rect.unit (s := S2x4x64) ![1, 0, 0] S1x4x64.size inb_S2x4x64_S1x4x64_1_0_0 = tHalf 1 := by
  unfold tHalf Rect.part Rect.block
  congr 1 <;> funext a <;> match a with
    | ⟨0, _⟩ => simp [Shape.partIx, Shape.partSize]
    | ⟨1, _⟩ => simp [Shape.partIx, Shape.partSize]
    | ⟨2, _⟩ => simp [Shape.partIx, Shape.partSize]

theorem set_gbSl0 : (gbSl0).view.set = tSet 0 := by
  show (((View.whole (cc0_scratch1 : Ref sig .scVector)).slice (Rect.unit (s := S2x4x64) ![0, 0, 0] S1x4x64.size inb_S2x4x64_S1x4x64_0_0_0)).reshape S4x64
    squeezes_S1x4x64_S4x64.numel_eq).set = _
  rw [View.set_reshape, View.set_slice_whole]
  exact congrArg (fun r : Rect S2x4x64 => r.set) half0_eq
theorem set_gbSl1 : (gbSl1).view.set = tSet 1 := by
  show (((View.whole (cc0_scratch1 : Ref sig .scVector)).slice (Rect.unit (s := S2x4x64) ![1, 0, 0] S1x4x64.size inb_S2x4x64_S1x4x64_1_0_0)).reshape S4x64
    squeezes_S1x4x64_S4x64.numel_eq).set = _
  rw [View.set_reshape, View.set_slice_whole]
  exact congrArg (fun r : Rect S2x4x64 => r.set) half1_eq

theorem tSet_disjoint : Disjoint (tSet 0) (tSet 1) := Rect.part_disjoint hdivT (by decide)
theorem tSet_union : tSet 0 ∪ tSet 1 = Finset.univ := by
  have h := Rect.biUnion_part (s := S2x4x64) (a₀ := 0) hdivT
  rw [show (Finset.univ : Finset (Fin 2)) = {0, 1} by decide, Finset.biUnion_insert, Finset.singleton_biUnion] at h
  exact h

end Cert.Proof.KIViews

end
-- ==== Proof.KITile.lean ====
/-
  One subcore's whole task. It copies in its 128 sample indices and the two tables (three copies on three
  semaphores, all waited for before anything is read), makes the eight groups' comparisons, runs the four trips, and
  copies its 128 × 128 result out to its row of the result array. After the copies the index scratch holds the
  subcore's block of indices and the table scratch holds the first table in its first half and the second in its
  second; after the four trips the result scratch is the target of those contents, which at row `r`, lane `c` is
  the entry `r % 64` of the row, of table `r / 64`, that sample `128 w + c`'s index chooses: the block array's row
  `w` as the specification states it. So the task hands back its block of indices, its shares of the tables, and its
  row of the result array holding the specified entries.
-/
import proofs.«202883_g575525617868_bridgefix_179_20_alg».proof.Proof.KITrip
import proofs.«202883_g575525617868_bridgefix_179_20_alg».proof.Proof.KIValue
import proofs.«202883_g575525617868_bridgefix_179_20_alg».proof.Proof.KIViews

noncomputable section

namespace Cert.Proof.KITile

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KISetup

variable {F : FTy → Type} [FloatOps F]

local notation "𝕄" => MT nD τ sig (HIx 1) (Elt F) ℕ UU ℕ

local notation "gamV" => (Memref.whole Cert.KernelIdeal.main_arg2_scv : Memref Cert.KernelIdeal.sig Kind.scVector Space.hbm Cert.KernelIdeal.S4x64 EltTy.f32)
local notation "betV" => (Memref.whole Cert.KernelIdeal.main_arg3_scv : Memref Cert.KernelIdeal.sig Kind.scVector Space.hbm Cert.KernelIdeal.S4x64 EltTy.f32)
local notation "idxV" => (Memref.whole Cert.KernelIdeal.main_arg1_scv : Memref Cert.KernelIdeal.sig Kind.scVector Space.hbm Cert.KernelIdeal.S4096 EltTy.i32)
local notation "gbtV" => (Memref.whole Cert.KernelIdeal.main_v0_scv : Memref Cert.KernelIdeal.sig Kind.scVector Space.hbm Cert.KernelIdeal.S32x128x128 EltTy.f32)
local notation "sIdx" => (Memref.whole Cert.KernelIdeal.cc0_scratch0 : Memref Cert.KernelIdeal.sig Kind.scVector Space.vmem Cert.KernelIdeal.S128 EltTy.i32)
local notation "sGb" => (Memref.whole Cert.KernelIdeal.cc0_scratch1 : Memref Cert.KernelIdeal.sig Kind.scVector Space.vmem Cert.KernelIdeal.S2x4x64 EltTy.f32)
local notation "sOut" => (Memref.whole Cert.KernelIdeal.cc0_scratch2 : Memref Cert.KernelIdeal.sig Kind.scVector Space.vmem Cert.KernelIdeal.S128x128 EltTy.f32)

open Cert.Proof.KIPieces Cert.Proof.KIValue Cert.Proof.KIViews
open Cert.Proof.KITrip (tripInv trip)

variable (m : (ℓ : Loc nD τ sig) → Buf (Elt F) ℓ)

/-! ## The subcore's own semaphores and scratch buffers -/

section Own

variable (d : Dev nD) (L : grid0.Coords)

abbrev cell (s : DmaSem sig) : GSem nD τ sig := (V d (cV L) (jV L), .dma s)

omit [FloatOps F] in
theorem cell_mem (s : DmaSem sig) (h : (SemLoc.dma s : SemLoc sig).isScoped .scVector = true) : cell d L s ∈ ownCells (V d (cV L) (jV L)) :=
  (mem_ownCells (g := cell d L s)).mpr ⟨rfl, h⟩
omit [FloatOps F] in
theorem cell_ne {s s' : DmaSem sig} (h : s ≠ s') : cell d L s ≠ cell d L s' := fun e => h (SemLoc.dma.inj (Prod.mk.inj e).2)

omit [FloatOps F] in
theorem ownSems0_V :
    (ownSems0 (V d (cV L) (jV L)) : sProp 𝕄)
      = iprop(semVal (cell d L cc0_scratch3.sem) 0 ∗ semVal (cell d L cc0_scratch4.sem) 0 ∗ semVal (cell d L cc0_scratch5.sem) 0 ∗ semVal (cell d L cc0_scoped0.sem) 0
          ∗ bigSep (((((ownCells (V d (cV L) (jV L))).erase (cell d L cc0_scratch3.sem)).erase (cell d L cc0_scratch4.sem)).erase (cell d L cc0_scratch5.sem)).erase (cell d L cc0_scoped0.sem))
              fun g => semVal g 0) := by
  unfold SparseCore.Cfg.ownSems0
  rw [SparseCore.bigSep_erase' (cell_mem d L cc0_scratch3.sem (by decide)),
    SparseCore.bigSep_erase' (Finset.mem_erase.mpr ⟨cell_ne d L (by decide), cell_mem d L cc0_scratch4.sem (by decide)⟩),
    SparseCore.bigSep_erase' (Finset.mem_erase.mpr ⟨cell_ne d L (by decide), Finset.mem_erase.mpr ⟨cell_ne d L (by decide), cell_mem d L cc0_scratch5.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped0.sem (by decide)⟩⟩⟩)]

abbrev bref (b : Ref sig .scVector) : DevRef τ sig := (Proc.scVector (cV L) (jV L)).devRef b
omit [FloatOps F] in
theorem bref_mem (b : Ref sig .scVector) (h : ((Proc.scVector (cV L) (jV L)).devRef b).owner = .proc (Proc.scVector (cV L) (jV L))) :
    bref L b ∈ ownRefs (τ := τ) (.scVector (cV L) (jV L)) := SparseCore.Cfg.mem_ownRefs_of_owner (p := Proc.scVector (cV L) (jV L)) h
omit [FloatOps F] in
theorem bref_ne {b b' : Ref sig .scVector} (h : b ≠ b') : bref L b ≠ bref L b' := fun e => h (Proc.devRef_injective _ e)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (bref L cc0_scratch0)).erase (bref L cc0_scratch1)).erase (bref L cc0_scratch2))
              fun b => iprop(∃ f, ((d, b) : Loc nD τ sig) ↦{fullShare} f)) := by
  unfold SparseCore.Cfg.ownBufs
  refine (SparseCore.bigSep_erase' (bref_mem L cc0_scratch0 rfl)).trans ?_
  rw [SparseCore.bigSep_erase' (Finset.mem_erase.mpr ⟨bref_ne L (by decide), bref_mem L cc0_scratch1 rfl⟩),
    SparseCore.bigSep_erase' (Finset.mem_erase.mpr ⟨bref_ne L (by decide), Finset.mem_erase.mpr ⟨bref_ne L (by decide), bref_mem L cc0_scratch2 rfl⟩⟩)]

end Own

/-! ## The dealt arrays through the subcore's memrefs -/

section Pts

variable (d : Dev nD) (L : grid0.Coords)

omit [FloatOps F] in
theorem pts_idx (f : Buf (Elt F) (idxLoc d)) :
    ((idxSl L).view.loc (V d (cV L) (jV L)) ↦[(idxSl L).view.set]{fullShare} f : sProp 𝕄) = idxLoc d ↦[iSet (wL L)]{fullShare} f := by
  rw [set_idxSl]
omit [FloatOps F] in
theorem pts_out (f : Buf (Elt F) (gbtLoc d)) :
    ((outSl L).view.loc (V d (cV L) (jV L)) ↦[(outSl L).view.set]{fullShare} f : sProp 𝕄) = gbtLoc d ↦[gSet (wL L)]{fullShare} f := by
  rw [set_outSl]
omit [FloatOps F] in
theorem pts_gam (q : PosShare TreeShare) (f : Buf (Elt F) (gamLoc d)) :
    ((gamV).view.loc (V d (cV L) (jV L)) ↦{q} f : sProp 𝕄) = gamLoc d ↦{q} f := by
  simp only [Memref.view_whole, View.set_whole]
omit [FloatOps F] in
theorem pts_bet (q : PosShare TreeShare) (f : Buf (Elt F) (betLoc d)) :
    ((betV).view.loc (V d (cV L) (jV L)) ↦{q} f : sProp 𝕄) = betLoc d ↦{q} f := by
  simp only [Memref.view_whole, View.set_whole]
omit [FloatOps F] in
theorem pts_s6 (f : Buf (Elt F) ((V d (cV L) (jV L)).loc cc0_scratch0)) :
    ((sIdx).view.loc (V d (cV L) (jV L)) ↦{fullShare} f : sProp 𝕄) = (V d (cV L) (jV L)).loc cc0_scratch0 ↦{fullShare} f := rfl
omit [FloatOps F] in
theorem pts_s7 (f : Buf (Elt F) ((V d (cV L) (jV L)).loc cc0_scratch1)) :
    ((sGb).view.loc (V d (cV L) (jV L)) ↦{fullShare} f : sProp 𝕄) = (V d (cV L) (jV L)).loc cc0_scratch1 ↦{fullShare} f := rfl
omit [FloatOps F] in
theorem pts_s8 (f : Buf (Elt F) ((V d (cV L) (jV L)).loc cc0_scratch2)) :
    ((sOut).view.loc (V d (cV L) (jV L)) ↦{fullShare} f : sProp 𝕄) = (V d (cV L) (jV L)).loc cc0_scratch2 ↦{fullShare} f := rfl

omit [FloatOps F] in
/-- The table scratch whole is its two halves, as the two landing memrefs hold them. -/
theorem s7_split (f : Buf (Elt F) ((V d (cV L) (jV L)).loc cc0_scratch1)) :
    ((V d (cV L) (jV L)).loc cc0_scratch1 ↦{fullShare} f : sProp 𝕄)
      ⊣⊢ iprop(((gbSl0).view.loc (V d (cV L) (jV L)) ↦[(gbSl0).view.set]{fullShare} f) ∗ ((gbSl1).view.loc (V d (cV L) (jV L)) ↦[(gbSl1).view.set]{fullShare} f)) := by
  rw [set_gbSl0, set_gbSl1]
  have h := pointsTo_union (ℓ := (V d (cV L) (jV L)).loc cc0_scratch1) (q := fullShare) (f := f) (Val := Elt F) (Ix := HIx 1) (Name := ℕ) (U := UU) (Lvl := ℕ) tSet_disjoint
  rw [tSet_union] at h
  exact h

end Pts

/-! ## What the scratches hold after the copies -/

section Contents

variable (d : Dev nD) (L : grid0.Coords)

/-- The two tables as the table scratch is to hold them: the first in its first half, the second in its second. -/
def tabs : Vec F S2x4x64 .f32 := fun y =>
  if (y 0).val = 0 then (m (gamLoc d) : S4x64.Idx → F .f32) (ix2 (y 1) (y 2)) else (m (betLoc d) : S4x64.Idx → F .f32) (ix2 (y 1) (y 2))
/-- The subcore's block of sample indices. -/
def blk : Vec F S128 .i32 := (idxSl L).view.read (Elt F) (m (idxLoc d))

omit [FloatOps F] in
theorem tabs_zero (j : Fin 4) (dd : Fin 64) : tabs m d (ix3 (0 : Fin 2) j dd) = (m (gamLoc d) : S4x64.Idx → F .f32) (ix2 j dd) := rfl
omit [FloatOps F] in
theorem tabs_one (j : Fin 4) (dd : Fin 64) : tabs m d (ix3 (1 : Fin 2) j dd) = (m (betLoc d) : S4x64.Idx → F .f32) (ix2 j dd) := rfl

omit [FloatOps F] in
theorem emb_idxSl (l : Fin 128) : (idxSl L).view.emb (ix1 l) = ix1 (sampleOf (wL L) l) := by
  funext a; apply Fin.ext
  match a with
  | ⟨0, _⟩ =>
    show (k0_off1 L) 0 + 1 * l.val = (wL L).val * 128 + l.val
    rw [k0_off1_eq, wL_val]; simp; omega

omit [FloatOps F] in
theorem blk_apply (l : Fin 128) : blk m d L (ix1 l) = (m (idxLoc d) : S4096.Idx → BitVec 32) (ix1 (sampleOf (wL L) l)) := by
  unfold blk; rw [View.read_apply, emb_idxSl]; exact cast_eq _ _

omit [FloatOps F] in
theorem emb_gbSl0 (x : S4x64.Idx) : (gbSl0).view.emb x = ix3 (0 : Fin 2) (x 0) (x 1) := by
  have hz : Shape.reshapeEquiv (squeezes_S1x4x64_S4x64.numel_eq) x = (ix3 (0 : Fin 1) (x 0) (x 1) : S1x4x64.Idx) :=
    Shape.reshapeEquiv_eq_of_rowMajor _ (by rw [Shape.rowMajor_val_three, Shape.rowMajor_val_two]; simp)
  show (Rect.unit (s := S2x4x64) ![0, 0, 0] S1x4x64.size inb_S2x4x64_S1x4x64_0_0_0).emb (Shape.reshapeEquiv _ x) = _
  rw [hz]
  funext a; apply Fin.ext
  match a with
  | ⟨0, _⟩ => show 0 + 1 * 0 = 0; rfl
  | ⟨1, _⟩ => show 0 + 1 * (x 0).val = (x 0).val; omega
  | ⟨2, _⟩ => show 0 + 1 * (x 1).val = (x 1).val; omega
omit [FloatOps F] in
theorem emb_gbSl1 (x : S4x64.Idx) : (gbSl1).view.emb x = ix3 (1 : Fin 2) (x 0) (x 1) := by
  have hz : Shape.reshapeEquiv (squeezes_S1x4x64_S4x64.numel_eq) x = (ix3 (0 : Fin 1) (x 0) (x 1) : S1x4x64.Idx) :=
    Shape.reshapeEquiv_eq_of_rowMajor _ (by rw [Shape.rowMajor_val_three, Shape.rowMajor_val_two]; simp)
  show (Rect.unit (s := S2x4x64) ![1, 0, 0] S1x4x64.size inb_S2x4x64_S1x4x64_1_0_0).emb (Shape.reshapeEquiv _ x) = _
  rw [hz]
  funext a; apply Fin.ext
  match a with
  | ⟨0, _⟩ => show 1 + 1 * 0 = 1; rfl
  | ⟨1, _⟩ => show 0 + 1 * (x 0).val = (x 0).val; omega
  | ⟨2, _⟩ => show 0 + 1 * (x 1).val = (x 1).val; omega
omit [FloatOps F] in
theorem emb_outSl (x : S128x128.Idx) : (outSl L).view.emb x = ix3 (wL L) (x 0) (x 1) := by
  have hz : Shape.reshapeEquiv (squeezes_S1x128x128_S128x128.numel_eq) x = (ix3 (0 : Fin 1) (x 0) (x 1) : S1x128x128.Idx) :=
    Shape.reshapeEquiv_eq_of_rowMajor _ (by rw [Shape.rowMajor_val_three, Shape.rowMajor_val_two]; simp)
  show (Rect.unit (s := S32x128x128) (k0_off18 L) S1x128x128.size (k0_off18_inb L)).emb (Shape.reshapeEquiv _ x) = _
  rw [hz]
  funext a; apply Fin.ext
  match a with
  | ⟨0, _⟩ => show (k0_off18 L) 0 + 1 * 0 = (wL L).val; rw [k0_off18_eq, wL_val]; simp
  | ⟨1, _⟩ => show (k0_off18 L) 1 + 1 * (x 0).val = (x 0).val; rw [k0_off18_eq]; simp
  | ⟨2, _⟩ => show (k0_off18 L) 2 + 1 * (x 1).val = (x 1).val; rw [k0_off18_eq]; simp

omit [FloatOps F] in
/-- One write of a whole view, read back at an index, is the payload there. -/
theorem read_whole_write {sp : Space} {s : Shape} {e : EltTy} (v : View sig Kind.scVector sp s e) (g : v.ty.Contents (Elt F))
    (w : (Rect.whole s).shape.Idx → Elt F e) (x : s.Idx) : v.read (Elt F) (v.writes (Elt F) g [⟨Rect.whole s, w⟩]) x = w x := by
  have h := View.read_writes_cons_emb (v := v) (f := g) (Rect.whole s) w [] x
  rwa [Rect.emb_whole_apply] at h

omit [FloatOps F] in
theorem half0_ok (w : (Rect.whole S4x64).shape.Idx → Elt F .f32) (hw : ∀ x : S4x64.Idx, w x = (m (gamLoc d) : S4x64.Idx → F .f32) x)
    (g : (gbSl0).view.ty.Contents (Elt F)) :
    ∀ y ∈ (gbSl0).view.set, (gbSl0).view.writes (Elt F) g [⟨Rect.whole S4x64, w⟩] y = tabs m d y := by
  intro y hy
  obtain ⟨x, -, rfl⟩ := Finset.mem_map.mp hy
  have h := read_whole_write (F := F) (gbSl0).view g w x
  rw [View.read_apply] at h
  have h' : (gbSl0).view.writes (Elt F) g [⟨Rect.whole S4x64, w⟩] ((gbSl0).view.emb x) = w x := (cast_eq _ _).symm.trans h
  rw [h', hw, emb_gbSl0]
  obtain ⟨j, dd, rfl⟩ : ∃ (j : Fin 4) (dd : Fin 64), x = ix2 j dd := ⟨x 0, x 1, eq_ix2 x⟩
  exact (tabs_zero (F := F) m d j dd).symm
omit [FloatOps F] in
theorem half1_ok (w : (Rect.whole S4x64).shape.Idx → Elt F .f32) (hw : ∀ x : S4x64.Idx, w x = (m (betLoc d) : S4x64.Idx → F .f32) x)
    (g : (gbSl1).view.ty.Contents (Elt F)) :
    ∀ y ∈ (gbSl1).view.set, (gbSl1).view.writes (Elt F) g [⟨Rect.whole S4x64, w⟩] y = tabs m d y := by
  intro y hy
  obtain ⟨x, -, rfl⟩ := Finset.mem_map.mp hy
  have h := read_whole_write (F := F) (gbSl1).view g w x
  rw [View.read_apply] at h
  have h' : (gbSl1).view.writes (Elt F) g [⟨Rect.whole S4x64, w⟩] ((gbSl1).view.emb x) = w x := (cast_eq _ _).symm.trans h
  rw [h', hw, emb_gbSl1]
  obtain ⟨j, dd, rfl⟩ : ∃ (j : Fin 4) (dd : Fin 64), x = ix2 j dd := ⟨x 0, x 1, eq_ix2 x⟩
  exact (tabs_one (F := F) m d j dd).symm

omit [FloatOps F] in
/-- The table scratch's entry `(r / 64, j, r % 64)` is entry `r` of the stacked tables' row `j`. -/
theorem tabs_tab (r : Fin 128) (j : Fin 4) :
    tabs m d (ix3 (tOf r) j (dOf r)) = tabAt (m (gamLoc d) : S4x64.Idx → F .f32) (m (betLoc d) : S4x64.Idx → F .f32) r j := by
  have hr := r.isLt
  unfold tabs tabAt
  by_cases h : r.val < 64
  · rw [if_pos (by show r.val / 64 = 0; omega), dif_pos h]
    exact congrArg _ (congrArg (ix2 j) (Fin.ext (by show r.val % 64 = r.val; omega)))
  · rw [if_neg (by show ¬ r.val / 64 = 0; omega), dif_neg h]
    exact congrArg _ (congrArg (ix2 j) (Fin.ext (by show r.val % 64 = r.val - 64; omega)))

omit [FloatOps F] in
/-- The target of the scratches' contents is the specified block array's row of this subcore. -/
theorem target_row (r c : Fin 128) :
    outTarget (F := F) (blk m d L) (tabs m d) (ix2 r c) = gbtM m d (ix3 (wL L) r c) := by
  show pick4 (blk m d L (ix1 c)) (tabs m d (ix3 (tOf r) (0 : Fin 4) (dOf r))) (tabs m d (ix3 (tOf r) (1 : Fin 4) (dOf r)))
      (tabs m d (ix3 (tOf r) (2 : Fin 4) (dOf r))) (tabs m d (ix3 (tOf r) (3 : Fin 4) (dOf r)))
    = pick4 ((m (idxLoc d) : S4096.Idx → BitVec 32) (ix1 (sampleOf (wL L) c)))
        (tabAt (m (gamLoc d) : S4x64.Idx → F .f32) (m (betLoc d) : S4x64.Idx → F .f32) r 0) (tabAt (m (gamLoc d) : S4x64.Idx → F .f32) (m (betLoc d) : S4x64.Idx → F .f32) r 1)
        (tabAt (m (gamLoc d) : S4x64.Idx → F .f32) (m (betLoc d) : S4x64.Idx → F .f32) r 2) (tabAt (m (gamLoc d) : S4x64.Idx → F .f32) (m (betLoc d) : S4x64.Idx → F .f32) r 3)
  rw [blk_apply, tabs_tab, tabs_tab, tabs_tab, tabs_tab]

omit [FloatOps F] in
theorem row_ok (w : (Rect.whole S128x128).shape.Idx → Elt F .f32) (hw : ∀ x : S128x128.Idx, w x = outTarget (F := F) (blk m d L) (tabs m d) x)
    (g : (outSl L).view.ty.Contents (Elt F)) :
    ∀ y ∈ (outSl L).view.set, (outSl L).view.writes (Elt F) g [⟨Rect.whole S128x128, w⟩] y = gbtM m d y := by
  intro y hy
  obtain ⟨x, -, rfl⟩ := Finset.mem_map.mp hy
  have h := read_whole_write (F := F) (outSl L).view g w x
  rw [View.read_apply] at h
  have h' : (outSl L).view.writes (Elt F) g [⟨Rect.whole S128x128, w⟩] ((outSl L).view.emb x) = w x := (cast_eq _ _).symm.trans h
  obtain ⟨r, c, rfl⟩ : ∃ (r c : Fin 128), x = ix2 r c := ⟨x 0, x 1, eq_ix2 x⟩
  rw [h', hw, emb_outSl]
  exact target_row (F := F) m d L r c

omit [FloatOps F] in
theorem c6_eq (f6 : Buf (Elt F) ((V d (cV L) (jV L)).loc cc0_scratch0)) :
    View.write (Elt F) (sIdx).view f6 (blk m d L) Finset.univ = blk m d L := by
  simp only [Memref.view_whole, View.write_whole_univ]

theorem trips_four : Scf.trips k0_t1_loop.lb k0_t1_loop.ub k0_t1_loop.st = 4 := by decide

end Contents

/-! ## The task -/

section Task

variable (d : Dev nD) (L : grid0.Coords)

theorem tile_body (hF : (K (F := F)).Facts) (O : CellTallies nD τ sig (HIx 1)) (W : Waits sig (HIx 1)) (hO : ∀ g, O g none = 0) :
    iprop(levAts (K (F := F)).L (K (F := F)).lev ∗ emp ∗ goOf m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L gamV (Memref.isWhole_whole _) betV (Memref.isWhole_whole _) idxV (Memref.isWhole_whole _) gbtV (Memref.isWhole_whole _)
            sIdx (Memref.isWhole_whole _) sGb (Memref.isWhole_whole _) sOut (Memref.isWhole_whole _) cc0_scratch3 cc0_scratch4 cc0_scratch5 cc0_scoped0)
          fun _ => iprop(tdOf m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_k_eq_skeleton]; unfold cc0_gather_k_skel
  rw [(K (F := F)).scopedBufs_V hF d (cV L) (jV L), SparseCore.Cfg.scopedSems0_V (Val := Elt F) d (cV L) (jV L), ownSems0_V, ownBufs_V]
  unfold goOf
  iintro ⟨#Hlv, -, ⟨Hi, Hg, Hb, Ho⟩, ⟨⟨%f6, H6⟩, ⟨%f7, H7⟩, ⟨%f8, H8⟩, Hbufs⟩, ⟨Hs3, Hs4, Hs5, Hs0, Hsems⟩, HO⟩
  ihave Hmw := ((K (F := F)).mayWaits_none (thr := V d (cV L) (jV L)) hO) $$ Hlv
  ihave Hi := (Entails.of_eq (pts_idx (F := F) d L _).symm) $$ Hi
  ihave Hg := (Entails.of_eq (pts_gam (F := F) d L _ _).symm) $$ Hg
  ihave Hb := (Entails.of_eq (pts_bet (F := F) d L _ _).symm) $$ Hb
  ihave Ho := (Entails.of_eq (pts_out (F := F) d L _).symm) $$ Ho
  ihave H6 := (Entails.of_eq (pts_s6 (F := F) d L _).symm) $$ H6
  ihave H8 := (Entails.of_eq (pts_s8 (F := F) d L _).symm) $$ H8
  ihave H7s := (s7_split (F := F) d L f7).1 $$ H7
  icases H7s with ⟨H7a, H7b⟩
  sl_exec
  -- the table scratch whole again, holding the two tables
  ihave H7a := (Entails.of_eq (pointsTo_congr (half0_ok (F := F) m d _ (fun _ => rfl) _))) $$ H7a
  ihave H7b := (Entails.of_eq (pointsTo_congr (half1_ok (F := F) m d _ (fun _ => rfl) _))) $$ H7b
  ihave H7 := (s7_split (F := F) d L (tabs m d)).2 $$ [H7a H7b]
  · isplitl [H7a] <;> iassumption
  ihave H7 := (Entails.of_eq (pts_s7 (F := F) d L _).symm) $$ H7
  -- the four trips
  sl_for (tripInv (F := F) d L (tabs m d) (Qv (F := F) (View.write (Elt F) (sIdx).view f6 (blk m d L) Finset.univ) (tabs m d))) $$ [H7 H8]
  case region =>
    intro k acc
    exact trip (F := F) d L (View.write (Elt F) (sIdx).view f6 (blk m d L) Finset.univ) (tabs m d) _
      (fun k f h => Qv_step (F := F) _ _ k f h) k acc
  · unfold tripInv
    isplitl [H7]; · iexact H7
    iexists f8
    isplitl [H8]; · iexact H8
    ipureintro; exact Qv_zero (F := F) _ _ f8
  iintro %_ HI
  unfold tripInv
  icases HI with ⟨H7, %f, H8, %hq⟩
  have hf : f = outTarget (F := F) (blk m d L) (tabs m d) := by
    rw [trips_four] at hq
    have := Qv_four (F := F) _ _ f hq
    rwa [c6_eq] at this
  subst hf
  sl_exec
  sl_step
  unfold tdOf
  isplitl [Hi Hg Hb Ho]
  · isplitl [Hi]; · iapply (Entails.of_eq (pts_idx (F := F) d L _)); iexact Hi
    isplitl [Hg]; · iapply (Entails.of_eq (pts_gam (F := F) d L _ _)); iexact Hg
    isplitl [Hb]; · iapply (Entails.of_eq (pts_bet (F := F) d L _ _)); iexact Hb
    iapply (Entails.of_eq (pts_out (F := F) d L _))
    iapply (Entails.of_eq (pointsTo_congr (row_ok (F := F) m d L _ (fun _ => rfl) _)))
    iexact Ho
  isplitl [H6 H7 H8 Hbufs]
  · isplitl [H6]; · iexists _; iapply (Entails.of_eq (pts_s6 (F := F) d L _)); iexact H6
    isplitl [H7]; · iexists _; iapply (Entails.of_eq (pts_s7 (F := F) d L _)); iexact H7
    isplitl [H8]; · iexists _; iapply (Entails.of_eq (pts_s8 (F := F) d L _)); iexact H8
    iexact Hbufs
  isplitl [Hs3 Hs4 Hs5 Hs0 Hsems]
  · isplitl [Hs3]; · iexact Hs3
    isplitl [Hs4]; · iexact Hs4
    isplitl [Hs5]; · iexact Hs5
    isplitl [Hs0]; · iexact Hs0
    iexact Hsems
  iexists (insert (SemLoc.dma cc0_scoped0.sem, (default : HIx 1)) (insert (SemLoc.dma cc0_scratch5.sem, (default : HIx 1))
    (insert (SemLoc.dma cc0_scratch4.sem, (default : HIx 1)) (insert (SemLoc.dma cc0_scratch3.sem, (default : HIx 1)) W)))); isplitr
  · ipureintro; intro p hp
    simp only [Finset.mem_insert] at hp
    rcases hp with rfl | rfl | rfl | rfl | hp
    · exact .inr rfl
    · exact .inr rfl
    · exact .inr rfl
    · exact .inr rfl
    · exact .inl hp
  · iexact HO

end Task

end Cert.Proof.KITile

end
-- ==== Proof.KILaunch.lean ====
/-
  The whole program's run, from the subcore's task and the TensorCore's part. The one SparseCore call takes the
  sample indices cut into thirty-two blocks, a read share of each table per subcore, and the result array cut into
  its thirty-two rows, deals subcore `(c, s)` the block, shares and row `2 s + c`, and brings them back with every
  row holding the specified entries, so the result array whole holds the specified block array. The TensorCore then
  transposes the features, multiplies and adds block by block, and transposes back (a fact this module takes as a
  hypothesis about those four lines of the program, so that it stands by itself). Every weakly fair execution of
  all thirty-five threads therefore ends, faulting nowhere, with the four arguments unchanged and the result at the
  two transpositions of the multiply-and-add of the specified block array.
-/
import proofs.«202883_g575525617868_bridgefix_179_20_alg».proof.Proof.KITile

noncomputable section

namespace Cert.Proof.KILaunch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KISetup

variable {F : FTy → Type} [FloatOps F]

local notation "𝕄" => MT nD τ sig (HIx 1) (Elt F) ℕ UU ℕ

local notation "gamV" => (Memref.whole Cert.KernelIdeal.main_arg2_scv : Memref Cert.KernelIdeal.sig Kind.scVector Space.hbm Cert.KernelIdeal.S4x64 EltTy.f32)
local notation "betV" => (Memref.whole Cert.KernelIdeal.main_arg3_scv : Memref Cert.KernelIdeal.sig Kind.scVector Space.hbm Cert.KernelIdeal.S4x64 EltTy.f32)
local notation "idxV" => (Memref.whole Cert.KernelIdeal.main_arg1_scv : Memref Cert.KernelIdeal.sig Kind.scVector Space.hbm Cert.KernelIdeal.S4096 EltTy.i32)
local notation "gbtV" => (Memref.whole Cert.KernelIdeal.main_v0_scv : Memref Cert.KernelIdeal.sig Kind.scVector Space.hbm Cert.KernelIdeal.S32x128x128 EltTy.f32)
local notation "sIdx" => (Memref.whole Cert.KernelIdeal.cc0_scratch0 : Memref Cert.KernelIdeal.sig Kind.scVector Space.vmem Cert.KernelIdeal.S128 EltTy.i32)
local notation "sGb" => (Memref.whole Cert.KernelIdeal.cc0_scratch1 : Memref Cert.KernelIdeal.sig Kind.scVector Space.vmem Cert.KernelIdeal.S2x4x64 EltTy.f32)
local notation "sOut" => (Memref.whole Cert.KernelIdeal.cc0_scratch2 : Memref Cert.KernelIdeal.sig Kind.scVector Space.vmem Cert.KernelIdeal.S128x128 EltTy.f32)

open Cert.Proof.KIViews Cert.Proof.KITile
open Idealize.ShloMosaic.StableHlo (held)

variable (m : (ℓ : Loc nD τ sig) → Buf (Elt F) ℓ) (ρ : Dev nD → PrngReg)

/-! ## The subcores' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          gamV (Memref.isWhole_whole _) betV (Memref.isWhole_whole _) idxV (Memref.isWhole_whole _) gbtV (Memref.isWhole_whole _)
          sIdx (Memref.isWhole_whole _) sGb (Memref.isWhole_whole _) sOut (Memref.isWhole_whole _) cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goOf m d (widOf (Fin.cast nCore_zero c) i)) ⊢ |={Set.univ}=> iprop(
      (bigSep Finset.univ fun i : Fin ((K (F := F)).nSub 0) => goOf m d (widOf (Fin.cast nCore_zero c) (Fin.cast nSub_zero i)))
      ∗ ((bigSep Finset.univ fun i : Fin ((K (F := F)).nSub 0) => tdOf m d (widOf (Fin.cast nCore_zero c) (Fin.cast nSub_zero i)))
          -∗ bigSep Finset.univ fun i : Fin 16 => tdOf m d (widOf (Fin.cast nCore_zero c) i)))
  rw [bigSep_tasks (F := F) (fun i => goOf m d (widOf (Fin.cast nCore_zero c) i)), bigSep_tasks (F := F) (fun i => tdOf m d (widOf (Fin.cast nCore_zero c) i))]
  iintro H; imodintro
  isplitl [H]; · iexact H
  iintro H; iexact H

/-! ## The arrays cut for the call, and put back -/

section Cut

variable (d : Dev nD)

omit [FloatOps F] in
theorem iSets_disjoint : ∀ i ∈ (Finset.univ : Finset (Fin 32)), ∀ j ∈ (Finset.univ : Finset (Fin 32)), i ≠ j → Disjoint (iSet i) (iSet j) :=
  fun _ _ _ _ h => Rect.part_disjoint hdivI h
omit [FloatOps F] in
theorem iSets_cover : (Finset.univ : Finset (Fin 32)).biUnion iSet = Finset.univ := Rect.biUnion_part hdivI
omit [FloatOps F] in
theorem gSets_disjoint : ∀ i ∈ (Finset.univ : Finset (Fin 32)), ∀ j ∈ (Finset.univ : Finset (Fin 32)), i ≠ j → Disjoint (gSet i) (gSet j) :=
  fun _ _ _ _ h => Rect.part_disjoint hdivG h
omit [FloatOps F] in
theorem gSets_cover : (Finset.univ : Finset (Fin 32)).biUnion gSet = Finset.univ := Rect.biUnion_part hdivG

omit [FloatOps F] in
theorem idx_parts (f : Buf (Elt F) (idxLoc d)) :
    (idxLoc d ↦{fullShare} f : sProp 𝕄) = bigSep Finset.univ fun w : Fin 32 => idxLoc d ↦[iSet w]{fullShare} f := by
  rw [← pointsTo_biUnion Finset.univ (ℓ := idxLoc d) iSet iSets_disjoint, iSets_cover]; try rfl
omit [FloatOps F] in
theorem gbt_parts (f : Buf (Elt F) (gbtLoc d)) :
    (gbtLoc d ↦{fullShare} f : sProp 𝕄) = bigSep Finset.univ fun w : Fin 32 => gbtLoc d ↦[gSet w]{fullShare} f := by
  rw [← pointsTo_biUnion Finset.univ (ℓ := gbtLoc d) gSet gSets_disjoint, gSets_cover]; try rfl

omit [FloatOps F] in
/-- Thirty-two blocks are two SparseCores' sixteen subcores' blocks. -/
theorem bigSep_wid (Φ : Fin 32 → sProp 𝕄) :
    bigSep Finset.univ Φ = bigSep Finset.univ fun c : Fin 2 => bigSep Finset.univ fun i : Fin 16 => Φ (widOf c i) := by
  have hinj : Set.InjOn (fun p : Fin 2 × Fin 16 => widOf p.1 p.2) ((Finset.univ : Finset (Fin 2 × Fin 16)) : Set _) := by
    intro a _ b _ e
    have h : (widOf a.1 a.2).val = (widOf b.1 b.2).val := congrArg Fin.val e
    have ha := a.1.isLt; have hb := b.1.isLt
    simp only [widOf] at h
    exact Prod.ext (Fin.ext (by omega)) (Fin.ext (by omega))
  have himg : (Finset.univ : Finset (Fin 32)) = (Finset.univ : Finset (Fin 2 × Fin 16)).image (fun p => widOf p.1 p.2) := by decide
  rw [himg, SparseCore.bigSep_image_of_injOn hinj, ← Finset.univ_product_univ, SparseCore.bigSep_product]

/-- The call's operands for both SparseCores are every block's. -/
theorem st_all : (bigSep Finset.univ fun c : Fin ((K (F := F)).nCore 0) => (P m).st 0 d c) = bigSep Finset.univ fun w : Fin 32 => goOf m d w := by
  rw [bigSep_wid (F := F) (fun w => goOf m d w)]
  rfl
theorem dn_all : (bigSep Finset.univ fun c : Fin ((K (F := F)).nCore 0) => (P m).dn 0 d c) = bigSep Finset.univ fun w : Fin 32 => tdOf m d w := by
  rw [bigSep_wid (F := F) (fun w => tdOf m d w)]
  rfl

/-- Every block's operands are the four arrays' parts and shares. -/
theorem go_all : (bigSep Finset.univ fun w : Fin 32 => goOf m d w)
    = iprop((bigSep Finset.univ fun w : Fin 32 => idxPts m d w) ∗ (bigSep Finset.univ fun w : Fin 32 => gamTok m d w)
        ∗ (bigSep Finset.univ fun w : Fin 32 => betTok m d w) ∗ bigSep Finset.univ fun w : Fin 32 => gbtPts d w (m (gbtLoc d))) := by
  unfold goOf; rw [bigSep_sep', bigSep_sep', bigSep_sep']
theorem td_all : (bigSep Finset.univ fun w : Fin 32 => tdOf m d w)
    = iprop((bigSep Finset.univ fun w : Fin 32 => idxPts m d w) ∗ (bigSep Finset.univ fun w : Fin 32 => gamTok m d w)
        ∗ (bigSep Finset.univ fun w : Fin 32 => betTok m d w) ∗ bigSep Finset.univ fun w : Fin 32 => gbtPts d w (gbtM m d)) := by
  unfold tdOf; rw [bigSep_sep', bigSep_sep', bigSep_sep']

omit [FloatOps F] in
theorem unscopedBufs_eq (Wv : (b : Ref sig .tc) → Buf (Elt F) ((d.tc : Thread nD τ).loc b)) :
    (unscopedBufs d Wv : sProp 𝕄)
      = iprop((featLoc d ↦{fullShare} Wv main_arg0) ∗ (idxLoc d ↦{fullShare} Wv main_arg1) ∗ (gamLoc d ↦{fullShare} Wv main_arg2) ∗ (betLoc d ↦{fullShare} Wv main_arg3)
          ∗ (gbtLoc d ↦{fullShare} Wv main_v0) ∗ (ftLoc d ↦{fullShare} Wv main_v1) ∗ (otLoc d ↦{fullShare} Wv main_v2) ∗ (outLoc d ↦{fullShare} Wv main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Cut

/-! ## The launch element -/

section Launch

def u₀ (uP : UP) : UU := (initOf (K (F := F)).hsCells (K (F := F)).hsToks, (uP, 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
theorem bigSep_emp' {I : Type} (s : Finset I) : (bigSep s fun _ => iprop(emp)) = (iprop(emp) : sProp 𝕄) := bigSep_emp_const s

theorem hu₀ (uP : UP) (Gd : Dev nD → sProp 𝕄) (hfund : (BI.own (EP (F := F) uP) : sProp 𝕄) ⊢ |={Set.univ}=> bigSep Finset.univ fun d : Dev nD => Gd d) :
    (ownU (u₀ (F := F) uP) : sProp 𝕄)
      ⊢ |={Set.univ}=> iprop(BI.own (EH (initOf (K (F := F)).hsCells (K (F := F)).hsToks)) ∗ (bigSep Finset.univ fun d : Dev nD => Gd d)
          ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The result: the multiply-and-add of a block array `g` on the transposed features, transposed back. -/
def kerResP (d : Dev nD) (g : Buf (Elt F) (gbtLoc d)) : Buf (Elt F) (outLoc d) :=
  transpose S4096x200x64 [2, 0, 1]
    (filmOf (F := F) g (transpose S200x64x4096 [1, 2, 0] (m (featLoc d)) transposes_S4096x200x64_S200x64x4096_1_2_0))
    transposes_S200x64x4096_S4096x200x64_2_0_1

/-- What @main leaves the claim: the four arguments at their launch contents and the result. -/
abbrev FIN (d : Dev nD) : sProp 𝕄 :=
  iprop((featLoc d ↦{fullShare} m (featLoc d)) ∗ (idxLoc d ↦{fullShare} m (idxLoc d)) ∗ (gamLoc d ↦{fullShare} m (gamLoc d)) ∗ (betLoc d ↦{fullShare} m (betLoc d))
    ∗ (outLoc d ↦{fullShare} kerResP m d (gbtM m d)))

/-- What is asked of the program's lines after the call, `tl`: from the arrays whole, the result array at `g`, they leave
    the four arguments as they were and the result at the multiply-and-add of `g`, transposed back. -/
def TailSpec (Gd : Dev nD → sProp 𝕄) (tl : Dev nD → Prog (TpuEff nD τ sig (Elt F) (SparseCore.Sig (ΛP (F := F)) 1) .tc) PUnit) : Prop :=
  ∀ (κ : GSem nD τ sig → ℕ) (d : Dev nD) (g : Buf (Elt F) (gbtLoc d)),
    iprop((K (F := F)).ctx EH (P m) κ ∗ (K (F := F)).tcSt EH d 1 ∗ boundary (SparseCore.T d) ∗ (K (F := F)).tcSems0 d ∗ prngReg d (ρ d) ∗ Gd d
        ∗ (featLoc d ↦{fullShare} m (featLoc d)) ∗ (idxLoc d ↦{fullShare} m (idxLoc d)) ∗ (gamLoc d ↦{fullShare} m (gamLoc d)) ∗ (betLoc d ↦{fullShare} m (betLoc d))
        ∗ (gbtLoc d ↦{fullShare} g) ∗ (ftLoc d ↦{fullShare} m (ftLoc d)) ∗ (otLoc d ↦{fullShare} m (otLoc d)) ∗ (outLoc d ↦{fullShare} m (outLoc d)))
      ⊢ wp frame (wpE ((K (F := F)).defs (D (F := F))) 𝒱 (SparseCore.T d) none) Set.univ (tl d)
          fun _ => iprop((K (F := F)).tcSt EH d 1 ∗ (featLoc d ↦{fullShare} m (featLoc d)) ∗ (idxLoc d ↦{fullShare} m (idxLoc d)) ∗ (gamLoc d ↦{fullShare} m (gamLoc d))
            ∗ (betLoc d ↦{fullShare} m (betLoc d)) ∗ (outLoc d ↦{fullShare} kerResP m d g))

theorem hmain (Gd : Dev nD → sProp 𝕄) (tl : Dev nD → Prog (TpuEff nD τ sig (Elt F) (SparseCore.Sig (ΛP (F := F)) 1) .tc) PUnit)
    (hmeq : ∀ d : Dev nD, main (F := F) d = (sc (F := F)).run d 0 >>= fun _ => tl d)
    (htail : TailSpec (F := F) m ρ Gd tl) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, hmeq]
  simp only [wp_bind]
  iintro ⟨#Hctx, Hst, ⟨Hbd, ⟨Hfeat, Hidx, Hgam, Hbet, Hgbt, Hft, Hot, Hout⟩, Hsm, Hpr⟩, HG⟩
  -- the arrays cut for the thirty-two subcores
  ihave Hidx := (Entails.of_eq (idx_parts (F := F) d _)) $$ Hidx
  ihave Hgbt := (Entails.of_eq (gbt_parts (F := F) d _)) $$ Hgbt
  ihave Hgam := (Transfers.pointsTo_toks_split fullShare 32) $$ Hgam
  icases Hgam with ⟨HgamR, Hgam⟩
  ihave Hbet := (Transfers.pointsTo_toks_split fullShare 32) $$ Hbet
  icases Hbet with ⟨HbetR, Hbet⟩
  iapply ((K (F := F)).wp_run (D (F := F)) 𝒱 (EH := EH) (P := P m) κ d 0) $$ [Hst Hidx Hgam Hbet Hgbt HgamR HbetR Hbd Hfeat Hft Hot Hout Hsm Hpr HG]
  isplitr; · iexact Hctx
  isplitl [Hst]; · iexact Hst
  isplitl [Hidx Hgam Hbet Hgbt]
  · rw [st_all, go_all]
    isplitl [Hidx]; · iexact Hidx
    isplitl [Hgam]; · iexact Hgam
    isplitl [Hbet]; · iexact Hbet
    iexact Hgbt
  iintro ⟨Hst, Hdn⟩
  -- and put back, the result array's rows all holding the specified entries
  ihave Hdn := (Entails.of_eq ((dn_all (F := F) m d).trans (td_all (F := F) m d))) $$ Hdn
  icases Hdn with ⟨Hidx, Hgam, Hbet, Hgbt⟩
  ihave Hidx := (Entails.of_eq (idx_parts (F := F) d _).symm) $$ Hidx
  ihave Hgbt := (Entails.of_eq (gbt_parts (F := F) d _).symm) $$ Hgbt
  ihave Hgam := (Transfers.pointsTo_toks_join fullShare 32) $$ [HgamR Hgam]
  · isplitl [HgamR] <;> iassumption
  ihave Hbet := (Transfers.pointsTo_toks_join fullShare 32) $$ [HbetR Hbet]
  · isplitl [HbetR] <;> iassumption
  iapply (htail κ d (gbtM m d)) $$ [Hst Hidx Hgam Hbet Hgbt Hbd Hfeat Hft Hot Hout Hsm Hpr HG]
  isplitr; · iexact Hctx
  isplitl [Hst]; · iexact Hst
  isplitl [Hbd]; · iexact Hbd
  isplitl [Hsm]; · iexact Hsm
  isplitl [Hpr]; · iexact Hpr
  isplitl [HG]; · iexact HG
  isplitl [Hfeat]; · iexact Hfeat
  isplitl [Hidx]; · iexact Hidx
  isplitl [Hgam]; · iexact Hgam
  isplitl [Hbet]; · iexact Hbet
  isplitl [Hgbt]; · iexact Hgbt
  isplitl [Hft]; · iexact Hft
  isplitl [Hot]; · iexact Hot
  iexact Hout

/-! ## The final memory -/

def fq (d : Dev nD) (s' : Phys nD τ sig (Elt F)) : Prop :=
  s'.mem.mem (outLoc d) = kerResP m d (gbtM m d) ∧ s'.mem.mem (featLoc d) = m (featLoc d) ∧ s'.mem.mem (idxLoc d) = m (idxLoc d)
    ∧ s'.mem.mem (gamLoc d) = m (gamLoc d) ∧ s'.mem.mem (betLoc d) = m (betLoc d)

theorem hfin (d : Dev nD) (s' : Phys nD τ sig (Elt F)) : iprop(FIN m d ∗ SI s') ⊢ (⌜fq m d s'⌝ : sProp 𝕄) := by
  iintro ⟨⟨Hf, Hi, Hg, Hb, Ho⟩, HSI⟩
  ihave H := (persistent_entails_right (SI_pointsTo_agree (st := s') (ℓ := featLoc d) (I := Finset.univ) (q := fullShare) (f := m (featLoc d)))) $$ [HSI Hf]
  · isplitl [HSI] <;> iassumption
  icases H with ⟨%h1, HSI, -⟩
  ihave H := (persistent_entails_right (SI_pointsTo_agree (st := s') (ℓ := idxLoc d) (I := Finset.univ) (q := fullShare) (f := m (idxLoc d)))) $$ [HSI Hi]
  · isplitl [HSI] <;> iassumption
  icases H with ⟨%h2, HSI, -⟩
  ihave H := (persistent_entails_right (SI_pointsTo_agree (st := s') (ℓ := gamLoc d) (I := Finset.univ) (q := fullShare) (f := m (gamLoc d)))) $$ [HSI Hg]
  · isplitl [HSI] <;> iassumption
  icases H with ⟨%h3, HSI, -⟩
  ihave H := (persistent_entails_right (SI_pointsTo_agree (st := s') (ℓ := betLoc d) (I := Finset.univ) (q := fullShare) (f := m (betLoc d)))) $$ [HSI Hb]
  · isplitl [HSI] <;> iassumption
  icases H with ⟨%h4, HSI, -⟩
  ihave H := (SI_pointsTo_agree (st := s') (ℓ := outLoc d) (I := Finset.univ) (q := fullShare) (f := kerResP m d (gbtM m d))) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

def QC : PUnit × MemSt nD τ sig (Elt F) → Prop := fun r => ∀ c : Dev nD,
  r.2.mem (outLoc c) = kerResP m c (gbtM m c) ∧ r.2.mem (featLoc c) = m (featLoc c) ∧ r.2.mem (idxLoc c) = m (idxLoc c)
    ∧ r.2.mem (gamLoc c) = m (gamLoc c) ∧ r.2.mem (betLoc c) = m (betLoc c)

theorem run_main [∀ e, Nonempty (Elt F e)] (uP : UP) (Gd : Dev nD → sProp 𝕄)
    (hfund : (BI.own (EP (F := F) uP) : sProp 𝕄) ⊢ |={Set.univ}=> bigSep Finset.univ fun d : Dev nD => Gd d)
    (tl : Dev nD → Prog (TpuEff nD τ sig (Elt F) (SparseCore.Sig (ΛP (F := F)) 1) .tc) PUnit)
    (hmeq : ∀ d : Dev nD, main (F := F) d = (sc (F := F)).run d 0 >>= fun _ => tl d)
    (htail : TailSpec (F := F) m ρ Gd tl) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main Gd (FIN m) (u₀ (F := F) uP) (sep_elim_left.trans (hu₀ m uP Gd hfund)) (hmain m ρ Gd tl hmeq htail) (fq m) (hfin m) (QC m) (fun _ h => h)

end Launch

end Cert.Proof.KILaunch

end
-- ==== Proof.KIBridge.lean ====
/-
  The program's result is the looked-up modulation. Entry `(b, l, d)` of the result reads the second transposition
  at `(l, d, b)`, there the multiply-and-add of the block array with the transposed features, whose entry
  `(l, d, b)` is the features' `(b, l, d)`; the block array's rows `d` and `64 + d` at block `b / 128`, lane
  `b % 128` are the chosen entries of the two tables for sample `b`; for an index in `{0, 1, 2, 3}` the choice is
  the row the index names. So the entry is `feat (b, l, d) · γ (a b, d) + β (a b, d)`.
-/
import proofs.«202883_g575525617868_bridgefix_179_20_alg».proof.Proof.KILaunch

noncomputable section

namespace Cert.Proof.KIBridge

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KISetup

variable {F : FTy → Type} [FloatOps F]

local notation "𝕄" => MT nD τ sig (HIx 1) (Elt F) ℕ UU ℕ

local notation "gamV" => (Memref.whole Cert.KernelIdeal.main_arg2_scv : Memref Cert.KernelIdeal.sig Kind.scVector Space.hbm Cert.KernelIdeal.S4x64 EltTy.f32)
local notation "betV" => (Memref.whole Cert.KernelIdeal.main_arg3_scv : Memref Cert.KernelIdeal.sig Kind.scVector Space.hbm Cert.KernelIdeal.S4x64 EltTy.f32)
local notation "idxV" => (Memref.whole Cert.KernelIdeal.main_arg1_scv : Memref Cert.KernelIdeal.sig Kind.scVector Space.hbm Cert.KernelIdeal.S4096 EltTy.i32)
local notation "gbtV" => (Memref.whole Cert.KernelIdeal.main_v0_scv : Memref Cert.KernelIdeal.sig Kind.scVector Space.hbm Cert.KernelIdeal.S32x128x128 EltTy.f32)
local notation "sIdx" => (Memref.whole Cert.KernelIdeal.cc0_scratch0 : Memref Cert.KernelIdeal.sig Kind.scVector Space.vmem Cert.KernelIdeal.S128 EltTy.i32)
local notation "sGb" => (Memref.whole Cert.KernelIdeal.cc0_scratch1 : Memref Cert.KernelIdeal.sig Kind.scVector Space.vmem Cert.KernelIdeal.S2x4x64 EltTy.f32)
local notation "sOut" => (Memref.whole Cert.KernelIdeal.cc0_scratch2 : Memref Cert.KernelIdeal.sig Kind.scVector Space.vmem Cert.KernelIdeal.S128x128 EltTy.f32)

open Cert.Proof.KILaunch

variable (m : (ℓ : Loc nD τ sig) → Buf (Elt F) ℓ)

theorem kerRes_eq_refOut (d : Dev nD) (hidx : ∀ b : Fin 4096, ((m (idxLoc d) : S4096.Idx → BitVec 32) (ix1 b)).toNat ≤ 3) :
    kerResP m d (gbtM m d)
      = refOut (F := F) (m (featLoc d) : S4096x200x64.Idx → F .f32) (m (idxLoc d) : S4096.Idx → BitVec 32) (m (gamLoc d) : S4x64.Idx → F .f32) (m (betLoc d) : S4x64.Idx → F .f32) := by
  funext j
  obtain ⟨b, l, dd, rfl⟩ : ∃ (b : Fin 4096) (l : Fin 200) (dd : Fin 64), j = ix3 b l dd := ⟨j 0, j 1, j 2, eq_ix3 j⟩
  unfold kerResP
  rw [transpose_apply _ _ _ (ix3 b l dd) (ix3 l dd b) (fun a => by match a with | ⟨0, _⟩ => rfl | ⟨1, _⟩ => rfl | ⟨2, _⟩ => rfl)]
  show filmAt (F := F) (gbtM m d) _ l dd b = _
  unfold filmAt
  rw [transpose_apply _ _ _ (ix3 l dd b) (ix3 b l dd) (fun a => by match a with | ⟨0, _⟩ => rfl | ⟨1, _⟩ => rfl | ⟨2, _⟩ => rfl)]
  exact kerAt_eq_refOut (F := F) (m (featLoc d)) (m (idxLoc d)) (m (gamLoc d)) (m (betLoc d)) hidx b l dd

end Cert.Proof.KIBridge

end
-- ==== Proof.KITensor.lean ====
/-
  The TensorCore's part of the program after the subcores' call: the features are transposed so that samples run
  along the last axis, a grid of thirty-two steps multiplies each block of 128 samples by the first 64 rows of
  its 128 × 128 array of chosen table entries and adds the last 64 rows, and the result is transposed back.
  Here: that tail of the program as a term; what the launch must fund for the grid's staging cells; the tail's
  run from the arrays' contents after the call to the result array at the modulation of the transposed
  features, entry by entry.
-/
import proofs.«202883_g575525617868_bridgefix_179_20_alg».proof.Proof.KISetup
import proofs.«202883_g575525617868_bridgefix_179_20_alg».proof.Proof.Gen.KernelIdeal.Launch
import proofs.«202883_g575525617868_bridgefix_179_20_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Proof.KITensor

open Cert.KernelIdeal Cert.KernelIdeal.Gen Cert.Proof.KISetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held wp_hlo_within)
open Cert.Proof.Affine
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tail of the program -/

/-- What the TensorCore runs after the subcores' call: transpose, the grid, transpose back. -/
def tail (d : Dev nD) : Prog (TpuEff nD τ sig (Elt F) (SparseCore.Sig (ΛP (F := F)) 1) .tc) PUnit := do
  hlo rfl (StableHlo.unary main_arg0 main_v1 ((transpose S200x64x4096 [1, 2, 0] · transposes_S4096x200x64_S200x64x4096_1_2_0) : (⟨S4096x200x64, .f32⟩ : BufTy).Contents (Elt F) → (⟨S200x64x4096, .f32⟩ : BufTy).Contents (Elt F))) (fun _ => .ret ⟨⟩)
  Prog.lift (.customCall (SparseCore.inner (Pipeline.entry 0)) ())
  hlo rfl (StableHlo.unary main_v2 main_v3 ((transpose S4096x200x64 [2, 0, 1] · transposes_S200x64x4096_S4096x200x64_2_0_1) : (⟨S200x64x4096, .f32⟩ : BufTy).Contents (Elt F) → (⟨S4096x200x64, .f32⟩ : BufTy).Contents (Elt F))) (fun _ => .ret ⟨⟩)
  pure ⟨⟩

theorem main_eq (d : Dev nD) : main (F := F) d = (sc (F := F)).run d 0 >>= fun _ => tail d := rfl

/-! ## What the launch funds for the grid's staging cells -/

/-- No table is prefetched. -/
abbrev adm : (p : Fin 1) → (pcfgs (F := F) p).Adm := fun p => (cfgs p).toPCfg_adm

/-- The launch element of the grid's rounds: its staging cells and the duties of the transfers its steps issue. -/
def uP₀ : UP := initOf (Pipeline.cells (nD := nD) (τ := τ) cfgs cellOf_inj) (Pipeline.launchToks (nD := nD) (τ := τ) cfgs cellOf_inj)

/-- Per device: the staging cells' launch state and the duties' tokens. -/
def Gd (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
/-- A conjunction over the one grid of the program is its one conjunct. -/
theorem bigSep_one (Φ : Fin 1 → sProp 𝕄) : bigSep Finset.univ Φ = Φ 0 := by
  rw [show (Finset.univ : Finset (Fin 1)) = {0} from rfl, bigSep_singleton]

theorem fundP : (BI.own (EP (F := F) uP₀) : sProp 𝕄) ⊢ |={Set.univ}=> bigSep Finset.univ fun d : Dev nD => Gd (F := F) d := by
  have h := Pipeline.fund_ghost (nD := nD) (τ := τ) (Ix := HIx 1) (Val := Elt F) (Name := ℕ) (U := UU) (Lvl := ℕ) cfgs (EP (F := F)) cellOf_inj
  have hg : ∀ c : Dev nD, (bigSep Finset.univ fun p : Fin 1 => Pipeline.cellsGhost cfgs (EP (F := F)) p c : sProp 𝕄) = Pipeline.cellsGhost cfgs (EP (F := F)) 0 c := fun c => bigSep_one _
  have ht : ∀ c : Dev nD, (bigSep Finset.univ fun p : Fin 1 => Pipeline.toksInit cfgs (EP (F := F)) p c : sProp 𝕄) = Pipeline.toksInit cfgs (EP (F := F)) 0 c := fun c => bigSep_one _
  simp only [hg, ht] at h
  unfold uP₀ Gd
  show _ ⊢ iprop(|={Set.univ}=> bigSep Finset.univ fun d : Dev nD => iprop(Pipeline.cellsGhost cfgs (EP (F := F)) 0 d ∗ Pipeline.toksInit cfgs (EP (F := F)) 0 d))
  iintro Hu
  ihave H := h $$ Hu
  imod H with ⟨Hg, Ht⟩
  imodintro
  rw [bigSep_sep']
  isplitl [Hg]
  · iexact Hg
  · iexact Ht

/-! ## One step of the grid -/

abbrev rLo : Rect S1x128x128 := Rect.unit (s := S1x128x128) ![0, 0, 0] S1x64x128.size inb_S1x128x128_S1x64x128_0_0_0
abbrev rHi : Rect S1x128x128 := Rect.unit (s := S1x128x128) ![0, 64, 0] S1x64x128.size inb_S1x128x128_S1x64x128_0_64_0
abbrev rAll : Rect S200x64x128 := Rect.unit (s := S200x64x128) ![0, 0, 0] S200x64x128.size inb_S200x64x128_S200x64x128_0_0_0

theorem hz3 : (![0, 0, 0] : Fin 3 → Nat) = fun _ => 0 := funext fun a => by fin_cases a <;> rfl

/-- What a step leaves in the result's staging block, from the block of chosen entries and the block of features: its
    one store, of the product with the first 64 rows plus the last 64 rows. -/
def outBlk (x0 : Vec F S1x128x128 .f32) (x1 : Vec F S200x64x128 .f32) : Vec F S200x64x128 .f32 :=
  View.canon [⟨rAll, k1_pay1 (View.ld x0 rLo) (View.ld x0 rHi) (View.ld x1 rAll)⟩]

/-- That store covers the block. -/
theorem coverOut (p0 : Vec F S200x64x128 .f32) (y : S200x64x128.Idx) :
    ∃ pc ∈ ([⟨rAll, p0⟩] : List (View.Piece (Elt F) S200x64x128 .f32)), y ∈ pc.1.set :=
  ⟨_, List.mem_singleton_self _, View.mem_set_unit_zero hz3 inb_S200x64x128_S200x64x128_0_0_0 y⟩

set_option maxHeartbeats 4000000 in
/-- The step's body on whole staging blocks: the two inputs kept, the result's block at `outBlk` of them. -/
theorem sound_kernel (c : Dev nD) (E : Set ℕ) (i : grid1.Coords) (arg2 : Memref sig .tc .vmem S1x128x128 .f32) (harg2 : arg2.IsWhole) (arg3 : Memref sig .tc .vmem S200x64x128 .f32) (harg3 : arg3.IsWhole) (arg4 : Memref sig .tc .vmem S200x64x128 .f32) (harg4 : arg4.IsWhole)
    (x0 : Vec F S1x128x128 .f32) (x1 : Vec F S200x64x128 .f32) (Kc : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ Kc ⟨⟩))
      ⊢ wp frame (wpE (defs₀ (F := F)) Variants.none c none) E (cc1__film_body i arg2 harg2 arg3 harg3 arg4 harg4) Kc := by
  rw [cc1__film_body_eq_skeleton]; unfold cc1__film_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The grid's proof data -/

variable (g : S32x128x128.Idx → Elt F .f32) (x : S200x64x4096.Idx → Elt F .f32) (o : S200x64x4096.Idx → Elt F .f32)

/-- The three arrays the grid moves, as it finds them: the chosen entries, the transposed features, the result's array. -/
def arrV (c : Dev nD) : (w : Fin cfg1.W) → Buf (Elt F) ((cfg1.win w).arr.view.loc (c.tc : Thread nD τ))
  | ⟨0, _⟩ => g
  | ⟨1, _⟩ => x
  | ⟨2, _⟩ => o

/-- A window's block at a step, read off its array. -/
def iblk (c : Dev nD) (w : Fin cfg1.W) (t : Fin cfg1.N) : ((cfg1.win w).xblock (cfg1.grid.coords t)).Idx → Elt F (cfg1.win w).elt :=
  ((cfg1.win w).blk t).view.read (Elt F) (arrV g x o c w)

/-- The pairs a wait of this TensorCore may have recorded so far: those at or below the first call's levels. -/
def recd (c : Dev nD) : Set (SemLoc sig × HIx 1) := {p | (K (F := F)).lev ((T c : Thread nD τ), p.1) p.2 ≤ 8 * 1}

/-- The proof data on a device: after a step each input's staging block as fetched, the result's at `outBlk` of them;
    no invariant beyond the scoped rest; nothing owed. -/
def dats (_ : Fin 1) (c : Dev nD) : Dat τ (Elt F) (HIx 1) ℕ UU ℕ cfg1 c where
  A w := arrV g x o c w
  after w t := match w with
    | ⟨0, _⟩ => iblk g x o c 0 t
    | ⟨1, _⟩ => iblk g x o c 1 t
    | ⟨2, _⟩ => outBlk (iblk g x o c 0 t) (iblk g x o c 1 t)
  Φ _ := Pipeline.scopedRest (Ix := HIx 1) (Name := ℕ) (U := UU) (Lvl := ℕ) (Val := Elt F) spec1 c
  q _ := fullShare
  owed _ := 0
  recorded _ := recd (F := F) c

theorem A_eq (c : Dev nD) (w : Fin cfg1.W) : (dats g x o 0 c).A w = arrV g x o c w := by dsimp only [dats]
theorem after1_0 (c : Dev nD) (t : Fin cfg1.N) : (dats g x o 0 c).after 0 t = iblk g x o c 0 t := by dsimp only [dats]
theorem after1_1 (c : Dev nD) (t : Fin cfg1.N) : (dats g x o 0 c).after 1 t = iblk g x o c 1 t := by dsimp only [dats]
theorem after1_2 (c : Dev nD) (t : Fin cfg1.N) : (dats g x o 0 c).after 2 t = outBlk (iblk g x o c 0 t) (iblk g x o c 1 t) := by dsimp only [dats]

/-- Each input's current staging block holds the array's block at every step. -/
theorem before1_0 (c : Dev nD) (t : Fin cfg1.N) (d) : (dats g x o 0 c).before 0 t d = iblk g x o c 0 t :=
  ((dats g x o 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats g x o 0 c).before 1 t d = iblk g x o c 1 t :=
  ((dats g x o 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)

/-- What the body is called with at a step, -/
def bodyPre (c : Dev nD) (t : Fin cfg1.N) : sProp 𝕄 :=
  iprop((dats g x o 0 c).Φ t.castSucc ∗ (dats g x o 0 c).owesAt none t.castSucc
    ∗ (∃ d, owns (c : Thread nD τ) (st1_0 t) fullShare ((dats g x o 0 c).before 0 t d))
    ∗ (∃ d, owns (c : Thread nD τ) (st1_1 t) fullShare ((dats g x o 0 c).before 1 t d))
    ∗ (∃ d, owns (c : Thread nD τ) (st1_2 t) fullShare ((dats g x o 0 c).before 2 t d)))

/-- and what it returns. -/
def bodyPost (c : Dev nD) (t : Fin cfg1.N) : sProp 𝕄 :=
  iprop((dats g x o 0 c).Φ t.succ ∗ (dats g x o 0 c).owesAt none t.succ
    ∗ owns (c : Thread nD τ) (st1_0 t) fullShare ((dats g x o 0 c).after 0 t)
    ∗ owns (c : Thread nD τ) (st1_1 t) fullShare ((dats g x o 0 c).after 1 t)
    ∗ owns (c : Thread nD τ) (st1_2 t) fullShare ((dats g x o 0 c).after 2 t))

/-- The body at any step: the inputs' staging blocks hold the arrays' blocks, so the step's triple applies; the
    invariant and what the core owes pass through unread. -/
theorem sound_body (c : Dev nD) (t : Fin cfg1.N) :
    bodyPre g x o c t ⊢ wp frame (wpE (defs₀ (F := F)) Variants.none c none) Set.univ (bodyAt1 t) (fun _ => bodyPost g x o c t) := by
  unfold bodyPre bodyPost bodyAt1
  simp only [before1_0, before1_1]
  rw [show (dats g x o 0 c).Φ t.succ = (dats g x o 0 c).Φ t.castSucc from rfl,
    show (dats g x o 0 c).owesAt none t.succ = (dats g x o 0 c).owesAt none t.castSucc from rfl,
    after1_0, after1_1, after1_2]
  iintro ⟨HΦ, Ho, ⟨%d0, H0⟩, ⟨%d1, H1⟩, ⟨%d2, H2⟩⟩
  iapply (sound_kernel c Set.univ (grid1.coords t) _ _ _ _ _ _ (iblk g x o c 0 t) (iblk g x o c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation for the step's body, at every step. -/
theorem body_obligation (c : Dev nD) : BodyObligation (dats (F := F) g x o 0 c) (defs₀ (F := F)) 𝒱₀ none Set.univ := fun t => by
  rw [bigSep_W1, bigSep_W1]
  exact sound_body g x o c t

/-! ## The result array after the grid -/

/-- The step's arithmetic at an entry of the block: the feature times the entry of row `dd` plus that of row `64 + dd`
    (the two loaded halves), both at the entry's lane. -/
theorem pay_apply (v0 v2 : Vec F S1x64x128 .f32) (v4 : Vec F S200x64x128 .f32) (l : Fin 200) (dd : Fin 64) (k : Fin 128) :
    k1_pay1 v0 v2 v4 (ix3 l dd k) = FloatOps.addf (FloatOps.mulf (v4 (ix3 l dd k)) (v0 (ix3 0 dd k))) (v2 (ix3 0 dd k)) := by
  have h5 : shapeCast S200x64x128 v4 shapeCasts_S200x64x128_S200x64x128 = v4 := shapeCast_self _ _
  have h6 : ∀ v : Vec F S1x64x128 .f32, shapeCast S1x64x128 (shapeCast S64x128 v shapeCasts_S1x64x128_S64x128) shapeCasts_S64x128_S1x64x128 = v :=
    fun v => shapeCast_shapeCast _ _ _
  have hb : ∀ v : Vec F S1x64x128 .f32, broadcastTo S200x64x128 v broadcasts_S1x64x128_S200x64x128 (ix3 l dd k) = v (ix3 0 dd k) :=
    fun v => broadcastTo_apply v _ (ix3 l dd k) (ix3 0 dd k) (fun a => by match a with | ⟨0, _⟩ => rfl | ⟨1, _⟩ => rfl | ⟨2, _⟩ => rfl)
  unfold k1_pay1
  show FloatOps.addf (FloatOps.mulf (shapeCast S200x64x128 v4 shapeCasts_S200x64x128_S200x64x128 (ix3 l dd k))
      (broadcastTo S200x64x128 (shapeCast S1x64x128 (shapeCast S64x128 v0 shapeCasts_S1x64x128_S64x128) shapeCasts_S64x128_S1x64x128) broadcasts_S1x64x128_S200x64x128 (ix3 l dd k)))
    (broadcastTo S200x64x128 (shapeCast S1x64x128 (shapeCast S64x128 v2 shapeCasts_S1x64x128_S64x128) shapeCasts_S64x128_S1x64x128) broadcasts_S1x64x128_S200x64x128 (ix3 l dd k)) = _
  rw [h5, h6, h6, hb, hb]

/-- The printed index maps over the grid: step `t` takes row `t` of the chosen entries and column block `t` of the
    features and of the result, all other block indices zero. -/
theorem idx_facts : ∀ t : Fin cfg1.N,
    win1_0.index t (0 : Fin 3) = win1_2.index t (2 : Fin 3) ∧ win1_0.index t (1 : Fin 3) = 0 ∧ win1_0.index t (2 : Fin 3) = 0
    ∧ win1_1.index t (0 : Fin 3) = 0 ∧ win1_1.index t (1 : Fin 3) = 0 ∧ win1_1.index t (2 : Fin 3) = win1_2.index t (2 : Fin 3)
    ∧ win1_2.index t (0 : Fin 3) = 0 ∧ win1_2.index t (1 : Fin 3) = 0 ∧ win1_2.index t (2 : Fin 3) ≤ 31 :=
  (by decide +kernel : ∀ t : Fin grid1.N, _)

/-- Every column block is some step's. -/
theorem idx_onto : ∀ q : Fin 32, ∃ t : Fin cfg1.N, win1_2.index t = ![0, 0, q.val] :=
  (by decide +kernel : ∀ q : Fin 32, ∃ t : Fin grid1.N, win1_2.index t = ![0, 0, q.val])

/-- What step `t` writes back is block `t` of the modulation. -/
theorem flushed_eq (c : Dev nD) (t : Fin cfg1.N) :
    (dats g x o 0 c).flushed 2 t = ((cfg1.win 2).blk t).view.read (Elt F) (filmOf g x) := by
  show (cfg1.win 2).cut (grid1.coords t) ((dats g x o 0 c).after 2 t) = _
  rw [after1_2]
  unfold outBlk
  rw [View.canon_unit_zero hz3]
  simp only [View.ld_unit_zero (S := S200x64x128) hz3]
  obtain ⟨e00, e01, e02, e10, e11, e12, e20, e21, e22⟩ := idx_facts t
  funext j
  obtain ⟨l, dd, k, rfl⟩ : ∃ (l : Fin 200) (dd : Fin 64) (k : Fin 128), j = ix3 l dd k := ⟨j 0, j 1, j 2, eq_ix3 j⟩
  show k1_pay1 (View.ld (iblk g x o c 0 t) rLo) (View.ld (iblk g x o c 0 t) rHi) (iblk g x o c 1 t) (ix3 l dd k)
    = filmOf g x (((cfg1.win 2).blk t).view.emb (ix3 l dd k))
  rw [pay_apply]
  have hl := l.isLt; have hdd := dd.isLt; have hk := k.isLt
  show FloatOps.addf (FloatOps.mulf (x (((cfg1.win 1).blk t).view.emb (ix3 l dd k))) (g (((cfg1.win 0).blk t).view.emb (rLo.idx (ix3 0 dd k)))))
      (g (((cfg1.win 0).blk t).view.emb (rHi.idx (ix3 0 dd k))))
    = filmAt g x ((((cfg1.win 2).blk t).view.emb (ix3 l dd k)) 0) ((((cfg1.win 2).blk t).view.emb (ix3 l dd k)) 1) ((((cfg1.win 2).blk t).view.emb (ix3 l dd k)) 2)
  unfold filmAt
  refine congrArg₂ FloatOps.addf (congrArg₂ FloatOps.mulf (congrArg x ?_) (congrArg g ?_)) (congrArg g ?_)
  · funext a; apply Fin.ext
    match a with
    | ⟨0, _⟩ => show win1_1.index t (0 : Fin 3) * 200 + 1 * l.val = win1_2.index t (0 : Fin 3) * 200 + 1 * l.val; omega
    | ⟨1, _⟩ => show win1_1.index t (1 : Fin 3) * 64 + 1 * dd.val = win1_2.index t (1 : Fin 3) * 64 + 1 * dd.val; omega
    | ⟨2, _⟩ => show win1_1.index t (2 : Fin 3) * 128 + 1 * k.val = win1_2.index t (2 : Fin 3) * 128 + 1 * k.val; omega
  · funext a; apply Fin.ext
    match a with
    | ⟨0, _⟩ => show win1_0.index t (0 : Fin 3) * 1 + 1 * (0 + 1 * 0) = (win1_2.index t (2 : Fin 3) * 128 + 1 * k.val) / 128; omega
    | ⟨1, _⟩ => show win1_0.index t (1 : Fin 3) * 128 + 1 * (0 + 1 * dd.val) = win1_2.index t (1 : Fin 3) * 64 + 1 * dd.val; omega
    | ⟨2, _⟩ => show win1_0.index t (2 : Fin 3) * 128 + 1 * (0 + 1 * k.val) = (win1_2.index t (2 : Fin 3) * 128 + 1 * k.val) % 128; omega
  · funext a; apply Fin.ext
    match a with
    | ⟨0, _⟩ => show win1_0.index t (0 : Fin 3) * 1 + 1 * (0 + 1 * 0) = (win1_2.index t (2 : Fin 3) * 128 + 1 * k.val) / 128; omega
    | ⟨1, _⟩ => show win1_0.index t (1 : Fin 3) * 128 + 1 * (64 + 1 * dd.val) = 64 + (win1_2.index t (1 : Fin 3) * 64 + 1 * dd.val); omega
    | ⟨2, _⟩ => show win1_0.index t (2 : Fin 3) * 128 + 1 * (0 + 1 * k.val) = (win1_2.index t (2 : Fin 3) * 128 + 1 * k.val) % 128; omega

/-- An index of the result's array is in step `t`'s block iff each coordinate is in the block's range on its axis. -/
theorem mem_blk (t : Fin cfg1.N) (i : S200x64x4096.Idx) :
    i ∈ ((cfg1.win 2).blk t).view.set ↔ ∀ a : Fin 3, win1_2.index t a * S200x64x128.size a ≤ (i a).val ∧ (i a).val < win1_2.index t a * S200x64x128.size a + S200x64x128.size a := by
  show i ∈ ((View.whole main_v2).slice (win1_2.rect t)).set ↔ _
  rw [View.set_slice_whole, Rect.mem_set_unit]
  exact Iff.rfl

/-- Every index is in some step's block: the one of its column block. -/
theorem cover (i : S200x64x4096.Idx) : ∃ t : Fin cfg1.N, (cfg1.win 2).flush t = true ∧ i ∈ ((cfg1.win 2).blk t).view.set := by
  have hi0 : (i 0).val < 200 := (i 0).isLt
  have hi1 : (i 1).val < 64 := (i 1).isLt
  have hi2 : (i 2).val < 4096 := (i 2).isLt
  obtain ⟨t, ht⟩ := idx_onto ⟨(i 2).val / 128, by omega⟩
  have q0 : win1_2.index t (0 : Fin 3) = 0 := congrFun ht 0
  have q1 : win1_2.index t (1 : Fin 3) = 0 := congrFun ht 1
  have q2 : win1_2.index t (2 : Fin 3) = (i 2).val / 128 := congrFun ht 2
  refine ⟨t, flush1_2 t, ?_⟩
  rw [mem_blk]
  intro a
  match a with
  | ⟨0, _⟩ => show win1_2.index t (0 : Fin 3) * 200 ≤ (i 0).val ∧ (i 0).val < win1_2.index t (0 : Fin 3) * 200 + 200; omega
  | ⟨1, _⟩ => show win1_2.index t (1 : Fin 3) * 64 ≤ (i 1).val ∧ (i 1).val < win1_2.index t (1 : Fin 3) * 64 + 64; omega
  | ⟨2, _⟩ => show win1_2.index t (2 : Fin 3) * 128 ≤ (i 2).val ∧ (i 2).val < win1_2.index t (2 : Fin 3) * 128 + 128; omega

/-- The result array after the grid is the modulation of its two inputs. -/
theorem final (c : Dev nD) : (dats g x o 0 c).arrAt 2 cfg1.N = filmOf g x :=
  (dats g x o 0 c).arrAt_eq_of_cover 2 (filmOf g x) (fun t _ => flushed_eq g x o c t) cover

/-! ## The grid as a region of the program -/

/-- The pairs the grid's own waits record are among those: their index sits at the lowest level. -/
theorem bound_sub (c : Dev nD) (t : Fin (cfg1.N + 1)) : (dats (F := F) g x o 0 c).bound none t ⊆ recd (F := F) c := by
  refine Set.union_subset (fun p hp => hp) ?_
  rintro p ⟨w, s, rfl⟩
  show (K (F := F)).lev _ none ≤ 8 * 1
  rw [SparseCore.Cfg.lev_none]; omega

theorem hshare (c : Dev nD) : ∀ w, (dats (F := F) g x o 0 c).share w = fullShare := (dats g x o 0 c).share_full fun _ => rfl

/-- The three arrays, held whole, are the grid's arrays as it finds them, -/
theorem arrays_entry (c : Dev nD) :
    iprop((gbtLoc c ↦{fullShare} g) ∗ (ftLoc c ↦{fullShare} x) ∗ (otLoc c ↦{fullShare} o))
      ⊢ ((dats g x o 0 c).arrays ((dats g x o 0 c).arrAt · 0) : sProp 𝕄) := by
  rw [Pipeline.arrays_eq cfgs (dats g x o) 0 c launch1.arr_whole (hshare g x o c), bigSep_W1]
  exact .rfl

/-- and as it leaves them: the inputs as found, the result's array at the modulation of them. -/
theorem arrays_exit (c : Dev nD) :
    ((dats g x o 0 c).arrays ((dats g x o 0 c).arrAt · cfg1.N) : sProp 𝕄)
      ⊢ iprop((gbtLoc c ↦{fullShare} g) ∗ (ftLoc c ↦{fullShare} x) ∗ (otLoc c ↦{fullShare} filmOf g x)) := by
  rw [Pipeline.arrays_eq cfgs (dats g x o) 0 c launch1.arr_whole (hshare g x o c), bigSep_W1,
    (dats g x o 0 c).arrAt_in 0 rfl, (dats g x o 0 c).arrAt_in 1 rfl, final g x o c]
  exact .rfl

/-- What the region is entered from and left with. -/
def regPre (c : Dev nD) : sProp 𝕄 :=
  iprop((dats g x o 0 c).arrays ((dats g x o 0 c).arrAt · 0) ∗ Pipeline.owesWithin c (0 : CellTallies nD τ sig (HIx 1)) (recd (F := F) c))
def regPost (c : Dev nD) : sProp 𝕄 :=
  iprop((dats g x o 0 c).arrays ((dats g x o 0 c).arrAt · cfg1.N) ∗ Pipeline.owesWithin c (0 : CellTallies nD τ sig (HIx 1)) (recd (F := F) c))

set_option backward.isDefEq.respectTransparency.types false in
/-- The grid as a region of the program: the decided layout, no semaphore of its own, the body obligation, nothing
    owed at any step; the arrays enter and leave, nothing else passes through its invariant. -/
def reg : Pipeline.RegionSeg (pcfgs (F := F)) adm (dats g x o) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation g x o c).loose
  hwaits := Pipeline.hwaits_of_owed_zero _ _ _ _ _ _ 0 fun _ _ => rfl
  pre c := regPre g x o c
  post c := regPost g x o c
  X c := iprop(emp)
  Y c := iprop(emp)
  Z c := iprop(emp)
  hentry c := by
    unfold regPre
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (Set.subset_union_left (s := recd (F := F) c) (t := cfg1.waitPairs none))); iexact HO
    isplitl <;> iempintro
  hin c := by
    show iprop(iprop(emp) ∗ Pipeline.prefHeld (pcfgs (F := F) 0).pre c (fun _ => fullShare) (adm (F := F) 0).1
        ∗ Pipeline.scopedRest (Ix := HIx 1) (Name := ℕ) (U := UU) (Lvl := ℕ) (Val := Elt F) spec1 c)
      ⊢ (Pipeline.scopedRest (Ix := HIx 1) (Name := ℕ) (U := UU) (Lvl := ℕ) (Val := Elt F) spec1 c : sProp 𝕄)
    iintro ⟨-, -, Hr⟩
    iexact Hr
  hout c := by
    rw [Pipeline.ownSems0_none]
    show (Pipeline.scopedRest (Ix := HIx 1) (Name := ℕ) (U := UU) (Lvl := ℕ) (Val := Elt F) spec1 c : sProp 𝕄)
      ⊢ iprop(emp ∗ emp ∗ Pipeline.scopedRest (Ix := HIx 1) (Name := ℕ) (U := UU) (Lvl := ℕ) (Val := Elt F) spec1 c)
    iintro Hr
    isplitr; · iempintro
    isplitr; · iempintro
    iexact Hr
  hexit c := by
    unfold regPost
    iintro ⟨Ha, HO, -, -⟩
    imodintro
    isplitl [Ha]; · iexact Ha
    iapply (Pipeline.owesWithin_mono c 0 (bound_sub g x o c (Fin.last cfg1.N))); iexact HO

/-! ## The tail's run -/

abbrev aFeat : DevRef τ sig := Proc.devRef .tc (main_arg0 : Ref sig .tc)
abbrev aFt : DevRef τ sig := Proc.devRef .tc (main_v1 : Ref sig .tc)
abbrev aOt : DevRef τ sig := Proc.devRef .tc (main_v2 : Ref sig .tc)
abbrev aOut : DevRef τ sig := Proc.devRef .tc (main_v3 : Ref sig .tc)

/-- The two transpositions as the program's operations. -/
abbrev opT1 : HloOp τ sig (Elt F) := StableHlo.unary main_arg0 main_v1 ((transpose S200x64x4096 [1, 2, 0] · transposes_S4096x200x64_S200x64x4096_1_2_0) : (⟨S4096x200x64, .f32⟩ : BufTy).Contents (Elt F) → (⟨S200x64x4096, .f32⟩ : BufTy).Contents (Elt F))
abbrev opT2 : HloOp τ sig (Elt F) := StableHlo.unary main_v2 main_v3 ((transpose S4096x200x64 [2, 0, 1] · transposes_S200x64x4096_S4096x200x64_2_0_1) : (⟨S200x64x4096, .f32⟩ : BufTy).Contents (Elt F) → (⟨S4096x200x64, .f32⟩ : BufTy).Contents (Elt F))

abbrev S1 : Finset (DevRef τ sig) := {aFeat, aFt}
abbrev S2 : Finset (DevRef τ sig) := {aOt, aOut}

theorem hT1 : (opT1 (F := F)).bufs ⊆ S1 := show ({aFeat, aFt} : Finset (DevRef τ sig)) ⊆ S1 by decide
theorem hT2 : (opT2 (F := F)).bufs ⊆ S2 := show ({aOt, aOut} : Finset (DevRef τ sig)) ⊆ S2 by decide

omit [FloatOps F] in
theorem held_S1 (d : Dev nD) (W : Valuation τ sig (Elt F)) :
    (held (T d) S1 W : sProp 𝕄) = iprop((featLoc d ↦{fullShare} W aFeat) ∗ (ftLoc d ↦{fullShare} W aFt)) := by
  unfold held S1
  rw [SparseCore.bigSep_insert' (by decide), bigSep_singleton]
omit [FloatOps F] in
theorem held_S2 (d : Dev nD) (W : Valuation τ sig (Elt F)) :
    (held (T d) S2 W : sProp 𝕄) = iprop((otLoc d ↦{fullShare} W aOt) ∗ (outLoc d ↦{fullShare} W aOut)) := by
  unfold held S2
  rw [SparseCore.bigSep_insert' (by decide), bigSep_singleton]

/-- The launch valuation, and it with the grid's result array at given contents. -/
def V0 (d : Dev nD) : Valuation τ sig (Elt F) := fun b => m (d, b)
def V2 (d : Dev nD) (f : S200x64x4096.Idx → Elt F .f32) : Valuation τ sig (Elt F) := Function.update (V0 m d) aOt f

/-- The features transposed. -/
abbrev xT (d : Dev nD) : S200x64x4096.Idx → Elt F .f32 :=
  transpose S200x64x4096 [1, 2, 0] (m (featLoc d)) transposes_S4096x200x64_S200x64x4096_1_2_0

theorem r1_feat (d : Dev nD) : (opT1 (F := F)).result (V0 m d) aFeat = m (featLoc d) :=
  StableHlo.unary_result_ne _ _ _ _ _ _ (show (main_arg0 : Ref sig .tc) ≠ main_v1 by decide)
theorem r1_ft (d : Dev nD) : (opT1 (F := F)).result (V0 m d) aFt = xT m d :=
  StableHlo.unary_result _ _ _ _ _ _
theorem r2_ot (d : Dev nD) (f : S200x64x4096.Idx → Elt F .f32) : (opT2 (F := F)).result (V2 m d f) aOt = f :=
  (StableHlo.unary_result_ne _ _ _ _ _ _ (show (main_v2 : Ref sig .tc) ≠ main_v3 by decide)).trans (Function.update_self _ _ _)
theorem r2_out (d : Dev nD) (f : S200x64x4096.Idx → Elt F .f32) :
    (opT2 (F := F)).result (V2 m d f) aOut = transpose S4096x200x64 [2, 0, 1] f transposes_S200x64x4096_S4096x200x64_2_0_1 :=
  (StableHlo.unary_result _ _ _ _ _ _).trans (congrArg (transpose S4096x200x64 [2, 0, 1] · transposes_S200x64x4096_S4096x200x64_2_0_1) (Function.update_self _ _ _))
theorem V2_out (d : Dev nD) (f : S200x64x4096.Idx → Elt F .f32) : V2 m d f aOut = m (outLoc d) :=
  Function.update_of_ne (show aOut ≠ aOt by decide) _ _
theorem V2_ot (d : Dev nD) (f : S200x64x4096.Idx → Elt F .f32) : V2 m d f aOt = f := Function.update_self _ _ _

/-- The TensorCore's handshake state after the one call holds what it owes — nothing — with its recorded pairs
    bounded, and is restored from that. -/
theorem tcSt_owes (d : Dev nD) :
    (K (F := F)).tcSt (EH (F := F)) d 1
      ⊢ iprop(Pipeline.owesWithin d (0 : CellTallies nD τ sig (HIx 1)) (recd (F := F) d)
          ∗ (Pipeline.owesWithin d (0 : CellTallies nD τ sig (HIx 1)) (recd (F := F) d) -∗ (K (F := F)).tcSt (EH (F := F)) d 1)) := by
  unfold SparseCore.Cfg.tcSt
  rw [(K (F := F)).Otc_end d (le_refl 1)]
  iintro ⟨⟨%W, %hW, HO⟩, Hrest⟩
  isplitl [HO]
  · iexists W; isplitr; · ipureintro; exact fun p hp => hW p hp
    iexact HO
  iintro ⟨%W', %hW', HO'⟩
  isplitl [HO']
  · iexists W'; isplitr; · ipureintro; exact fun p hp => hW' hp
    iexact HO'
  iexact Hrest

theorem held_T1 (d : Dev nD) :
    (held (T d) S1 ((opT1 (F := F)).result (V0 m d)) : sProp 𝕄) = iprop((featLoc d ↦{fullShare} m (featLoc d)) ∗ (ftLoc d ↦{fullShare} xT m d)) := by
  rw [held_S1, r1_feat, r1_ft]
theorem held_T2 (d : Dev nD) (f : S200x64x4096.Idx → Elt F .f32) :
    (held (T d) S2 ((opT2 (F := F)).result (V2 m d f)) : sProp 𝕄)
      = iprop((otLoc d ↦{fullShare} f) ∗ (outLoc d ↦{fullShare} transpose S4096x200x64 [2, 0, 1] f transposes_S200x64x4096_S4096x200x64_2_0_1)) := by
  rw [held_S2, r2_ot, r2_out]

/-- The grid's call in the program is the region's entry, lifted to the program's labels. -/
theorem lift_entry : (Prog.lift (.customCall (SparseCore.inner (Pipeline.entry 0)) ()) : Prog (TpuEff nD τ sig (Elt F) (SparseCore.Sig (ΛP (F := F)) 1) .tc) PUnit)
    = SparseCore.liftProg (Q := 1) (.op (.customCall (Pipeline.entry 0) ()) fun _ => .ret ⟨⟩) := rfl

theorem reg_pre (d : Dev nD) : (reg g x o).pre d = regPre g x o d := rfl
theorem reg_post (d : Dev nD) : (reg g x o).post d = regPost g x o d := rfl

set_option backward.isDefEq.respectTransparency.types false in
set_option maxHeartbeats 1000000 in
/-- The grid's call on a device: from the region boundary, the three arrays, what the core owes, the level facts and
    the staging cells' launch state, to the boundary and the arrays as the grid leaves them. -/
theorem region_step (d : Dev nD) (Φ : PUnit.{1} → sProp 𝕄) :
    iprop((iprop(boundary (d.tc : Thread nD τ) ∗ (reg g x o).post d) -∗ wp frame (wpE (D (F := F)) 𝒱 (d.tc : Thread nD τ) none) Set.univ (.ret ⟨⟩) Φ)
        ∗ boundary (d.tc : Thread nD τ) ∗ (reg g x o).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Φ := by
  rw [lift_entry]
  have h1 := Pipeline.RegionSeg.wp (pcfgs (F := F)) adm (dats g x o) none cellOf_inj (EP (F := F)) defs₀ 𝒱₀ (K (F := F)).L (K (F := F)).lev
      (reg g x o) d none (fun _ h => nomatch h) (fun _ => .ret ⟨⟩) Φ
  have h2 := (K (F := F)).wp_liftProg (D (F := F)) 𝒱 (SparseCore.T d) Set.univ none (.op (.customCall (Pipeline.entry 0) ()) fun _ => .ret ⟨⟩) Φ
  exact h1.trans h2

/-- What the tail leaves in the result: the modulation of the transposed features, transposed back. -/
def kerRes (d : Dev nD) (g : Buf (Elt F) (gbtLoc d)) : Buf (Elt F) (outLoc d) :=
  transpose S4096x200x64 [2, 0, 1] (filmOf g (xT m d)) transposes_S200x64x4096_S4096x200x64_2_0_1

set_option backward.isDefEq.respectTransparency.types false in
set_option maxHeartbeats 2000000 in
/-- The tail on a device: the features are transposed, the grid leaves the modulation of them in its result array,
    that is transposed back; the arguments stay as they were and the TensorCore's handshake state is as after the call. -/
theorem tc_tail (κ : GSem nD τ sig → ℕ) (d : Dev nD) (g : Buf (Elt F) (gbtLoc d)) :
    iprop((K (F := F)).ctx EH (P m) κ ∗ (K (F := F)).tcSt EH d 1 ∗ boundary (SparseCore.T d) ∗ (K (F := F)).tcSems0 d ∗ prngReg d (ρ d) ∗ Gd d
        ∗ (featLoc d ↦{fullShare} m (featLoc d)) ∗ (idxLoc d ↦{fullShare} m (idxLoc d)) ∗ (gamLoc d ↦{fullShare} m (gamLoc d)) ∗ (betLoc d ↦{fullShare} m (betLoc d))
        ∗ (gbtLoc d ↦{fullShare} g) ∗ (ftLoc d ↦{fullShare} m (ftLoc d)) ∗ (otLoc d ↦{fullShare} m (otLoc d)) ∗ (outLoc d ↦{fullShare} m (outLoc d)))
      ⊢ wp frame (wpE ((K (F := F)).defs (D (F := F))) 𝒱 (SparseCore.T d) none) Set.univ (tail d)
          fun _ => iprop((K (F := F)).tcSt EH d 1 ∗ (featLoc d ↦{fullShare} m (featLoc d)) ∗ (idxLoc d ↦{fullShare} m (idxLoc d)) ∗ (gamLoc d ↦{fullShare} m (gamLoc d)) ∗ (betLoc d ↦{fullShare} m (betLoc d)) ∗ (outLoc d ↦{fullShare} kerRes m d g)) := by
  simp only [tail, wp_bind, wp_pure]
  unfold Gd kerRes
  iintro ⟨#Hctx, Hst, Hb, -, -, ⟨Hcg, Htk⟩, Hfeat, Hidx, Hgam, Hbet, Hgbt, Hft, Hot, Hout⟩
  ihave Hlev := (SparseCore.Cfg.ctx_levAts κ) $$ Hctx
  ihave Hst' := (tcSt_owes d) $$ Hst
  icases Hst' with ⟨HO, Hback⟩
  -- the features transposed
  iapply (wp_hlo_within 𝒱 (SparseCore.T d) none Set.univ (op := opT1) (S := S1) hT1 (V := V0 m d)) $$ [Hb Hfeat Hft]
  · isplitl [Hb]; · iexact Hb
    rw [held_S1]
    isplitl [Hfeat]; · iexact Hfeat
    iexact Hft
  iintro ⟨Hb, Hheld⟩
  ihave Hh := (Entails.of_eq (held_T1 m d)) $$ Hheld
  icases Hh with ⟨Hfeat, Hft⟩
  rw [wp_ret]; imodintro
  -- the grid
  iapply (region_step g (xT m d) (m (otLoc d)) d _) $$ [Hb Hgbt Hft Hot HO Hcg Htk Hfeat Hidx Hgam Hbet Hout Hback]
  isplitr [Hb Hgbt Hft Hot HO Hcg Htk]
  swap
  · isplitl [Hb]; · iexact Hb
    isplitl [Hgbt Hft Hot HO]
    · rw [reg_pre]; unfold regPre
      isplitl [Hgbt Hft Hot]
      · iapply (arrays_entry g (xT m d) (m (otLoc d)) d)
        isplitl [Hgbt]; · iexact Hgbt
        isplitl [Hft]; · iexact Hft
        iexact Hot
      · iexact HO
    isplitr; · iexact Hlev
    isplitl [Hcg]; · iexact Hcg
    iexact Htk
  iintro ⟨Hb, Hpost⟩
  rw [wp_ret]; imodintro
  ihave Hp := (Entails.of_eq (reg_post g (xT m d) (m (otLoc d)) d)) $$ Hpost
  unfold regPost
  icases Hp with ⟨Ha, HO⟩
  ihave Ha' := (arrays_exit g (xT m d) (m (otLoc d)) d) $$ Ha
  icases Ha' with ⟨Hgbt, Hft, Hot⟩
  -- the result transposed back
  iapply (wp_hlo_within 𝒱 (SparseCore.T d) none Set.univ (op := opT2) (S := S2) hT2 (V := V2 m d (filmOf g (xT m d)))) $$ [Hb Hot Hout]
  · isplitl [Hb]; · iexact Hb
    rw [held_S2, V2_ot, V2_out]
    isplitl [Hot]; · iexact Hot
    iexact Hout
  iintro ⟨Hb, Hheld⟩
  ihave Hh := (Entails.of_eq (held_T2 m d (filmOf g (xT m d)))) $$ Hheld
  icases Hh with ⟨Hot, Hout⟩
  rw [wp_ret]; imodintro; imodintro
  isplitl [HO Hback]
  · iapply Hback; iexact HO
  isplitl [Hfeat]; · iexact Hfeat
  isplitl [Hidx]; · iexact Hidx
  isplitl [Hgam]; · iexact Hgam
  isplitl [Hbet]; · iexact Hbet
  iexact Hout

end Cert.Proof.KITensor

end
-- ==== Proof.KBSetup.lean ====
/-
  The printed program as the launch theorem of a SparseCore program sees it: the thirty-two vector subcores
  each run one task — copy in a block of 128 sample indices and the two 4 × 64 tables, choose per lane and per
  table entry, copy the 128 × 128 result out to the block's row of a 32 × 128 × 128 array — and the TensorCore then
  transposes the features, runs the multiply-and-add over thirty-two blocks of samples, and transposes back.
  Here: the program's names for the theorem's parameters, the ghost state (the launch handshakes' rounds, the
  TensorCore pipeline's rounds, and counters for the subcores' own copies), the arrays as locations, the way
  sample blocks and result rows are dealt to subcores (subcore `s` of SparseCore `c` takes block `2 s + c`), and
  what the one SparseCore call hands each subcore and takes back.
-/
import proofs.«202883_g575525617868_bridgefix_179_20_alg».proof.Defs
import proofs.«202883_g575525617868_bridgefix_179_20_alg».proof.Proof.Gen.Kernel
import proofs.«202883_g575525617868_bridgefix_179_20_alg».proof.Proof.Gen.Kernel.Skeleton
import proofs.«202883_g575525617868_bridgefix_179_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KBSetup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev featLoc (d : Dev nD) : Loc nD τ sig := (SparseCore.T d).loc main_arg0
abbrev idxLoc (d : Dev nD) : Loc nD τ sig := (SparseCore.T d).loc main_arg1
abbrev gamLoc (d : Dev nD) : Loc nD τ sig := (SparseCore.T d).loc main_arg2
abbrev betLoc (d : Dev nD) : Loc nD τ sig := (SparseCore.T d).loc main_arg3
abbrev gbtLoc (d : Dev nD) : Loc nD τ sig := (SparseCore.T d).loc main_v0
abbrev ftLoc (d : Dev nD) : Loc nD τ sig := (SparseCore.T d).loc main_v1
abbrev otLoc (d : Dev nD) : Loc nD τ sig := (SparseCore.T d).loc main_v2
abbrev outLoc (d : Dev nD) : Loc nD τ sig := (SparseCore.T d).loc main_v3

/-- The 32 × 128 × 128 array of chosen table entries, of the launch memory's tables and indices. -/
def gbtM (d : Dev nD) : Buf (Elt F) (gbtLoc d) :=
  gbtOf (α := F .f32) (m (gamLoc d)) (m (betLoc d)) (m (idxLoc d))

/-! ## Blocks of samples and rows of the result, dealt to subcores -/

theorem hdivI : 32 ∣ S4096.size 0 := ⟨128, rfl⟩
theorem hdivG : 32 ∣ S32x128x128.size 0 := ⟨1, rfl⟩
/-- Block `w` of the sample indices: entries `128 w … 128 w + 127`. -/
abbrev iBlk (w : Fin 32) : Rect S4096 := Rect.part (s := S4096) (a₀ := 0) hdivI w
/-- Row `w` of the result array: its 128 × 128 entries. -/
abbrev gRow (w : Fin 32) : Rect S32x128x128 := Rect.part (s := S32x128x128) (a₀ := 0) hdivG w
abbrev iSet (w : Fin 32) : Finset S4096.Idx := (iBlk w).set
abbrev gSet (w : Fin 32) : Finset S32x128x128.Idx := (gRow w).set

/-- The block a subcore works on: subcore `s` of SparseCore `c` takes block `2 s + c`. -/
def widOf (c : Fin 2) (s : Fin 16) : Fin 32 := ⟨2 * s.val + c.val, by have := c.isLt; have := s.isLt; omega⟩

/-! ## What the call hands a subcore, and takes back -/

abbrev idxPts (d : Dev nD) (w : Fin 32) : sProp 𝕄 := idxLoc d ↦[iSet w]{fullShare} m (idxLoc d)
abbrev gamTok (d : Dev nD) (w : Fin 32) : sProp 𝕄 := gamLoc d ↦{Transfers.shareTok fullShare 32 w} m (gamLoc d)
abbrev betTok (d : Dev nD) (w : Fin 32) : sProp 𝕄 := betLoc d ↦{Transfers.shareTok fullShare 32 w} m (betLoc d)
abbrev gbtPts (d : Dev nD) (w : Fin 32) (f : Buf (Elt F) (gbtLoc d)) : sProp 𝕄 := gbtLoc d ↦[gSet w]{fullShare} f

/-- A subcore's task takes its block of indices, a read share of each table and its row of the result; it hands
    them back with the row holding the chosen entries. -/
def goOf (d : Dev nD) (w : Fin 32) : sProp 𝕄 := iprop(idxPts m d w ∗ gamTok m d w ∗ betTok m d w ∗ gbtPts d w (m (gbtLoc d)))
def tdOf (d : Dev nD) (w : Fin 32) : sProp 𝕄 := iprop(idxPts m d w ∗ gamTok m d w ∗ betTok m d w ∗ gbtPts d w (gbtM m d))

def P : (K (F := F)).Pay (nD := nD) (Val := Elt F) (Name := ℕ) (U := UU) where
  st := fun q d c => match q with | 0 => bigSep Finset.univ fun i : Fin 16 => goOf m d (widOf (Fin.cast nCore_zero c) i)
  dn := fun q d c => match q with | 0 => bigSep Finset.univ fun i : Fin 16 => tdOf m d (widOf (Fin.cast nCore_zero c) i)
  go := fun q d c i => match q with | 0 => goOf m d (widOf (Fin.cast nCore_zero c) (Fin.cast nSub_zero i))
  td := fun q d c i => match q with | 0 => tdOf m d (widOf (Fin.cast nCore_zero c) (Fin.cast nSub_zero i))
  x := fun _ _ => iprop(emp)

instance goOf_storable (d : Dev nD) (w : Fin 32) : BI.Storable (upEmb : UEmb _ 𝕄) (goOf m d w) := by unfold goOf; infer_instance
instance tdOf_storable (d : Dev nD) (w : Fin 32) : BI.Storable (upEmb : UEmb _ 𝕄) (tdOf m d w) := by unfold tdOf; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KBSetup

end
-- ==== Proof.KBPieces.lean ====
/-
  One trip of a subcore's loop as a list of stores. At trip `k` the task reads, for each of the two tables `t`
  and each of its four rows `j`, the sixteen entries `16 k … 16 k + 15`; for each of those entries `i` and each
  group `g` of sixteen lanes it stores into row `16 k + i + 64 t` of its 128 × 128 result, lanes `16 g … 16 g + 15`,
  the entry of the row that the lane's sample index chooses by three comparisons. Here that trip's 256 stores are
  built from the coordinates `(t, i, g)`, last store first, in the very spelling the program computes them; then each
  store writes, on its own sixteen cells, one function of the cell's coordinates (`outTarget`): the chosen
  table entry at `(row / 64, ·, row % 64)` for the sample at that lane.
-/
import proofs.«202883_g575525617868_bridgefix_179_20_alg».proof.Proof.KBSetup

noncomputable section

namespace Cert.Proof.KBPieces

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KBSetup

variable {F : FTy → Type} [FloatOps F]

local notation "𝕄" => MT nD τ sig (HIx 1) (Elt F) ℕ UU ℕ

local notation "gamV" => (Memref.whole Cert.Kernel.main_arg2_scv : Memref Cert.Kernel.sig Kind.scVector Space.hbm Cert.Kernel.S4x64 EltTy.f32)
local notation "betV" => (Memref.whole Cert.Kernel.main_arg3_scv : Memref Cert.Kernel.sig Kind.scVector Space.hbm Cert.Kernel.S4x64 EltTy.f32)
local notation "idxV" => (Memref.whole Cert.Kernel.main_arg1_scv : Memref Cert.Kernel.sig Kind.scVector Space.hbm Cert.Kernel.S4096 EltTy.i32)
local notation "gbtV" => (Memref.whole Cert.Kernel.main_v0_scv : Memref Cert.Kernel.sig Kind.scVector Space.hbm Cert.Kernel.S32x128x128 EltTy.f32)
local notation "sIdx" => (Memref.whole Cert.Kernel.cc0_scratch0 : Memref Cert.Kernel.sig Kind.scVector Space.vmem Cert.Kernel.S128 EltTy.i32)
local notation "sGb" => (Memref.whole Cert.Kernel.cc0_scratch1 : Memref Cert.Kernel.sig Kind.scVector Space.vmem Cert.Kernel.S2x4x64 EltTy.f32)
local notation "sOut" => (Memref.whole Cert.Kernel.cc0_scratch2 : Memref Cert.Kernel.sig Kind.scVector Space.vmem Cert.Kernel.S128x128 EltTy.f32)

section Pieces

theorem inbI : ∀ g : Fin 8, ∀ a, (![16 * g.val] : Fin 1 → Nat) a + S16.size a ≤ S128.size a := by decide
theorem slicesI : ∀ i : Fin 16, S16.Slices ![i.val] S1 := by decide

/-- The offsets of table `t`'s row `j` at trip `k`, and of the store of lane group `g`. -/
def offT (t : Fin 2) (j : Fin 4) (k : Fin k0_t1_loop.trips) : Fin 3 → Nat :=
  match t, j with
  | 0, 0 => k0_off2 k | 0, 1 => k0_off3 k | 0, 2 => k0_off4 k | 0, 3 => k0_off5 k
  | 1, 0 => k0_off14 k | 1, 1 => k0_off15 k | 1, 2 => k0_off16 k | 1, 3 => k0_off17 k
theorem inbT (t : Fin 2) (j : Fin 4) (k : Fin k0_t1_loop.trips) : ∀ a, (offT t j k) a + S1x1x16.size a ≤ S2x4x64.size a :=
  match t, j with
  | 0, 0 => k0_off2_inb k | 0, 1 => k0_off3_inb k | 0, 2 => k0_off4_inb k | 0, 3 => k0_off5_inb k
  | 1, 0 => k0_off14_inb k | 1, 1 => k0_off15_inb k | 1, 2 => k0_off16_inb k | 1, 3 => k0_off17_inb k
def offG (g : Fin 8) (k : Fin k0_t1_loop.trips) (a b : BitVec 32) : Fin 2 → Nat :=
  match g with
  | 0 => k0_off6 k a b | 1 => k0_off7 k a b | 2 => k0_off8 k a b | 3 => k0_off9 k a b
  | 4 => k0_off10 k a b | 5 => k0_off11 k a b | 6 => k0_off12 k a b | 7 => k0_off13 k a b
theorem inbG (g : Fin 8) (k : Fin k0_t1_loop.trips) (i : Fin 16) (t : Fin 2) :
    ∀ a, (offG g k (BitVec.ofNat 32 i.val) (BitVec.ofNat 32 (64 * t.val))) a + S1x16.size a ≤ S128x128.size a :=
  match g with
  | 0 => k0_off6_inb k i t | 1 => k0_off7_inb k i t | 2 => k0_off8_inb k i t | 3 => k0_off9_inb k i t
  | 4 => k0_off10_inb k i t | 5 => k0_off11_inb k i t | 6 => k0_off12_inb k i t | 7 => k0_off13_inb k i t

variable (c6 : Vec F S128 .i32) (c7 : Vec F S2x4x64 .f32)

/-- The sixteen sample indices of lane group `g`, as the task loads them. -/
def idxVec (g : Fin 8) : IVec S16 32 :=
  shapeCast S16 (View.readAt (Elt F) (sIdx).view (Rect.unit (s := S128) ![16 * g.val] S16.size (inbI g)).toLoadRect c6) shapeCasts_S16_S16
/-- The same before the task's reshaping, and the three comparisons of a lane group's indices. -/
def rawIdx (g : Fin 8) : Vec F S16 .i32 :=
  View.readAt (Elt F) (sIdx).view (Rect.unit (s := S128) ![16 * g.val] S16.size (inbI g)).toLoadRect c6
def isZero (g : Fin 8) : IVec S16 1 := cmpi .eq (idxVec (F := F) c6 g) (broadcast S16 0#32)
def isTwo (g : Fin 8) : IVec S16 1 := cmpi .eq (idxVec (F := F) c6 g) (broadcast S16 2#32)
def isLow (g : Fin 8) : IVec S16 1 := cmpi .slt (idxVec (F := F) c6 g) (broadcast S16 2#32)
/-- Entry `16 k + i` of row `j` of table `t`, as the task extracts it. -/
def valOf (k : Fin k0_t1_loop.trips) (t : Fin 2) (j : Fin 4) (i : Fin 16) : F .f32 :=
  extractAt ![0] (extractStridedSlice S1 ![i.val]
    (shapeCast S16 (View.readAt (Elt F) (sGb).view (Rect.unit (s := S2x4x64) (offT t j k) S1x1x16.size (inbT t j k)).toLoadRect c7) shapeCasts_S1x1x16_S16 : FVec F S16 .f32)
    (slicesI i)) inpos_S1_p0
/-- What one store writes: per lane the table entry the lane's index chooses. -/
def pieceVal (k : Fin k0_t1_loop.trips) (g : Fin 8) (t : Fin 2) (i : Fin 16) : FVec F S1x16 .f32 :=
  shapeCast S1x16
    (select (cmpi .slt (idxVec (F := F) c6 g) (broadcast S16 2#32))
      (select (cmpi .eq (idxVec (F := F) c6 g) (broadcast S16 0#32)) (broadcast S16 (valOf c7 k t 0 i)) (broadcast S16 (valOf c7 k t 1 i)))
      (select (cmpi .eq (idxVec (F := F) c6 g) (broadcast S16 2#32)) (broadcast S16 (valOf c7 k t 2 i)) (broadcast S16 (valOf c7 k t 3 i))) : FVec F S16 .f32)
    shapeCasts_S16_S1x16
def mkPiece (k : Fin k0_t1_loop.trips) (g : Fin 8) (t : Fin 2) (i : Fin 16) : View.Piece (Elt F) S128x128 .f32 :=
  ⟨Rect.unit (s := S128x128) (offG g k (BitVec.ofNat 32 i.val) (BitVec.ofNat 32 (64 * t.val))) S1x16.size (inbG g k i t), pieceVal c6 c7 k g t i⟩
/-- A trip's stores, the last first. -/
def tripPieces (k : Fin k0_t1_loop.trips) : List (View.Piece (Elt F) S128x128 .f32) :=
  ((List.finRange 2).flatMap fun t => (List.finRange 16).flatMap fun i => (List.finRange 8).map fun g => mkPiece c6 c7 k g t i).reverse

end Pieces

end Cert.Proof.KBPieces

end
-- ==== Proof.KBTrip.lean ====
/-
  One trip of a subcore's loop, run once at a symbolic trip number: from the table scratch at contents `c7` and
  the result scratch at contents `f`, the trip leaves the tables as they were and the result scratch at `f` with
  the trip's 256 stores written over it, the stores being the list built from coordinates. What is known of the
  result scratch is carried as a property `Q` of the trip number and the contents, preserved by writing a trip's
  stores: which property, and why it is preserved, is the mathematics of another module.
-/
import proofs.«202883_g575525617868_bridgefix_179_20_alg».proof.Proof.KBPieces

noncomputable section

namespace Cert.Proof.KBTrip

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KBSetup

variable {F : FTy → Type} [FloatOps F]

local notation "𝕄" => MT nD τ sig (HIx 1) (Elt F) ℕ UU ℕ

local notation "gamV" => (Memref.whole Cert.Kernel.main_arg2_scv : Memref Cert.Kernel.sig Kind.scVector Space.hbm Cert.Kernel.S4x64 EltTy.f32)
local notation "betV" => (Memref.whole Cert.Kernel.main_arg3_scv : Memref Cert.Kernel.sig Kind.scVector Space.hbm Cert.Kernel.S4x64 EltTy.f32)
local notation "idxV" => (Memref.whole Cert.Kernel.main_arg1_scv : Memref Cert.Kernel.sig Kind.scVector Space.hbm Cert.Kernel.S4096 EltTy.i32)
local notation "gbtV" => (Memref.whole Cert.Kernel.main_v0_scv : Memref Cert.Kernel.sig Kind.scVector Space.hbm Cert.Kernel.S32x128x128 EltTy.f32)
local notation "sIdx" => (Memref.whole Cert.Kernel.cc0_scratch0 : Memref Cert.Kernel.sig Kind.scVector Space.vmem Cert.Kernel.S128 EltTy.i32)
local notation "sGb" => (Memref.whole Cert.Kernel.cc0_scratch1 : Memref Cert.Kernel.sig Kind.scVector Space.vmem Cert.Kernel.S2x4x64 EltTy.f32)
local notation "sOut" => (Memref.whole Cert.Kernel.cc0_scratch2 : Memref Cert.Kernel.sig Kind.scVector Space.vmem Cert.Kernel.S128x128 EltTy.f32)

open Cert.Proof.KBPieces

abbrev cV (L : grid0.Coords) : Fin τ.nSC := (L 0).castLE hcore0
abbrev jV (L : grid0.Coords) : Fin τ.nSub := (L 1).castLE hsub0

/-- What a trip starts from and ends at: the tables' scratch unchanged, the result scratch at contents of which
    `Q` holds at the trip's number. -/
def tripInv (d : Dev nD) (L : grid0.Coords) (c7 : Buf (Elt F) ((V d (cV L) (jV L)).loc cc0_scratch1))
    (Q : Nat → Buf (Elt F) ((V d (cV L) (jV L)).loc cc0_scratch2) → Prop) (k : Nat) (_ : PUnit) : sProp 𝕄 :=
  iprop(((sGb).view.loc (V d (cV L) (jV L)) ↦{fullShare} c7) ∗ ∃ f, ((sOut).view.loc (V d (cV L) (jV L)) ↦{fullShare} f) ∗ ⌜Q k f⌝)

set_option maxHeartbeats 40000000 in
set_option maxRecDepth 65536 in
theorem trip (d : Dev nD) (L : grid0.Coords) (c6 : Buf (Elt F) ((V d (cV L) (jV L)).loc cc0_scratch0)) (c7 : Buf (Elt F) ((V d (cV L) (jV L)).loc cc0_scratch1))
    (Q : Nat → Buf (Elt F) ((V d (cV L) (jV L)).loc cc0_scratch2) → Prop)
    (hQ : ∀ (k : Fin k0_t1_loop.trips) (f : Buf (Elt F) ((V d (cV L) (jV L)).loc cc0_scratch2)), Q k.val f →
      Q (k.val + 1) ((sOut).view.writes (Elt F) f (tripPieces (F := F) c6 c7 k)))
    (k : Fin k0_t1_loop.trips) (acc : PUnit) :
    tripInv (F := F) d L c7 Q k.val acc
      ⊢ wp frame (wpE (defs₀ (F := F)) 𝒱₀ (V d (cV L) (jV L)) none) Set.univ
          (k0_t1_body L gamV (Memref.isWhole_whole _) betV (Memref.isWhole_whole _) idxV (Memref.isWhole_whole _) gbtV (Memref.isWhole_whole _)
            sIdx (Memref.isWhole_whole _) sGb (Memref.isWhole_whole _) sOut (Memref.isWhole_whole _) cc0_scratch3 cc0_scratch4 cc0_scratch5 cc0_scoped0
            (isZero (F := F) c6 0) (isTwo (F := F) c6 0) (isLow (F := F) c6 0) (isZero (F := F) c6 1) (isTwo (F := F) c6 1) (isLow (F := F) c6 1)
            (isZero (F := F) c6 2) (isTwo (F := F) c6 2) (isLow (F := F) c6 2) (isZero (F := F) c6 3) (isTwo (F := F) c6 3) (isLow (F := F) c6 3)
            (isZero (F := F) c6 4) (isTwo (F := F) c6 4) (isLow (F := F) c6 4) (idxVec (F := F) c6 5) (isZero (F := F) c6 5) 2#32
            (rawIdx (F := F) c6 6) (rawIdx (F := F) c6 7) k acc)
          fun acc' => tripInv (F := F) d L c7 Q (k.val + 1) acc' := by
  unfold tripInv
  iintro ⟨H7, %f, H8, %hq⟩
  sl_exec_parts
  sl_step
  isplitl [H7]; · iexact H7
  iexists _
  isplitl [H8]; · iexact H8
  ipureintro
  exact hQ k f hq

end Cert.Proof.KBTrip

end
-- ==== Proof.KBValue.lean ====
/-
  What the result scratch of a subcore holds. Row `r` of the 128 × 128 scratch is written at trip `(r % 64) / 16`;
  its lane `c` is to hold the entry `(r / 64, ·, r % 64)` of the table scratch (table `r / 64`, entry `r % 64`) in the
  row that the sample index at lane `c` chooses (`outTarget`). Each store of trip `k` writes exactly that on its
  sixteen cells (`mkPiece_ok`), the stores of trip `k` cover every cell of the rows of trip `k` (`covered`) and
  touch no other row (`not_covered`); so "the rows of the trips before `k` hold the target" is kept by a trip
  (`Qv_step`), holds of nothing before the first (`Qv_zero`) and of the whole scratch after the fourth (`Qv_four`).
-/
import proofs.«202883_g575525617868_bridgefix_179_20_alg».proof.Proof.KBPieces
import Idealize.ShloMosaic.Lib.Writes
import Idealize.ShloMosaic.Lib.Pipeline.Value

noncomputable section

namespace Cert.Proof.KBValue

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KBSetup

variable {F : FTy → Type} [FloatOps F]

local notation "𝕄" => MT nD τ sig (HIx 1) (Elt F) ℕ UU ℕ

local notation "gamV" => (Memref.whole Cert.Kernel.main_arg2_scv : Memref Cert.Kernel.sig Kind.scVector Space.hbm Cert.Kernel.S4x64 EltTy.f32)
local notation "betV" => (Memref.whole Cert.Kernel.main_arg3_scv : Memref Cert.Kernel.sig Kind.scVector Space.hbm Cert.Kernel.S4x64 EltTy.f32)
local notation "idxV" => (Memref.whole Cert.Kernel.main_arg1_scv : Memref Cert.Kernel.sig Kind.scVector Space.hbm Cert.Kernel.S4096 EltTy.i32)
local notation "gbtV" => (Memref.whole Cert.Kernel.main_v0_scv : Memref Cert.Kernel.sig Kind.scVector Space.hbm Cert.Kernel.S32x128x128 EltTy.f32)
local notation "sIdx" => (Memref.whole Cert.Kernel.cc0_scratch0 : Memref Cert.Kernel.sig Kind.scVector Space.vmem Cert.Kernel.S128 EltTy.i32)
local notation "sGb" => (Memref.whole Cert.Kernel.cc0_scratch1 : Memref Cert.Kernel.sig Kind.scVector Space.vmem Cert.Kernel.S2x4x64 EltTy.f32)
local notation "sOut" => (Memref.whole Cert.Kernel.cc0_scratch2 : Memref Cert.Kernel.sig Kind.scVector Space.vmem Cert.Kernel.S128x128 EltTy.f32)

open Cert.Proof.KBPieces

theorem trips_lt (k : Fin k0_t1_loop.trips) : k.val < 4 := lt_of_lt_of_le k.isLt k0_t1_abs.2.1

theorem offT_eq (t : Fin 2) (j : Fin 4) (k : Fin k0_t1_loop.trips) : offT t j k = ![t.val, j.val, 16 * k.val] := by
  match t, j with
  | 0, 0 => exact k0_off2_eq k | 0, 1 => exact k0_off3_eq k | 0, 2 => exact k0_off4_eq k | 0, 3 => exact k0_off5_eq k
  | 1, 0 => exact k0_off14_eq k | 1, 1 => exact k0_off15_eq k | 1, 2 => exact k0_off16_eq k | 1, 3 => exact k0_off17_eq k

theorem offG_eq (g : Fin 8) (k : Fin k0_t1_loop.trips) (i : Fin 16) (t : Fin 2) :
    offG g k (BitVec.ofNat 32 i.val) (BitVec.ofNat 32 (64 * t.val)) = ![16 * k.val + i.val + 64 * t.val, 16 * g.val] := by
  match g with
  | 0 => exact k0_off6_eq k i t | 1 => exact k0_off7_eq k i t | 2 => exact k0_off8_eq k i t | 3 => exact k0_off9_eq k i t
  | 4 => exact k0_off10_eq k i t | 5 => exact k0_off11_eq k i t | 6 => exact k0_off12_eq k i t | 7 => exact k0_off13_eq k i t

section Reads

variable (c6 : Vec F S128 .i32) (c7 : Vec F S2x4x64 .f32)

/-- The sample index at lane `l` of group `g` is the scratch's entry `16 g + l`. -/
theorem idxVec_apply (g : Fin 8) (l : Fin 16) :
    idxVec (F := F) c6 g (ix1 l) = c6 (ix1 ⟨16 * g.val + l.val, by have := g.isLt; have := l.isLt; omega⟩) := by
  unfold idxVec
  refine (congrFun (shapeCast_self (s := S16) _ _) (ix1 l)).trans ?_
  rw [View.readAt_apply]
  show c6 _ = c6 _
  refine congrArg c6 (funext fun a => Fin.ext ?_)
  match a with
  | ⟨0, _⟩ => show 16 * g.val + 1 * l.val = 16 * g.val + l.val; omega

/-- The table entry the task extracts is the scratch's `(t, j, 16 k + i)`. -/
theorem valOf_eq (k : Fin k0_t1_loop.trips) (t : Fin 2) (j : Fin 4) (i : Fin 16) :
    valOf (F := F) c7 k t j i = c7 (ix3 t j ⟨16 * k.val + i.val, by have := trips_lt k; have := i.isLt; omega⟩) := by
  unfold valOf extractAt
  rw [extractStridedSlice_apply _ _ _ _ (ix1 i) (fun a => by match a with | ⟨0, _⟩ => show i.val = i.val + 0; omega),
    shapeCast_apply _ _ (ix1 i) (ix3 (0 : Fin 1) (0 : Fin 1) i) (by
      rw [Shape.rowMajor_val_three, Shape.rowMajor_val_one]; simp),
    View.readAt_apply]
  show c7 _ = c7 _
  refine congrArg c7 (funext fun a => Fin.ext ?_)
  have e := offT_eq t j k
  match a with
  | ⟨0, _⟩ => show offT t j k 0 + 1 * 0 = t.val; rw [e]; simp
  | ⟨1, _⟩ => show offT t j k 1 + 1 * 0 = j.val; rw [e]; simp
  | ⟨2, _⟩ => show offT t j k 2 + 1 * i.val = 16 * k.val + i.val; rw [e]; simp

end Reads

/-! ## The target -/

def tOf (r : Fin 128) : Fin 2 := ⟨r.val / 64, by have := r.isLt; omega⟩
def dOf (r : Fin 128) : Fin 64 := ⟨r.val % 64, Nat.mod_lt _ (by decide)⟩

/-- What cell `(r, c)` of the result scratch is to hold. -/
def outTarget (c6 : Vec F S128 .i32) (c7 : Vec F S2x4x64 .f32) : S128x128.Idx → F .f32 := fun y =>
  pick4 (c6 (ix1 (y 1))) (c7 (ix3 (tOf (y 0)) (0 : Fin 4) (dOf (y 0)))) (c7 (ix3 (tOf (y 0)) (1 : Fin 4) (dOf (y 0))))
    (c7 (ix3 (tOf (y 0)) (2 : Fin 4) (dOf (y 0)))) (c7 (ix3 (tOf (y 0)) (3 : Fin 4) (dOf (y 0))))

section Pieces

variable (c6 : Vec F S128 .i32) (c7 : Vec F S2x4x64 .f32)

theorem pieceVal_apply (k : Fin k0_t1_loop.trips) (g : Fin 8) (t : Fin 2) (i : Fin 16) (u : Fin 1) (l : Fin 16) :
    pieceVal (F := F) c6 c7 k g t i (ix2 u l)
      = pick4 (c6 (ix1 ⟨16 * g.val + l.val, by have := g.isLt; have := l.isLt; omega⟩))
          (c7 (ix3 t (0 : Fin 4) ⟨16 * k.val + i.val, by have := trips_lt k; have := i.isLt; omega⟩))
          (c7 (ix3 t (1 : Fin 4) ⟨16 * k.val + i.val, by have := trips_lt k; have := i.isLt; omega⟩))
          (c7 (ix3 t (2 : Fin 4) ⟨16 * k.val + i.val, by have := trips_lt k; have := i.isLt; omega⟩))
          (c7 (ix3 t (3 : Fin 4) ⟨16 * k.val + i.val, by have := trips_lt k; have := i.isLt; omega⟩)) := by
  unfold pieceVal
  rw [shapeCast_apply _ _ (ix2 u l) (ix1 l) (by
    rw [Shape.rowMajor_val_one, Shape.rowMajor_val_two]; have := u.isLt; simp <;> omega)]
  show pick4 (idxVec (F := F) c6 g (ix1 l)) (valOf (F := F) c7 k t 0 i) (valOf (F := F) c7 k t 1 i) (valOf (F := F) c7 k t 2 i) (valOf (F := F) c7 k t 3 i) = _
  rw [idxVec_apply, valOf_eq, valOf_eq, valOf_eq, valOf_eq]

/-- Each store writes the target on its own cells. -/
theorem mkPiece_ok (k : Fin k0_t1_loop.trips) (g : Fin 8) (t : Fin 2) (i : Fin 16) (x : (mkPiece (F := F) c6 c7 k g t i).1.shape.Idx) :
    (mkPiece (F := F) c6 c7 k g t i).2 x = outTarget (F := F) c6 c7 ((mkPiece (F := F) c6 c7 k g t i).1.emb x) := by
  obtain ⟨u, l, rfl⟩ : ∃ (u : Fin 1) (l : Fin 16), x = ix2 u l := ⟨x 0, x 1, eq_ix2 x⟩
  show pieceVal (F := F) c6 c7 k g t i (ix2 u l) = _
  rw [pieceVal_apply]
  have hk := trips_lt k; have hi := i.isLt; have ht := t.isLt; have hg := g.isLt; have hl := l.isLt
  have hu : u.val = 0 := by have := u.isLt; omega
  have e := offG_eq g k i t
  have e0 : (((mkPiece (F := F) c6 c7 k g t i).1.emb (ix2 u l)) 0).val = 16 * k.val + i.val + 64 * t.val := by
    show offG g k (BitVec.ofNat 32 i.val) (BitVec.ofNat 32 (64 * t.val)) 0 + 1 * u.val = _; rw [e, hu]; simp
  have e1 : (((mkPiece (F := F) c6 c7 k g t i).1.emb (ix2 u l)) 1).val = 16 * g.val + l.val := by
    show offG g k (BitVec.ofNat 32 i.val) (BitVec.ofNat 32 (64 * t.val)) 1 + 1 * l.val = _; rw [e]; simp
  unfold outTarget
  have h1 : ((mkPiece (F := F) c6 c7 k g t i).1.emb (ix2 u l)) 1 = (⟨16 * g.val + l.val, by omega⟩ : Fin 128) := Fin.ext e1
  have ht' : tOf (((mkPiece (F := F) c6 c7 k g t i).1.emb (ix2 u l)) 0) = t := Fin.ext (by show _ / 64 = t.val; rw [e0]; omega)
  have hd' : dOf (((mkPiece (F := F) c6 c7 k g t i).1.emb (ix2 u l)) 0) = (⟨16 * k.val + i.val, by omega⟩ : Fin 64) :=
    Fin.ext (by show _ % 64 = 16 * k.val + i.val; rw [e0]; omega)
  rw [h1, ht', hd']

theorem mem_tripPieces (k : Fin k0_t1_loop.trips) (p : View.Piece (Elt F) S128x128 .f32) :
    p ∈ tripPieces (F := F) c6 c7 k ↔ ∃ (t : Fin 2) (i : Fin 16) (g : Fin 8), p = mkPiece (F := F) c6 c7 k g t i := by
  unfold tripPieces
  simp only [List.mem_reverse, List.mem_flatMap, List.mem_map, List.mem_finRange, true_and]
  constructor
  · rintro ⟨t, i, g, rfl⟩; exact ⟨t, i, g, rfl⟩
  · rintro ⟨t, i, g, rfl⟩; exact ⟨t, i, g, rfl⟩

/-- The trip a row is written at. -/
def tripOf (y : S128x128.Idx) : Nat := ((y 0).val % 64) / 16

theorem mem_piece_iff (k : Fin k0_t1_loop.trips) (g : Fin 8) (t : Fin 2) (i : Fin 16) (y : S128x128.Idx) :
    y ∈ (mkPiece (F := F) c6 c7 k g t i).1.set ↔ (y 0).val = 16 * k.val + i.val + 64 * t.val ∧ 16 * g.val ≤ (y 1).val ∧ (y 1).val < 16 * g.val + 16 := by
  show y ∈ (Rect.unit (s := S128x128) (offG g k (BitVec.ofNat 32 i.val) (BitVec.ofNat 32 (64 * t.val))) S1x16.size (inbG g k i t)).set ↔ _
  rw [Rect.mem_set_unit, offG_eq]
  constructor
  · intro h
    have h0 := h 0; have h1 := h 1
    simp at h0 h1
    omega
  · rintro ⟨h0, h1, h2⟩ a
    match a with
    | ⟨0, _⟩ => simp; omega
    | ⟨1, _⟩ => simp; omega

theorem covered (k : Fin k0_t1_loop.trips) (y : S128x128.Idx) (h : tripOf y = k.val) : ∃ p ∈ tripPieces (F := F) c6 c7 k, y ∈ p.1.set := by
  have hy0 : (y 0).val < 128 := (y 0).isLt
  have hy1 : (y 1).val < 128 := (y 1).isLt
  unfold tripOf at h
  refine ⟨mkPiece (F := F) c6 c7 k ⟨(y 1).val / 16, by omega⟩ ⟨(y 0).val / 64, by omega⟩ ⟨(y 0).val % 16, Nat.mod_lt _ (by decide)⟩,
    (mem_tripPieces c6 c7 k _).mpr ⟨_, _, _, rfl⟩, (mem_piece_iff c6 c7 k _ _ _ y).mpr ⟨?_, ?_, ?_⟩⟩
  · show (y 0).val = 16 * k.val + (y 0).val % 16 + 64 * ((y 0).val / 64); omega
  · show 16 * ((y 1).val / 16) ≤ (y 1).val; omega
  · show (y 1).val < 16 * ((y 1).val / 16) + 16; omega

theorem not_covered (k : Fin k0_t1_loop.trips) (y : S128x128.Idx) (h : tripOf y ≠ k.val) : ∀ p ∈ tripPieces (F := F) c6 c7 k, y ∉ p.1.set := by
  intro p hp hy
  obtain ⟨t, i, g, rfl⟩ := (mem_tripPieces c6 c7 k p).mp hp
  obtain ⟨h0, -, -⟩ := (mem_piece_iff c6 c7 k g t i y).mp hy
  have := trips_lt k; have := i.isLt; have := t.isLt
  apply h; unfold tripOf; omega

/-- The rows of the trips before `k` hold the target. -/
def Qv (k : Nat) (f : S128x128.Idx → F .f32) : Prop := ∀ y, tripOf y < k → f y = outTarget (F := F) c6 c7 y

theorem Qv_zero (f : S128x128.Idx → F .f32) : Qv (F := F) c6 c7 0 f := fun _ h => absurd h (Nat.not_lt_zero _)

theorem Qv_step (k : Fin k0_t1_loop.trips) (f : S128x128.Idx → F .f32) (h : Qv (F := F) c6 c7 k.val f) :
    Qv (F := F) c6 c7 (k.val + 1) ((sOut).view.writes (Elt F) f (tripPieces (F := F) c6 c7 k)) := by
  intro y hy
  have hr : ∀ g' : (sOut).view.ty.Contents (Elt F), (sOut).view.read (Elt F) g' = g' := fun _ => rfl
  by_cases hrow : tripOf y = k.val
  · have h1 := View.read_writes_apply_of_pieces (v := (sOut).view) (f := f) (outTarget (F := F) c6 c7) (tripPieces (F := F) c6 c7 k)
      (fun p hp x => by obtain ⟨t, i, g, rfl⟩ := (mem_tripPieces c6 c7 k p).mp hp; exact mkPiece_ok c6 c7 k g t i x) y (covered c6 c7 k y hrow)
    rw [hr] at h1
    exact h1
  · have h2 := View.read_writes_apply_of_forall_not_mem (v := (sOut).view) (f := f) y (tripPieces (F := F) c6 c7 k) (not_covered c6 c7 k y hrow)
    rw [hr, hr] at h2
    exact h2.trans (h y (by omega))

theorem Qv_four (f : S128x128.Idx → F .f32) (h : Qv (F := F) c6 c7 4 f) : f = outTarget (F := F) c6 c7 :=
  funext fun y => h y (by unfold tripOf; have := (y 0).isLt; omega)

end Pieces

end Cert.Proof.KBValue

end
-- ==== Proof.KBViews.lean ====
/-
  A subcore's memrefs against the arrays the call deals it. Subcore `(c, s)` slices sample indices
  `128 (2 s + c) … + 127` and row `2 s + c` of the result array: those slices are block `2 s + c` of the partitions
  of the two arrays into thirty-two parts, so what the call hands over on a part is what the slice's memref holds.
  The table scratch, 2 × 4 × 64, is two halves, one per table, each the landing place of one copy: held as its
  halves while the copies are in flight and whole again after. Also here: the subcore's own four copy
  semaphores and three scratch buffers taken out of what it owns.
-/
import proofs.«202883_g575525617868_bridgefix_179_20_alg».proof.Proof.KBPieces

noncomputable section

namespace Cert.Proof.KBViews

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KBSetup

variable {F : FTy → Type} [FloatOps F]

local notation "𝕄" => MT nD τ sig (HIx 1) (Elt F) ℕ UU ℕ

local notation "gamV" => (Memref.whole Cert.Kernel.main_arg2_scv : Memref Cert.Kernel.sig Kind.scVector Space.hbm Cert.Kernel.S4x64 EltTy.f32)
local notation "betV" => (Memref.whole Cert.Kernel.main_arg3_scv : Memref Cert.Kernel.sig Kind.scVector Space.hbm Cert.Kernel.S4x64 EltTy.f32)
local notation "idxV" => (Memref.whole Cert.Kernel.main_arg1_scv : Memref Cert.Kernel.sig Kind.scVector Space.hbm Cert.Kernel.S4096 EltTy.i32)
local notation "gbtV" => (Memref.whole Cert.Kernel.main_v0_scv : Memref Cert.Kernel.sig Kind.scVector Space.hbm Cert.Kernel.S32x128x128 EltTy.f32)
local notation "sIdx" => (Memref.whole Cert.Kernel.cc0_scratch0 : Memref Cert.Kernel.sig Kind.scVector Space.vmem Cert.Kernel.S128 EltTy.i32)
local notation "sGb" => (Memref.whole Cert.Kernel.cc0_scratch1 : Memref Cert.Kernel.sig Kind.scVector Space.vmem Cert.Kernel.S2x4x64 EltTy.f32)
local notation "sOut" => (Memref.whole Cert.Kernel.cc0_scratch2 : Memref Cert.Kernel.sig Kind.scVector Space.vmem Cert.Kernel.S128x128 EltTy.f32)

open Cert.Proof.KBPieces

abbrev cV (L : grid0.Coords) : Fin τ.nSC := (L 0).castLE hcore0
abbrev jV (L : grid0.Coords) : Fin τ.nSub := (L 1).castLE hsub0

theorem bound0 : grid0.bound 0 = 2 := rfl
theorem bound1 : grid0.bound 1 = 16 := rfl
/-- The block a subcore works on. -/
def wL (L : grid0.Coords) : Fin 32 := widOf (Fin.cast bound0 (L 0)) (Fin.cast bound1 (L 1))
theorem wL_val (L : grid0.Coords) : (wL L).val = 2 * (L 1).val + (L 0).val := rfl

abbrev idxSl (L : grid0.Coords) : Memref sig .scVector .hbm S128 .i32 :=
  (idxV).slice (Rect.unit (s := S4096) (k0_off1 L) S128.size (k0_off1_inb L)) (fun _ => rfl)
abbrev outSl (L : grid0.Coords) : Memref sig .scVector .hbm S128x128 .f32 :=
  ((gbtV).slice (Rect.unit (s := S32x128x128) (k0_off18 L) S1x128x128.size (k0_off18_inb L)) (fun _ => rfl)).squeeze S128x128 squeezes_S1x128x128_S128x128
abbrev gbSl0 : Memref sig .scVector .vmem S4x64 .f32 :=
  ((sGb).slice (Rect.unit (s := S2x4x64) ![0, 0, 0] S1x4x64.size inb_S2x4x64_S1x4x64_0_0_0) (fun _ => rfl)).squeeze S4x64 squeezes_S1x4x64_S4x64
abbrev gbSl1 : Memref sig .scVector .vmem S4x64 .f32 :=
  ((sGb).slice (Rect.unit (s := S2x4x64) ![1, 0, 0] S1x4x64.size inb_S2x4x64_S1x4x64_1_0_0) (fun _ => rfl)).squeeze S4x64 squeezes_S1x4x64_S4x64

/-! ## The slices are the parts -/

theorem idxRect_eq (L : grid0.Coords) : Rect.unit (s := S4096) (k0_off1 L) S128.size (k0_off1_inb L) = iBlk (wL L) := by
  unfold iBlk Rect.part Rect.block
  congr 1 <;> funext a
  · rw [k0_off1_eq]
    match a with
    | ⟨0, _⟩ => simp [Shape.partIx, Shape.partSize, wL_val]; omega
  · match a with
    | ⟨0, _⟩ => simp [Shape.partSize]

theorem outRect_eq (L : grid0.Coords) : Rect.unit (s := S32x128x128) (k0_off18 L) S1x128x128.size (k0_off18_inb L) = gRow (wL L) := by
  unfold gRow Rect.part Rect.block
  congr 1 <;> funext a
  · rw [k0_off18_eq]
    match a with
    | ⟨0, _⟩ => simp [Shape.partIx, Shape.partSize, wL_val]
    | ⟨1, _⟩ => simp [Shape.partIx, Shape.partSize]
    | ⟨2, _⟩ => simp [Shape.partIx, Shape.partSize]
  · match a with
    | ⟨0, _⟩ => simp [Shape.partSize]
    | ⟨1, _⟩ => simp [Shape.partSize]
    | ⟨2, _⟩ => simp [Shape.partSize]

theorem set_idxSl (L : grid0.Coords) : (idxSl L).view.set = iSet (wL L) := by
  show ((View.whole (main_arg1_scv : Ref sig .scVector)).slice (Rect.unit (s := S4096) (k0_off1 L) S128.size (k0_off1_inb L))).set = _
  rw [View.set_slice_whole, idxRect_eq]

theorem set_outSl (L : grid0.Coords) : (outSl L).view.set = gSet (wL L) := by
  show (((View.whole (main_v0_scv : Ref sig .scVector)).slice (Rect.unit (s := S32x128x128) (k0_off18 L) S1x128x128.size (k0_off18_inb L))).reshape S128x128
    squeezes_S1x128x128_S128x128.numel_eq).set = _
  rw [View.set_reshape, View.set_slice_whole]
  exact congrArg (fun r : Rect S32x128x128 => r.set) (outRect_eq L)

/-! ## The table scratch as its two halves -/

theorem hdivT : 2 ∣ S2x4x64.size 0 := ⟨1, rfl⟩
abbrev tHalf (t : Fin 2) : Rect S2x4x64 := Rect.part (s := S2x4x64) (a₀ := 0) hdivT t
abbrev tSet (t : Fin 2) : Finset S2x4x64.Idx := (tHalf t).set

theorem half0_eq : Rect.unit (s := S2x4x64) ![0, 0, 0] S1x4x64.size inb_S2x4x64_S1x4x64_0_0_0 = tHalf 0 := by
  unfold tHalf Rect.part Rect.block
  congr 1 <;> funext a <;> match a with
    | ⟨0, _⟩ => simp [Shape.partIx, Shape.partSize]
    | ⟨1, _⟩ => simp [Shape.partIx, Shape.partSize]
    | ⟨2, _⟩ => simp [Shape.partIx, Shape.partSize]
theorem half1_eq : Rect.unit (s := S2x4x64) ![1, 0, 0] S1x4x64.size inb_S2x4x64_S1x4x64_1_0_0 = tHalf 1 := by
  unfold tHalf Rect.part Rect.block
  congr 1 <;> funext a <;> match a with
    | ⟨0, _⟩ => simp [Shape.partIx, Shape.partSize]
    | ⟨1, _⟩ => simp [Shape.partIx, Shape.partSize]
    | ⟨2, _⟩ => simp [Shape.partIx, Shape.partSize]

theorem set_gbSl0 : (gbSl0).view.set = tSet 0 := by
  show (((View.whole (cc0_scratch1 : Ref sig .scVector)).slice (Rect.unit (s := S2x4x64) ![0, 0, 0] S1x4x64.size inb_S2x4x64_S1x4x64_0_0_0)).reshape S4x64
    squeezes_S1x4x64_S4x64.numel_eq).set = _
  rw [View.set_reshape, View.set_slice_whole]
  exact congrArg (fun r : Rect S2x4x64 => r.set) half0_eq
theorem set_gbSl1 : (gbSl1).view.set = tSet 1 := by
  show (((View.whole (cc0_scratch1 : Ref sig .scVector)).slice (Rect.unit (s := S2x4x64) ![1, 0, 0] S1x4x64.size inb_S2x4x64_S1x4x64_1_0_0)).reshape S4x64
    squeezes_S1x4x64_S4x64.numel_eq).set = _
  rw [View.set_reshape, View.set_slice_whole]
  exact congrArg (fun r : Rect S2x4x64 => r.set) half1_eq

theorem tSet_disjoint : Disjoint (tSet 0) (tSet 1) := Rect.part_disjoint hdivT (by decide)
theorem tSet_union : tSet 0 ∪ tSet 1 = Finset.univ := by
  have h := Rect.biUnion_part (s := S2x4x64) (a₀ := 0) hdivT
  rw [show (Finset.univ : Finset (Fin 2)) = {0, 1} by decide, Finset.biUnion_insert, Finset.singleton_biUnion] at h
  exact h

end Cert.Proof.KBViews

end
-- ==== Proof.KBTile.lean ====
/-
  One subcore's whole task. It copies in its 128 sample indices and the two tables (three copies on three
  semaphores, all waited for before anything is read), makes the eight groups' comparisons, runs the four trips, and
  copies its 128 × 128 result out to its row of the result array. After the copies the index scratch holds the
  subcore's block of indices and the table scratch holds the first table in its first half and the second in its
  second; after the four trips the result scratch is the target of those contents, which at row `r`, lane `c` is
  the entry `r % 64` of the row, of table `r / 64`, that sample `128 w + c`'s index chooses: the block array's row
  `w` as the specification states it. So the task hands back its block of indices, its shares of the tables, and its
  row of the result array holding the specified entries.
-/
import proofs.«202883_g575525617868_bridgefix_179_20_alg».proof.Proof.KBTrip
import proofs.«202883_g575525617868_bridgefix_179_20_alg».proof.Proof.KBValue
import proofs.«202883_g575525617868_bridgefix_179_20_alg».proof.Proof.KBViews

noncomputable section

namespace Cert.Proof.KBTile

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KBSetup

variable {F : FTy → Type} [FloatOps F]

local notation "𝕄" => MT nD τ sig (HIx 1) (Elt F) ℕ UU ℕ

local notation "gamV" => (Memref.whole Cert.Kernel.main_arg2_scv : Memref Cert.Kernel.sig Kind.scVector Space.hbm Cert.Kernel.S4x64 EltTy.f32)
local notation "betV" => (Memref.whole Cert.Kernel.main_arg3_scv : Memref Cert.Kernel.sig Kind.scVector Space.hbm Cert.Kernel.S4x64 EltTy.f32)
local notation "idxV" => (Memref.whole Cert.Kernel.main_arg1_scv : Memref Cert.Kernel.sig Kind.scVector Space.hbm Cert.Kernel.S4096 EltTy.i32)
local notation "gbtV" => (Memref.whole Cert.Kernel.main_v0_scv : Memref Cert.Kernel.sig Kind.scVector Space.hbm Cert.Kernel.S32x128x128 EltTy.f32)
local notation "sIdx" => (Memref.whole Cert.Kernel.cc0_scratch0 : Memref Cert.Kernel.sig Kind.scVector Space.vmem Cert.Kernel.S128 EltTy.i32)
local notation "sGb" => (Memref.whole Cert.Kernel.cc0_scratch1 : Memref Cert.Kernel.sig Kind.scVector Space.vmem Cert.Kernel.S2x4x64 EltTy.f32)
local notation "sOut" => (Memref.whole Cert.Kernel.cc0_scratch2 : Memref Cert.Kernel.sig Kind.scVector Space.vmem Cert.Kernel.S128x128 EltTy.f32)

open Cert.Proof.KBPieces Cert.Proof.KBValue Cert.Proof.KBViews
open Cert.Proof.KBTrip (tripInv trip)

variable (m : (ℓ : Loc nD τ sig) → Buf (Elt F) ℓ)

/-! ## The subcore's own semaphores and scratch buffers -/

section Own

variable (d : Dev nD) (L : grid0.Coords)

abbrev cell (s : DmaSem sig) : GSem nD τ sig := (V d (cV L) (jV L), .dma s)

omit [FloatOps F] in
theorem cell_mem (s : DmaSem sig) (h : (SemLoc.dma s : SemLoc sig).isScoped .scVector = true) : cell d L s ∈ ownCells (V d (cV L) (jV L)) :=
  (mem_ownCells (g := cell d L s)).mpr ⟨rfl, h⟩
omit [FloatOps F] in
theorem cell_ne {s s' : DmaSem sig} (h : s ≠ s') : cell d L s ≠ cell d L s' := fun e => h (SemLoc.dma.inj (Prod.mk.inj e).2)

omit [FloatOps F] in
theorem ownSems0_V :
    (ownSems0 (V d (cV L) (jV L)) : sProp 𝕄)
      = iprop(semVal (cell d L cc0_scratch3.sem) 0 ∗ semVal (cell d L cc0_scratch4.sem) 0 ∗ semVal (cell d L cc0_scratch5.sem) 0 ∗ semVal (cell d L cc0_scoped0.sem) 0
          ∗ bigSep (((((ownCells (V d (cV L) (jV L))).erase (cell d L cc0_scratch3.sem)).erase (cell d L cc0_scratch4.sem)).erase (cell d L cc0_scratch5.sem)).erase (cell d L cc0_scoped0.sem))
              fun g => semVal g 0) := by
  unfold SparseCore.Cfg.ownSems0
  rw [SparseCore.bigSep_erase' (cell_mem d L cc0_scratch3.sem (by decide)),
    SparseCore.bigSep_erase' (Finset.mem_erase.mpr ⟨cell_ne d L (by decide), cell_mem d L cc0_scratch4.sem (by decide)⟩),
    SparseCore.bigSep_erase' (Finset.mem_erase.mpr ⟨cell_ne d L (by decide), Finset.mem_erase.mpr ⟨cell_ne d L (by decide), cell_mem d L cc0_scratch5.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped0.sem (by decide)⟩⟩⟩)]

abbrev bref (b : Ref sig .scVector) : DevRef τ sig := (Proc.scVector (cV L) (jV L)).devRef b
omit [FloatOps F] in
theorem bref_mem (b : Ref sig .scVector) (h : ((Proc.scVector (cV L) (jV L)).devRef b).owner = .proc (Proc.scVector (cV L) (jV L))) :
    bref L b ∈ ownRefs (τ := τ) (.scVector (cV L) (jV L)) := SparseCore.Cfg.mem_ownRefs_of_owner (p := Proc.scVector (cV L) (jV L)) h
omit [FloatOps F] in
theorem bref_ne {b b' : Ref sig .scVector} (h : b ≠ b') : bref L b ≠ bref L b' := fun e => h (Proc.devRef_injective _ e)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (bref L cc0_scratch0)).erase (bref L cc0_scratch1)).erase (bref L cc0_scratch2))
              fun b => iprop(∃ f, ((d, b) : Loc nD τ sig) ↦{fullShare} f)) := by
  unfold SparseCore.Cfg.ownBufs
  refine (SparseCore.bigSep_erase' (bref_mem L cc0_scratch0 rfl)).trans ?_
  rw [SparseCore.bigSep_erase' (Finset.mem_erase.mpr ⟨bref_ne L (by decide), bref_mem L cc0_scratch1 rfl⟩),
    SparseCore.bigSep_erase' (Finset.mem_erase.mpr ⟨bref_ne L (by decide), Finset.mem_erase.mpr ⟨bref_ne L (by decide), bref_mem L cc0_scratch2 rfl⟩⟩)]

end Own

/-! ## The dealt arrays through the subcore's memrefs -/

section Pts

variable (d : Dev nD) (L : grid0.Coords)

omit [FloatOps F] in
theorem pts_idx (f : Buf (Elt F) (idxLoc d)) :
    ((idxSl L).view.loc (V d (cV L) (jV L)) ↦[(idxSl L).view.set]{fullShare} f : sProp 𝕄) = idxLoc d ↦[iSet (wL L)]{fullShare} f := by
  rw [set_idxSl]
omit [FloatOps F] in
theorem pts_out (f : Buf (Elt F) (gbtLoc d)) :
    ((outSl L).view.loc (V d (cV L) (jV L)) ↦[(outSl L).view.set]{fullShare} f : sProp 𝕄) = gbtLoc d ↦[gSet (wL L)]{fullShare} f := by
  rw [set_outSl]
omit [FloatOps F] in
theorem pts_gam (q : PosShare TreeShare) (f : Buf (Elt F) (gamLoc d)) :
    ((gamV).view.loc (V d (cV L) (jV L)) ↦{q} f : sProp 𝕄) = gamLoc d ↦{q} f := by
  simp only [Memref.view_whole, View.set_whole]
omit [FloatOps F] in
theorem pts_bet (q : PosShare TreeShare) (f : Buf (Elt F) (betLoc d)) :
    ((betV).view.loc (V d (cV L) (jV L)) ↦{q} f : sProp 𝕄) = betLoc d ↦{q} f := by
  simp only [Memref.view_whole, View.set_whole]
omit [FloatOps F] in
theorem pts_s6 (f : Buf (Elt F) ((V d (cV L) (jV L)).loc cc0_scratch0)) :
    ((sIdx).view.loc (V d (cV L) (jV L)) ↦{fullShare} f : sProp 𝕄) = (V d (cV L) (jV L)).loc cc0_scratch0 ↦{fullShare} f := rfl
omit [FloatOps F] in
theorem pts_s7 (f : Buf (Elt F) ((V d (cV L) (jV L)).loc cc0_scratch1)) :
    ((sGb).view.loc (V d (cV L) (jV L)) ↦{fullShare} f : sProp 𝕄) = (V d (cV L) (jV L)).loc cc0_scratch1 ↦{fullShare} f := rfl
omit [FloatOps F] in
theorem pts_s8 (f : Buf (Elt F) ((V d (cV L) (jV L)).loc cc0_scratch2)) :
    ((sOut).view.loc (V d (cV L) (jV L)) ↦{fullShare} f : sProp 𝕄) = (V d (cV L) (jV L)).loc cc0_scratch2 ↦{fullShare} f := rfl

omit [FloatOps F] in
/-- The table scratch whole is its two halves, as the two landing memrefs hold them. -/
theorem s7_split (f : Buf (Elt F) ((V d (cV L) (jV L)).loc cc0_scratch1)) :
    ((V d (cV L) (jV L)).loc cc0_scratch1 ↦{fullShare} f : sProp 𝕄)
      ⊣⊢ iprop(((gbSl0).view.loc (V d (cV L) (jV L)) ↦[(gbSl0).view.set]{fullShare} f) ∗ ((gbSl1).view.loc (V d (cV L) (jV L)) ↦[(gbSl1).view.set]{fullShare} f)) := by
  rw [set_gbSl0, set_gbSl1]
  have h := pointsTo_union (ℓ := (V d (cV L) (jV L)).loc cc0_scratch1) (q := fullShare) (f := f) (Val := Elt F) (Ix := HIx 1) (Name := ℕ) (U := UU) (Lvl := ℕ) tSet_disjoint
  rw [tSet_union] at h
  exact h

end Pts

/-! ## What the scratches hold after the copies -/

section Contents

variable (d : Dev nD) (L : grid0.Coords)

/-- The two tables as the table scratch is to hold them: the first in its first half, the second in its second. -/
def tabs : Vec F S2x4x64 .f32 := fun y =>
  if (y 0).val = 0 then (m (gamLoc d) : S4x64.Idx → F .f32) (ix2 (y 1) (y 2)) else (m (betLoc d) : S4x64.Idx → F .f32) (ix2 (y 1) (y 2))
/-- The subcore's block of sample indices. -/
def blk : Vec F S128 .i32 := (idxSl L).view.read (Elt F) (m (idxLoc d))

omit [FloatOps F] in
theorem tabs_zero (j : Fin 4) (dd : Fin 64) : tabs m d (ix3 (0 : Fin 2) j dd) = (m (gamLoc d) : S4x64.Idx → F .f32) (ix2 j dd) := rfl
omit [FloatOps F] in
theorem tabs_one (j : Fin 4) (dd : Fin 64) : tabs m d (ix3 (1 : Fin 2) j dd) = (m (betLoc d) : S4x64.Idx → F .f32) (ix2 j dd) := rfl

omit [FloatOps F] in
theorem emb_idxSl (l : Fin 128) : (idxSl L).view.emb (ix1 l) = ix1 (sampleOf (wL L) l) := by
  funext a; apply Fin.ext
  match a with
  | ⟨0, _⟩ =>
    show (k0_off1 L) 0 + 1 * l.val = (wL L).val * 128 + l.val
    rw [k0_off1_eq, wL_val]; simp; omega

omit [FloatOps F] in
theorem blk_apply (l : Fin 128) : blk m d L (ix1 l) = (m (idxLoc d) : S4096.Idx → BitVec 32) (ix1 (sampleOf (wL L) l)) := by
  unfold blk; rw [View.read_apply, emb_idxSl]; exact cast_eq _ _

omit [FloatOps F] in
theorem emb_gbSl0 (x : S4x64.Idx) : (gbSl0).view.emb x = ix3 (0 : Fin 2) (x 0) (x 1) := by
  have hz : Shape.reshapeEquiv (squeezes_S1x4x64_S4x64.numel_eq) x = (ix3 (0 : Fin 1) (x 0) (x 1) : S1x4x64.Idx) :=
    Shape.reshapeEquiv_eq_of_rowMajor _ (by rw [Shape.rowMajor_val_three, Shape.rowMajor_val_two]; simp)
  show (Rect.unit (s := S2x4x64) ![0, 0, 0] S1x4x64.size inb_S2x4x64_S1x4x64_0_0_0).emb (Shape.reshapeEquiv _ x) = _
  rw [hz]
  funext a; apply Fin.ext
  match a with
  | ⟨0, _⟩ => show 0 + 1 * 0 = 0; rfl
  | ⟨1, _⟩ => show 0 + 1 * (x 0).val = (x 0).val; omega
  | ⟨2, _⟩ => show 0 + 1 * (x 1).val = (x 1).val; omega
omit [FloatOps F] in
theorem emb_gbSl1 (x : S4x64.Idx) : (gbSl1).view.emb x = ix3 (1 : Fin 2) (x 0) (x 1) := by
  have hz : Shape.reshapeEquiv (squeezes_S1x4x64_S4x64.numel_eq) x = (ix3 (0 : Fin 1) (x 0) (x 1) : S1x4x64.Idx) :=
    Shape.reshapeEquiv_eq_of_rowMajor _ (by rw [Shape.rowMajor_val_three, Shape.rowMajor_val_two]; simp)
  show (Rect.unit (s := S2x4x64) ![1, 0, 0] S1x4x64.size inb_S2x4x64_S1x4x64_1_0_0).emb (Shape.reshapeEquiv _ x) = _
  rw [hz]
  funext a; apply Fin.ext
  match a with
  | ⟨0, _⟩ => show 1 + 1 * 0 = 1; rfl
  | ⟨1, _⟩ => show 0 + 1 * (x 0).val = (x 0).val; omega
  | ⟨2, _⟩ => show 0 + 1 * (x 1).val = (x 1).val; omega
omit [FloatOps F] in
theorem emb_outSl (x : S128x128.Idx) : (outSl L).view.emb x = ix3 (wL L) (x 0) (x 1) := by
  have hz : Shape.reshapeEquiv (squeezes_S1x128x128_S128x128.numel_eq) x = (ix3 (0 : Fin 1) (x 0) (x 1) : S1x128x128.Idx) :=
    Shape.reshapeEquiv_eq_of_rowMajor _ (by rw [Shape.rowMajor_val_three, Shape.rowMajor_val_two]; simp)
  show (Rect.unit (s := S32x128x128) (k0_off18 L) S1x128x128.size (k0_off18_inb L)).emb (Shape.reshapeEquiv _ x) = _
  rw [hz]
  funext a; apply Fin.ext
  match a with
  | ⟨0, _⟩ => show (k0_off18 L) 0 + 1 * 0 = (wL L).val; rw [k0_off18_eq, wL_val]; simp
  | ⟨1, _⟩ => show (k0_off18 L) 1 + 1 * (x 0).val = (x 0).val; rw [k0_off18_eq]; simp
  | ⟨2, _⟩ => show (k0_off18 L) 2 + 1 * (x 1).val = (x 1).val; rw [k0_off18_eq]; simp

omit [FloatOps F] in
/-- One write of a whole view, read back at an index, is the payload there. -/
theorem read_whole_write {sp : Space} {s : Shape} {e : EltTy} (v : View sig Kind.scVector sp s e) (g : v.ty.Contents (Elt F))
    (w : (Rect.whole s).shape.Idx → Elt F e) (x : s.Idx) : v.read (Elt F) (v.writes (Elt F) g [⟨Rect.whole s, w⟩]) x = w x := by
  have h := View.read_writes_cons_emb (v := v) (f := g) (Rect.whole s) w [] x
  rwa [Rect.emb_whole_apply] at h

omit [FloatOps F] in
theorem half0_ok (w : (Rect.whole S4x64).shape.Idx → Elt F .f32) (hw : ∀ x : S4x64.Idx, w x = (m (gamLoc d) : S4x64.Idx → F .f32) x)
    (g : (gbSl0).view.ty.Contents (Elt F)) :
    ∀ y ∈ (gbSl0).view.set, (gbSl0).view.writes (Elt F) g [⟨Rect.whole S4x64, w⟩] y = tabs m d y := by
  intro y hy
  obtain ⟨x, -, rfl⟩ := Finset.mem_map.mp hy
  have h := read_whole_write (F := F) (gbSl0).view g w x
  rw [View.read_apply] at h
  have h' : (gbSl0).view.writes (Elt F) g [⟨Rect.whole S4x64, w⟩] ((gbSl0).view.emb x) = w x := (cast_eq _ _).symm.trans h
  rw [h', hw, emb_gbSl0]
  obtain ⟨j, dd, rfl⟩ : ∃ (j : Fin 4) (dd : Fin 64), x = ix2 j dd := ⟨x 0, x 1, eq_ix2 x⟩
  exact (tabs_zero (F := F) m d j dd).symm
omit [FloatOps F] in
theorem half1_ok (w : (Rect.whole S4x64).shape.Idx → Elt F .f32) (hw : ∀ x : S4x64.Idx, w x = (m (betLoc d) : S4x64.Idx → F .f32) x)
    (g : (gbSl1).view.ty.Contents (Elt F)) :
    ∀ y ∈ (gbSl1).view.set, (gbSl1).view.writes (Elt F) g [⟨Rect.whole S4x64, w⟩] y = tabs m d y := by
  intro y hy
  obtain ⟨x, -, rfl⟩ := Finset.mem_map.mp hy
  have h := read_whole_write (F := F) (gbSl1).view g w x
  rw [View.read_apply] at h
  have h' : (gbSl1).view.writes (Elt F) g [⟨Rect.whole S4x64, w⟩] ((gbSl1).view.emb x) = w x := (cast_eq _ _).symm.trans h
  rw [h', hw, emb_gbSl1]
  obtain ⟨j, dd, rfl⟩ : ∃ (j : Fin 4) (dd : Fin 64), x = ix2 j dd := ⟨x 0, x 1, eq_ix2 x⟩
  exact (tabs_one (F := F) m d j dd).symm

omit [FloatOps F] in
/-- The table scratch's entry `(r / 64, j, r % 64)` is entry `r` of the stacked tables' row `j`. -/
theorem tabs_tab (r : Fin 128) (j : Fin 4) :
    tabs m d (ix3 (tOf r) j (dOf r)) = tabAt (m (gamLoc d) : S4x64.Idx → F .f32) (m (betLoc d) : S4x64.Idx → F .f32) r j := by
  have hr := r.isLt
  unfold tabs tabAt
  by_cases h : r.val < 64
  · rw [if_pos (by show r.val / 64 = 0; omega), dif_pos h]
    exact congrArg _ (congrArg (ix2 j) (Fin.ext (by show r.val % 64 = r.val; omega)))
  · rw [if_neg (by show ¬ r.val / 64 = 0; omega), dif_neg h]
    exact congrArg _ (congrArg (ix2 j) (Fin.ext (by show r.val % 64 = r.val - 64; omega)))

omit [FloatOps F] in
/-- The target of the scratches' contents is the specified block array's row of this subcore. -/
theorem target_row (r c : Fin 128) :
    outTarget (F := F) (blk m d L) (tabs m d) (ix2 r c) = gbtM m d (ix3 (wL L) r c) := by
  show pick4 (blk m d L (ix1 c)) (tabs m d (ix3 (tOf r) (0 : Fin 4) (dOf r))) (tabs m d (ix3 (tOf r) (1 : Fin 4) (dOf r)))
      (tabs m d (ix3 (tOf r) (2 : Fin 4) (dOf r))) (tabs m d (ix3 (tOf r) (3 : Fin 4) (dOf r)))
    = pick4 ((m (idxLoc d) : S4096.Idx → BitVec 32) (ix1 (sampleOf (wL L) c)))
        (tabAt (m (gamLoc d) : S4x64.Idx → F .f32) (m (betLoc d) : S4x64.Idx → F .f32) r 0) (tabAt (m (gamLoc d) : S4x64.Idx → F .f32) (m (betLoc d) : S4x64.Idx → F .f32) r 1)
        (tabAt (m (gamLoc d) : S4x64.Idx → F .f32) (m (betLoc d) : S4x64.Idx → F .f32) r 2) (tabAt (m (gamLoc d) : S4x64.Idx → F .f32) (m (betLoc d) : S4x64.Idx → F .f32) r 3)
  rw [blk_apply, tabs_tab, tabs_tab, tabs_tab, tabs_tab]

omit [FloatOps F] in
theorem row_ok (w : (Rect.whole S128x128).shape.Idx → Elt F .f32) (hw : ∀ x : S128x128.Idx, w x = outTarget (F := F) (blk m d L) (tabs m d) x)
    (g : (outSl L).view.ty.Contents (Elt F)) :
    ∀ y ∈ (outSl L).view.set, (outSl L).view.writes (Elt F) g [⟨Rect.whole S128x128, w⟩] y = gbtM m d y := by
  intro y hy
  obtain ⟨x, -, rfl⟩ := Finset.mem_map.mp hy
  have h := read_whole_write (F := F) (outSl L).view g w x
  rw [View.read_apply] at h
  have h' : (outSl L).view.writes (Elt F) g [⟨Rect.whole S128x128, w⟩] ((outSl L).view.emb x) = w x := (cast_eq _ _).symm.trans h
  obtain ⟨r, c, rfl⟩ : ∃ (r c : Fin 128), x = ix2 r c := ⟨x 0, x 1, eq_ix2 x⟩
  rw [h', hw, emb_outSl]
  exact target_row (F := F) m d L r c

omit [FloatOps F] in
theorem c6_eq (f6 : Buf (Elt F) ((V d (cV L) (jV L)).loc cc0_scratch0)) :
    View.write (Elt F) (sIdx).view f6 (blk m d L) Finset.univ = blk m d L := by
  simp only [Memref.view_whole, View.write_whole_univ]

theorem trips_four : Scf.trips k0_t1_loop.lb k0_t1_loop.ub k0_t1_loop.st = 4 := by decide

end Contents

/-! ## The task -/

section Task

variable (d : Dev nD) (L : grid0.Coords)

theorem tile_body (hF : (K (F := F)).Facts) (O : CellTallies nD τ sig (HIx 1)) (W : Waits sig (HIx 1)) (hO : ∀ g, O g none = 0) :
    iprop(levAts (K (F := F)).L (K (F := F)).lev ∗ emp ∗ goOf m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L gamV (Memref.isWhole_whole _) betV (Memref.isWhole_whole _) idxV (Memref.isWhole_whole _) gbtV (Memref.isWhole_whole _)
            sIdx (Memref.isWhole_whole _) sGb (Memref.isWhole_whole _) sOut (Memref.isWhole_whole _) cc0_scratch3 cc0_scratch4 cc0_scratch5 cc0_scoped0)
          fun _ => iprop(tdOf m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_k_eq_skeleton]; unfold cc0_gather_k_skel
  rw [(K (F := F)).scopedBufs_V hF d (cV L) (jV L), SparseCore.Cfg.scopedSems0_V (Val := Elt F) d (cV L) (jV L), ownSems0_V, ownBufs_V]
  unfold goOf
  iintro ⟨#Hlv, -, ⟨Hi, Hg, Hb, Ho⟩, ⟨⟨%f6, H6⟩, ⟨%f7, H7⟩, ⟨%f8, H8⟩, Hbufs⟩, ⟨Hs3, Hs4, Hs5, Hs0, Hsems⟩, HO⟩
  ihave Hmw := ((K (F := F)).mayWaits_none (thr := V d (cV L) (jV L)) hO) $$ Hlv
  ihave Hi := (Entails.of_eq (pts_idx (F := F) d L _).symm) $$ Hi
  ihave Hg := (Entails.of_eq (pts_gam (F := F) d L _ _).symm) $$ Hg
  ihave Hb := (Entails.of_eq (pts_bet (F := F) d L _ _).symm) $$ Hb
  ihave Ho := (Entails.of_eq (pts_out (F := F) d L _).symm) $$ Ho
  ihave H6 := (Entails.of_eq (pts_s6 (F := F) d L _).symm) $$ H6
  ihave H8 := (Entails.of_eq (pts_s8 (F := F) d L _).symm) $$ H8
  ihave H7s := (s7_split (F := F) d L f7).1 $$ H7
  icases H7s with ⟨H7a, H7b⟩
  sl_exec
  -- the table scratch whole again, holding the two tables
  ihave H7a := (Entails.of_eq (pointsTo_congr (half0_ok (F := F) m d _ (fun _ => rfl) _))) $$ H7a
  ihave H7b := (Entails.of_eq (pointsTo_congr (half1_ok (F := F) m d _ (fun _ => rfl) _))) $$ H7b
  ihave H7 := (s7_split (F := F) d L (tabs m d)).2 $$ [H7a H7b]
  · isplitl [H7a] <;> iassumption
  ihave H7 := (Entails.of_eq (pts_s7 (F := F) d L _).symm) $$ H7
  -- the four trips
  sl_for (tripInv (F := F) d L (tabs m d) (Qv (F := F) (View.write (Elt F) (sIdx).view f6 (blk m d L) Finset.univ) (tabs m d))) $$ [H7 H8]
  case region =>
    intro k acc
    exact trip (F := F) d L (View.write (Elt F) (sIdx).view f6 (blk m d L) Finset.univ) (tabs m d) _
      (fun k f h => Qv_step (F := F) _ _ k f h) k acc
  · unfold tripInv
    isplitl [H7]; · iexact H7
    iexists f8
    isplitl [H8]; · iexact H8
    ipureintro; exact Qv_zero (F := F) _ _ f8
  iintro %_ HI
  unfold tripInv
  icases HI with ⟨H7, %f, H8, %hq⟩
  have hf : f = outTarget (F := F) (blk m d L) (tabs m d) := by
    rw [trips_four] at hq
    have := Qv_four (F := F) _ _ f hq
    rwa [c6_eq] at this
  subst hf
  sl_exec
  sl_step
  unfold tdOf
  isplitl [Hi Hg Hb Ho]
  · isplitl [Hi]; · iapply (Entails.of_eq (pts_idx (F := F) d L _)); iexact Hi
    isplitl [Hg]; · iapply (Entails.of_eq (pts_gam (F := F) d L _ _)); iexact Hg
    isplitl [Hb]; · iapply (Entails.of_eq (pts_bet (F := F) d L _ _)); iexact Hb
    iapply (Entails.of_eq (pts_out (F := F) d L _))
    iapply (Entails.of_eq (pointsTo_congr (row_ok (F := F) m d L _ (fun _ => rfl) _)))
    iexact Ho
  isplitl [H6 H7 H8 Hbufs]
  · isplitl [H6]; · iexists _; iapply (Entails.of_eq (pts_s6 (F := F) d L _)); iexact H6
    isplitl [H7]; · iexists _; iapply (Entails.of_eq (pts_s7 (F := F) d L _)); iexact H7
    isplitl [H8]; · iexists _; iapply (Entails.of_eq (pts_s8 (F := F) d L _)); iexact H8
    iexact Hbufs
  isplitl [Hs3 Hs4 Hs5 Hs0 Hsems]
  · isplitl [Hs3]; · iexact Hs3
    isplitl [Hs4]; · iexact Hs4
    isplitl [Hs5]; · iexact Hs5
    isplitl [Hs0]; · iexact Hs0
    iexact Hsems
  iexists (insert (SemLoc.dma cc0_scoped0.sem, (default : HIx 1)) (insert (SemLoc.dma cc0_scratch5.sem, (default : HIx 1))
    (insert (SemLoc.dma cc0_scratch4.sem, (default : HIx 1)) (insert (SemLoc.dma cc0_scratch3.sem, (default : HIx 1)) W)))); isplitr
  · ipureintro; intro p hp
    simp only [Finset.mem_insert] at hp
    rcases hp with rfl | rfl | rfl | rfl | hp
    · exact .inr rfl
    · exact .inr rfl
    · exact .inr rfl
    · exact .inr rfl
    · exact .inl hp
  · iexact HO

end Task

end Cert.Proof.KBTile

end
-- ==== Proof.KBLaunch.lean ====
/-
  The whole program's run, from the subcore's task and the TensorCore's part. The one SparseCore call takes the
  sample indices cut into thirty-two blocks, a read share of each table per subcore, and the result array cut into
  its thirty-two rows, deals subcore `(c, s)` the block, shares and row `2 s + c`, and brings them back with every
  row holding the specified entries, so the result array whole holds the specified block array. The TensorCore then
  transposes the features, multiplies and adds block by block, and transposes back (a fact this module takes as a
  hypothesis about those four lines of the program, so that it stands by itself). Every weakly fair execution of
  all thirty-five threads therefore ends, faulting nowhere, with the four arguments unchanged and the result at the
  two transpositions of the multiply-and-add of the specified block array.
-/
import proofs.«202883_g575525617868_bridgefix_179_20_alg».proof.Proof.KBTile

noncomputable section

namespace Cert.Proof.KBLaunch

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Affine Cert.Proof.KBSetup

variable {F : FTy → Type} [FloatOps F]

local notation "𝕄" => MT nD τ sig (HIx 1) (Elt F) ℕ UU ℕ

local notation "gamV" => (Memref.whole Cert.Kernel.main_arg2_scv : Memref Cert.Kernel.sig Kind.scVector Space.hbm Cert.Kernel.S4x64 EltTy.f32)
local notation "betV" => (Memref.whole Cert.Kernel.main_arg3_scv : Memref Cert.Kernel.sig Kind.scVector Space.hbm Cert.Kernel.S4x64 EltTy.f32)
local notation "idxV" => (Memref.whole Cert.Kernel.main_arg1_scv : Memref Cert.Kernel.sig Kind.scVector Space.hbm Cert.Kernel.S4096 EltTy.i32)
local notation "gbtV" => (Memref.whole Cert.Kernel.main_v0_scv : Memref Cert.Kernel.sig Kind.scVector Space.hbm Cert.Kernel.S32x128x128 EltTy.f32)
local notation "sIdx" => (Memref.whole Cert.Kernel.cc0_scratch0 : Memref Cert.Kernel.sig Kind.scVector Space.vmem Cert.Kernel.S128 EltTy.i32)
local notation "sGb" => (Memref.whole Cert.Kernel.cc0_scratch1 : Memref Cert.Kernel.sig Kind.scVector Space.vmem Cert.Kernel.S2x4x64 EltTy.f32)
local notation "sOut" => (Memref.whole Cert.Kernel.cc0_scratch2 : Memref Cert.Kernel.sig Kind.scVector Space.vmem Cert.Kernel.S128x128 EltTy.f32)

open Cert.Proof.KBViews Cert.Proof.KBTile
open Idealize.ShloMosaic.StableHlo (held)

variable (m : (ℓ : Loc nD τ sig) → Buf (Elt F) ℓ) (ρ : Dev nD → PrngReg)

/-! ## The subcores' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          gamV (Memref.isWhole_whole _) betV (Memref.isWhole_whole _) idxV (Memref.isWhole_whole _) gbtV (Memref.isWhole_whole _)
          sIdx (Memref.isWhole_whole _) sGb (Memref.isWhole_whole _) sOut (Memref.isWhole_whole _) cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goOf m d (widOf (Fin.cast nCore_zero c) i)) ⊢ |={Set.univ}=> iprop(
      (bigSep Finset.univ fun i : Fin ((K (F := F)).nSub 0) => goOf m d (widOf (Fin.cast nCore_zero c) (Fin.cast nSub_zero i)))
      ∗ ((bigSep Finset.univ fun i : Fin ((K (F := F)).nSub 0) => tdOf m d (widOf (Fin.cast nCore_zero c) (Fin.cast nSub_zero i)))
          -∗ bigSep Finset.univ fun i : Fin 16 => tdOf m d (widOf (Fin.cast nCore_zero c) i)))
  rw [bigSep_tasks (F := F) (fun i => goOf m d (widOf (Fin.cast nCore_zero c) i)), bigSep_tasks (F := F) (fun i => tdOf m d (widOf (Fin.cast nCore_zero c) i))]
  iintro H; imodintro
  isplitl [H]; · iexact H
  iintro H; iexact H

/-! ## The arrays cut for the call, and put back -/

section Cut

variable (d : Dev nD)

omit [FloatOps F] in
theorem iSets_disjoint : ∀ i ∈ (Finset.univ : Finset (Fin 32)), ∀ j ∈ (Finset.univ : Finset (Fin 32)), i ≠ j → Disjoint (iSet i) (iSet j) :=
  fun _ _ _ _ h => Rect.part_disjoint hdivI h
omit [FloatOps F] in
theorem iSets_cover : (Finset.univ : Finset (Fin 32)).biUnion iSet = Finset.univ := Rect.biUnion_part hdivI
omit [FloatOps F] in
theorem gSets_disjoint : ∀ i ∈ (Finset.univ : Finset (Fin 32)), ∀ j ∈ (Finset.univ : Finset (Fin 32)), i ≠ j → Disjoint (gSet i) (gSet j) :=
  fun _ _ _ _ h => Rect.part_disjoint hdivG h
omit [FloatOps F] in
theorem gSets_cover : (Finset.univ : Finset (Fin 32)).biUnion gSet = Finset.univ := Rect.biUnion_part hdivG

omit [FloatOps F] in
theorem idx_parts (f : Buf (Elt F) (idxLoc d)) :
    (idxLoc d ↦{fullShare} f : sProp 𝕄) = bigSep Finset.univ fun w : Fin 32 => idxLoc d ↦[iSet w]{fullShare} f := by
  rw [← pointsTo_biUnion Finset.univ (ℓ := idxLoc d) iSet iSets_disjoint, iSets_cover]; try rfl
omit [FloatOps F] in
theorem gbt_parts (f : Buf (Elt F) (gbtLoc d)) :
    (gbtLoc d ↦{fullShare} f : sProp 𝕄) = bigSep Finset.univ fun w : Fin 32 => gbtLoc d ↦[gSet w]{fullShare} f := by
  rw [← pointsTo_biUnion Finset.univ (ℓ := gbtLoc d) gSet gSets_disjoint, gSets_cover]; try rfl

omit [FloatOps F] in
/-- Thirty-two blocks are two SparseCores' sixteen subcores' blocks. -/
theorem bigSep_wid (Φ : Fin 32 → sProp 𝕄) :
    bigSep Finset.univ Φ = bigSep Finset.univ fun c : Fin 2 => bigSep Finset.univ fun i : Fin 16 => Φ (widOf c i) := by
  have hinj : Set.InjOn (fun p : Fin 2 × Fin 16 => widOf p.1 p.2) ((Finset.univ : Finset (Fin 2 × Fin 16)) : Set _) := by
    intro a _ b _ e
    have h : (widOf a.1 a.2).val = (widOf b.1 b.2).val := congrArg Fin.val e
    have ha := a.1.isLt; have hb := b.1.isLt
    simp only [widOf] at h
    exact Prod.ext (Fin.ext (by omega)) (Fin.ext (by omega))
  have himg : (Finset.univ : Finset (Fin 32)) = (Finset.univ : Finset (Fin 2 × Fin 16)).image (fun p => widOf p.1 p.2) := by decide
  rw [himg, SparseCore.bigSep_image_of_injOn hinj, ← Finset.univ_product_univ, SparseCore.bigSep_product]

/-- The call's operands for both SparseCores are every block's. -/
theorem st_all : (bigSep Finset.univ fun c : Fin ((K (F := F)).nCore 0) => (P m).st 0 d c) = bigSep Finset.univ fun w : Fin 32 => goOf m d w := by
  rw [bigSep_wid (F := F) (fun w => goOf m d w)]
  rfl
theorem dn_all : (bigSep Finset.univ fun c : Fin ((K (F := F)).nCore 0) => (P m).dn 0 d c) = bigSep Finset.univ fun w : Fin 32 => tdOf m d w := by
  rw [bigSep_wid (F := F) (fun w => tdOf m d w)]
  rfl

/-- Every block's operands are the four arrays' parts and shares. -/
theorem go_all : (bigSep Finset.univ fun w : Fin 32 => goOf m d w)
    = iprop((bigSep Finset.univ fun w : Fin 32 => idxPts m d w) ∗ (bigSep Finset.univ fun w : Fin 32 => gamTok m d w)
        ∗ (bigSep Finset.univ fun w : Fin 32 => betTok m d w) ∗ bigSep Finset.univ fun w : Fin 32 => gbtPts d w (m (gbtLoc d))) := by
  unfold goOf; rw [bigSep_sep', bigSep_sep', bigSep_sep']
theorem td_all : (bigSep Finset.univ fun w : Fin 32 => tdOf m d w)
    = iprop((bigSep Finset.univ fun w : Fin 32 => idxPts m d w) ∗ (bigSep Finset.univ fun w : Fin 32 => gamTok m d w)
        ∗ (bigSep Finset.univ fun w : Fin 32 => betTok m d w) ∗ bigSep Finset.univ fun w : Fin 32 => gbtPts d w (gbtM m d)) := by
  unfold tdOf; rw [bigSep_sep', bigSep_sep', bigSep_sep']

omit [FloatOps F] in
theorem unscopedBufs_eq (Wv : (b : Ref sig .tc) → Buf (Elt F) ((d.tc : Thread nD τ).loc b)) :
    (unscopedBufs d Wv : sProp 𝕄)
      = iprop((featLoc d ↦{fullShare} Wv main_arg0) ∗ (idxLoc d ↦{fullShare} Wv main_arg1) ∗ (gamLoc d ↦{fullShare} Wv main_arg2) ∗ (betLoc d ↦{fullShare} Wv main_arg3)
          ∗ (gbtLoc d ↦{fullShare} Wv main_v0) ∗ (ftLoc d ↦{fullShare} Wv main_v1) ∗ (otLoc d ↦{fullShare} Wv main_v2) ∗ (outLoc d ↦{fullShare} Wv main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Cut

/-! ## The launch element -/

section Launch

def u₀ (uP : UP) : UU := (initOf (K (F := F)).hsCells (K (F := F)).hsToks, (uP, 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
theorem bigSep_emp' {I : Type} (s : Finset I) : (bigSep s fun _ => iprop(emp)) = (iprop(emp) : sProp 𝕄) := bigSep_emp_const s

theorem hu₀ (uP : UP) (Gd : Dev nD → sProp 𝕄) (hfund : (BI.own (EP (F := F) uP) : sProp 𝕄) ⊢ |={Set.univ}=> bigSep Finset.univ fun d : Dev nD => Gd d) :
    (ownU (u₀ (F := F) uP) : sProp 𝕄)
      ⊢ |={Set.univ}=> iprop(BI.own (EH (initOf (K (F := F)).hsCells (K (F := F)).hsToks)) ∗ (bigSep Finset.univ fun d : Dev nD => Gd d)
          ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The result: the multiply-and-add of a block array `g` on the transposed features, transposed back. -/
def kerResP (d : Dev nD) (g : Buf (Elt F) (gbtLoc d)) : Buf (Elt F) (outLoc d) :=
  transpose S4096x200x64 [2, 0, 1]
    (filmOf (F := F) g (transpose S200x64x4096 [1, 2, 0] (m (featLoc d)) transposes_S4096x200x64_S200x64x4096_1_2_0))
    transposes_S200x64x4096_S4096x200x64_2_0_1

/-- What @main leaves the claim: the four arguments at their launch contents and the result. -/
abbrev FIN (d : Dev nD) : sProp 𝕄 :=
  iprop((featLoc d ↦{fullShare} m (featLoc d)) ∗ (idxLoc d ↦{fullShare} m (idxLoc d)) ∗ (gamLoc d ↦{fullShare} m (gamLoc d)) ∗ (betLoc d ↦{fullShare} m (betLoc d))
    ∗ (outLoc d ↦{fullShare} kerResP m d (gbtM m d)))

/-- What is asked of the program's lines after the call, `tl`: from the arrays whole, the result array at `g`, they leave
    the four arguments as they were and the result at the multiply-and-add of `g`, transposed back. -/
def TailSpec (Gd : Dev nD → sProp 𝕄) (tl : Dev nD → Prog (TpuEff nD τ sig (Elt F) (SparseCore.Sig (ΛP (F := F)) 1) .tc) PUnit) : Prop :=
  ∀ (κ : GSem nD τ sig → ℕ) (d : Dev nD) (g : Buf (Elt F) (gbtLoc d)),
    iprop((K (F := F)).ctx EH (P m) κ ∗ (K (F := F)).tcSt EH d 1 ∗ boundary (SparseCore.T d) ∗ (K (F := F)).tcSems0 d ∗ prngReg d (ρ d) ∗ Gd d
        ∗ (featLoc d ↦{fullShare} m (featLoc d)) ∗ (idxLoc d ↦{fullShare} m (idxLoc d)) ∗ (gamLoc d ↦{fullShare} m (gamLoc d)) ∗ (betLoc d ↦{fullShare} m (betLoc d))
        ∗ (gbtLoc d ↦{fullShare} g) ∗ (ftLoc d ↦{fullShare} m (ftLoc d)) ∗ (otLoc d ↦{fullShare} m (otLoc d)) ∗ (outLoc d ↦{fullShare} m (outLoc d)))
      ⊢ wp frame (wpE ((K (F := F)).defs (D (F := F))) 𝒱 (SparseCore.T d) none) Set.univ (tl d)
          fun _ => iprop((K (F := F)).tcSt EH d 1 ∗ (featLoc d ↦{fullShare} m (featLoc d)) ∗ (idxLoc d ↦{fullShare} m (idxLoc d)) ∗ (gamLoc d ↦{fullShare} m (gamLoc d))
            ∗ (betLoc d ↦{fullShare} m (betLoc d)) ∗ (outLoc d ↦{fullShare} kerResP m d g))

theorem hmain (Gd : Dev nD → sProp 𝕄) (tl : Dev nD → Prog (TpuEff nD τ sig (Elt F) (SparseCore.Sig (ΛP (F := F)) 1) .tc) PUnit)
    (hmeq : ∀ d : Dev nD, main (F := F) d = (sc (F := F)).run d 0 >>= fun _ => tl d)
    (htail : TailSpec (F := F) m ρ Gd tl) (κ : GSem nD τ sig → ℕ) (d : Dev nD) :
    iprop((K (F := F)).ctx EH (P m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq, hmeq]
  simp only [wp_bind]
  iintro ⟨#Hctx, Hst, ⟨Hbd, ⟨Hfeat, Hidx, Hgam, Hbet, Hgbt, Hft, Hot, Hout⟩, Hsm, Hpr⟩, HG⟩
  -- the arrays cut for the thirty-two subcores
  ihave Hidx := (Entails.of_eq (idx_parts (F := F) d _)) $$ Hidx
  ihave Hgbt := (Entails.of_eq (gbt_parts (F := F) d _)) $$ Hgbt
  ihave Hgam := (Transfers.pointsTo_toks_split fullShare 32) $$ Hgam
  icases Hgam with ⟨HgamR, Hgam⟩
  ihave Hbet := (Transfers.pointsTo_toks_split fullShare 32) $$ Hbet
  icases Hbet with ⟨HbetR, Hbet⟩
  iapply ((K (F := F)).wp_run (D (F := F)) 𝒱 (EH := EH) (P := P m) κ d 0) $$ [Hst Hidx Hgam Hbet Hgbt HgamR HbetR Hbd Hfeat Hft Hot Hout Hsm Hpr HG]
  isplitr; · iexact Hctx
  isplitl [Hst]; · iexact Hst
  isplitl [Hidx Hgam Hbet Hgbt]
  · rw [st_all, go_all]
    isplitl [Hidx]; · iexact Hidx
    isplitl [Hgam]; · iexact Hgam
    isplitl [Hbet]; · iexact Hbet
    iexact Hgbt
  iintro ⟨Hst, Hdn⟩
  -- and put back, the result array's rows all holding the specified entries
  ihave Hdn := (Entails.of_eq ((dn_all (F := F) m d).trans (td_all (F := F) m d))) $$ Hdn
  icases Hdn with ⟨Hidx, Hgam, Hbet, Hgbt⟩
  ihave Hidx := (Entails.of_eq (idx_parts (F := F) d _).symm) $$ Hidx
  ihave Hgbt := (Entails.of_eq (gbt_parts (F := F) d _).symm) $$ Hgbt
  ihave Hgam := (Transfers.pointsTo_toks_join fullShare 32) $$ [HgamR Hgam]
  · isplitl [HgamR] <;> iassumption
  ihave Hbet := (Transfers.pointsTo_toks_join fullShare 32) $$ [HbetR Hbet]
  · isplitl [HbetR] <;> iassumption
  iapply (htail κ d (gbtM m d)) $$ [Hst Hidx Hgam Hbet Hgbt Hbd Hfeat Hft Hot Hout Hsm Hpr HG]
  isplitr; · iexact Hctx
  isplitl [Hst]; · iexact Hst
  isplitl [Hbd]; · iexact Hbd
  isplitl [Hsm]; · iexact Hsm
  isplitl [Hpr]; · iexact Hpr
  isplitl [HG]; · iexact HG
  isplitl [Hfeat]; · iexact Hfeat
  isplitl [Hidx]; · iexact Hidx
  isplitl [Hgam]; · iexact Hgam
  isplitl [Hbet]; · iexact Hbet
  isplitl [Hgbt]; · iexact Hgbt
  isplitl [Hft]; · iexact Hft
  isplitl [Hot]; · iexact Hot
  iexact Hout

/-! ## The final memory -/

def fq (d : Dev nD) (s' : Phys nD τ sig (Elt F)) : Prop :=
  s'.mem.mem (outLoc d) = kerResP m d (gbtM m d) ∧ s'.mem.mem (featLoc d) = m (featLoc d) ∧ s'.mem.mem (idxLoc d) = m (idxLoc d)
    ∧ s'.mem.mem (gamLoc d) = m (gamLoc d) ∧ s'.mem.mem (betLoc d) = m (betLoc d)

theorem hfin (d : Dev nD) (s' : Phys nD τ sig (Elt F)) : iprop(FIN m d ∗ SI s') ⊢ (⌜fq m d s'⌝ : sProp 𝕄) := by
  iintro ⟨⟨Hf, Hi, Hg, Hb, Ho⟩, HSI⟩
  ihave H := (persistent_entails_right (SI_pointsTo_agree (st := s') (ℓ := featLoc d) (I := Finset.univ) (q := fullShare) (f := m (featLoc d)))) $$ [HSI Hf]
  · isplitl [HSI] <;> iassumption
  icases H with ⟨%h1, HSI, -⟩
  ihave H := (persistent_entails_right (SI_pointsTo_agree (st := s') (ℓ := idxLoc d) (I := Finset.univ) (q := fullShare) (f := m (idxLoc d)))) $$ [HSI Hi]
  · isplitl [HSI] <;> iassumption
  icases H with ⟨%h2, HSI, -⟩
  ihave H := (persistent_entails_right (SI_pointsTo_agree (st := s') (ℓ := gamLoc d) (I := Finset.univ) (q := fullShare) (f := m (gamLoc d)))) $$ [HSI Hg]
  · isplitl [HSI] <;> iassumption
  icases H with ⟨%h3, HSI, -⟩
  ihave H := (persistent_entails_right (SI_pointsTo_agree (st := s') (ℓ := betLoc d) (I := Finset.univ) (q := fullShare) (f := m (betLoc d)))) $$ [HSI Hb]
  · isplitl [HSI] <;> iassumption
  icases H with ⟨%h4, HSI, -⟩
  ihave H := (SI_pointsTo_agree (st := s') (ℓ := outLoc d) (I := Finset.univ) (q := fullShare) (f := kerResP m d (gbtM m d))) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

def QC : PUnit × MemSt nD τ sig (Elt F) → Prop := fun r => ∀ c : Dev nD,
  r.2.mem (outLoc c) = kerResP m c (gbtM m c) ∧ r.2.mem (featLoc c) = m (featLoc c) ∧ r.2.mem (idxLoc c) = m (idxLoc c)
    ∧ r.2.mem (gamLoc c) = m (gamLoc c) ∧ r.2.mem (betLoc c) = m (betLoc c)

theorem run_main [∀ e, Nonempty (Elt F e)] (uP : UP) (Gd : Dev nD → sProp 𝕄)
    (hfund : (BI.own (EP (F := F) uP) : sProp 𝕄) ⊢ |={Set.univ}=> bigSep Finset.univ fun d : Dev nD => Gd d)
    (tl : Dev nD → Prog (TpuEff nD τ sig (Elt F) (SparseCore.Sig (ΛP (F := F)) 1) .tc) PUnit)
    (hmeq : ∀ d : Dev nD, main (F := F) d = (sc (F := F)).run d 0 >>= fun _ => tl d)
    (htail : TailSpec (F := F) m ρ Gd tl) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main Gd (FIN m) (u₀ (F := F) uP) (sep_elim_left.trans (hu₀ m uP Gd hfund)) (hmain m ρ Gd tl hmeq htail) (fq m) (hfin m) (QC m) (fun _ h => h)

end Launch

end Cert.Proof.KBLaunch

end
-- ==== Proof.KBTensor.lean ====
/-
  The TensorCore's part of the program after the subcores' call: the features are transposed so that samples run
  along the last axis, a grid of thirty-two steps multiplies each block of 128 samples by the first 64 rows of
  its 128 × 128 array of chosen table entries and adds the last 64 rows, and the result is transposed back.
  Here: that tail of the program as a term; what the launch must fund for the grid's staging cells; the tail's
  run from the arrays' contents after the call to the result array at the modulation of the transposed
  features, entry by entry.
-/
import proofs.«202883_g575525617868_bridgefix_179_20_alg».proof.Proof.KBSetup
import proofs.«202883_g575525617868_bridgefix_179_20_alg».proof.Proof.Gen.Kernel.Launch
import proofs.«202883_g575525617868_bridgefix_179_20_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

set_option maxRecDepth 16384

noncomputable section

namespace Cert.Proof.KBTensor

open Cert.Kernel Cert.Kernel.Gen Cert.Proof.KBSetup

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held wp_hlo_within)
open Cert.Proof.Affine
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tail of the program -/

/-- What the TensorCore runs after the subcores' call: transpose, the grid, transpose back. -/
def tail (d : Dev nD) : Prog (TpuEff nD τ sig (Elt F) (SparseCore.Sig (ΛP (F := F)) 1) .tc) PUnit := do
  hlo rfl (StableHlo.unary main_arg0 main_v1 ((transpose S200x64x4096 [1, 2, 0] · transposes_S4096x200x64_S200x64x4096_1_2_0) : (⟨S4096x200x64, .f32⟩ : BufTy).Contents (Elt F) → (⟨S200x64x4096, .f32⟩ : BufTy).Contents (Elt F))) (fun _ => .ret ⟨⟩)
  Prog.lift (.customCall (SparseCore.inner (Pipeline.entry 0)) ())
  hlo rfl (StableHlo.unary main_v2 main_v3 ((transpose S4096x200x64 [2, 0, 1] · transposes_S200x64x4096_S4096x200x64_2_0_1) : (⟨S200x64x4096, .f32⟩ : BufTy).Contents (Elt F) → (⟨S4096x200x64, .f32⟩ : BufTy).Contents (Elt F))) (fun _ => .ret ⟨⟩)
  pure ⟨⟩

theorem main_eq (d : Dev nD) : main (F := F) d = (sc (F := F)).run d 0 >>= fun _ => tail d := rfl

/-! ## What the launch funds for the grid's staging cells -/

/-- No table is prefetched. -/
abbrev adm : (p : Fin 1) → (pcfgs (F := F) p).Adm := fun p => (cfgs p).toPCfg_adm

/-- The launch element of the grid's rounds: its staging cells and the duties of the transfers its steps issue. -/
def uP₀ : UP := initOf (Pipeline.cells (nD := nD) (τ := τ) cfgs cellOf_inj) (Pipeline.launchToks (nD := nD) (τ := τ) cfgs cellOf_inj)

/-- Per device: the staging cells' launch state and the duties' tokens. -/
def Gd (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
/-- A conjunction over the one grid of the program is its one conjunct. -/
theorem bigSep_one (Φ : Fin 1 → sProp 𝕄) : bigSep Finset.univ Φ = Φ 0 := by
  rw [show (Finset.univ : Finset (Fin 1)) = {0} from rfl, bigSep_singleton]

theorem fundP : (BI.own (EP (F := F) uP₀) : sProp 𝕄) ⊢ |={Set.univ}=> bigSep Finset.univ fun d : Dev nD => Gd (F := F) d := by
  have h := Pipeline.fund_ghost (nD := nD) (τ := τ) (Ix := HIx 1) (Val := Elt F) (Name := ℕ) (U := UU) (Lvl := ℕ) cfgs (EP (F := F)) cellOf_inj
  have hg : ∀ c : Dev nD, (bigSep Finset.univ fun p : Fin 1 => Pipeline.cellsGhost cfgs (EP (F := F)) p c : sProp 𝕄) = Pipeline.cellsGhost cfgs (EP (F := F)) 0 c := fun c => bigSep_one _
  have ht : ∀ c : Dev nD, (bigSep Finset.univ fun p : Fin 1 => Pipeline.toksInit cfgs (EP (F := F)) p c : sProp 𝕄) = Pipeline.toksInit cfgs (EP (F := F)) 0 c := fun c => bigSep_one _
  simp only [hg, ht] at h
  unfold uP₀ Gd
  show _ ⊢ iprop(|={Set.univ}=> bigSep Finset.univ fun d : Dev nD => iprop(Pipeline.cellsGhost cfgs (EP (F := F)) 0 d ∗ Pipeline.toksInit cfgs (EP (F := F)) 0 d))
  iintro Hu
  ihave H := h $$ Hu
  imod H with ⟨Hg, Ht⟩
  imodintro
  rw [bigSep_sep']
  isplitl [Hg]
  · iexact Hg
  · iexact Ht

/-! ## One step of the grid -/

abbrev rLo : Rect S1x128x128 := Rect.unit (s := S1x128x128) ![0, 0, 0] S1x64x128.size inb_S1x128x128_S1x64x128_0_0_0
abbrev rHi : Rect S1x128x128 := Rect.unit (s := S1x128x128) ![0, 64, 0] S1x64x128.size inb_S1x128x128_S1x64x128_0_64_0
abbrev rAll : Rect S200x64x128 := Rect.unit (s := S200x64x128) ![0, 0, 0] S200x64x128.size inb_S200x64x128_S200x64x128_0_0_0

theorem hz3 : (![0, 0, 0] : Fin 3 → Nat) = fun _ => 0 := funext fun a => by fin_cases a <;> rfl

/-- What a step leaves in the result's staging block, from the block of chosen entries and the block of features: its
    one store, of the product with the first 64 rows plus the last 64 rows. -/
def outBlk (x0 : Vec F S1x128x128 .f32) (x1 : Vec F S200x64x128 .f32) : Vec F S200x64x128 .f32 :=
  View.canon [⟨rAll, k1_pay1 (View.ld x0 rLo) (View.ld x0 rHi) (View.ld x1 rAll)⟩]

/-- That store covers the block. -/
theorem coverOut (p0 : Vec F S200x64x128 .f32) (y : S200x64x128.Idx) :
    ∃ pc ∈ ([⟨rAll, p0⟩] : List (View.Piece (Elt F) S200x64x128 .f32)), y ∈ pc.1.set :=
  ⟨_, List.mem_singleton_self _, View.mem_set_unit_zero hz3 inb_S200x64x128_S200x64x128_0_0_0 y⟩

set_option maxHeartbeats 4000000 in
/-- The step's body on whole staging blocks: the two inputs kept, the result's block at `outBlk` of them. -/
theorem sound_kernel (c : Dev nD) (E : Set ℕ) (i : grid1.Coords) (arg2 : Memref sig .tc .vmem S1x128x128 .f32) (harg2 : arg2.IsWhole) (arg3 : Memref sig .tc .vmem S200x64x128 .f32) (harg3 : arg3.IsWhole) (arg4 : Memref sig .tc .vmem S200x64x128 .f32) (harg4 : arg4.IsWhole)
    (x0 : Vec F S1x128x128 .f32) (x1 : Vec F S200x64x128 .f32) (Kc : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ Kc ⟨⟩))
      ⊢ wp frame (wpE (defs₀ (F := F)) Variants.none c none) E (cc1__film_body i arg2 harg2 arg3 harg3 arg4 harg4) Kc := by
  rw [cc1__film_body_eq_skeleton]; unfold cc1__film_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The grid's proof data -/

variable (g : S32x128x128.Idx → Elt F .f32) (x : S200x64x4096.Idx → Elt F .f32) (o : S200x64x4096.Idx → Elt F .f32)

/-- The three arrays the grid moves, as it finds them: the chosen entries, the transposed features, the result's array. -/
def arrV (c : Dev nD) : (w : Fin cfg1.W) → Buf (Elt F) ((cfg1.win w).arr.view.loc (c.tc : Thread nD τ))
  | ⟨0, _⟩ => g
  | ⟨1, _⟩ => x
  | ⟨2, _⟩ => o

/-- A window's block at a step, read off its array. -/
def iblk (c : Dev nD) (w : Fin cfg1.W) (t : Fin cfg1.N) : ((cfg1.win w).xblock (cfg1.grid.coords t)).Idx → Elt F (cfg1.win w).elt :=
  ((cfg1.win w).blk t).view.read (Elt F) (arrV g x o c w)

/-- The pairs a wait of this TensorCore may have recorded so far: those at or below the first call's levels. -/
def recd (c : Dev nD) : Set (SemLoc sig × HIx 1) := {p | (K (F := F)).lev ((T c : Thread nD τ), p.1) p.2 ≤ 8 * 1}

/-- The proof data on a device: after a step each input's staging block as fetched, the result's at `outBlk` of them;
    no invariant beyond the scoped rest; nothing owed. -/
def dats (_ : Fin 1) (c : Dev nD) : Dat τ (Elt F) (HIx 1) ℕ UU ℕ cfg1 c where
  A w := arrV g x o c w
  after w t := match w with
    | ⟨0, _⟩ => iblk g x o c 0 t
    | ⟨1, _⟩ => iblk g x o c 1 t
    | ⟨2, _⟩ => outBlk (iblk g x o c 0 t) (iblk g x o c 1 t)
  Φ _ := Pipeline.scopedRest (Ix := HIx 1) (Name := ℕ) (U := UU) (Lvl := ℕ) (Val := Elt F) spec1 c
  q _ := fullShare
  owed _ := 0
  recorded _ := recd (F := F) c

theorem A_eq (c : Dev nD) (w : Fin cfg1.W) : (dats g x o 0 c).A w = arrV g x o c w := by dsimp only [dats]
theorem after1_0 (c : Dev nD) (t : Fin cfg1.N) : (dats g x o 0 c).after 0 t = iblk g x o c 0 t := by dsimp only [dats]
theorem after1_1 (c : Dev nD) (t : Fin cfg1.N) : (dats g x o 0 c).after 1 t = iblk g x o c 1 t := by dsimp only [dats]
theorem after1_2 (c : Dev nD) (t : Fin cfg1.N) : (dats g x o 0 c).after 2 t = outBlk (iblk g x o c 0 t) (iblk g x o c 1 t) := by dsimp only [dats]

/-- Each input's current staging block holds the array's block at every step. -/
theorem before1_0 (c : Dev nD) (t : Fin cfg1.N) (d) : (dats g x o 0 c).before 0 t d = iblk g x o c 0 t :=
  ((dats g x o 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats g x o 0 c).before 1 t d = iblk g x o c 1 t :=
  ((dats g x o 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)

/-- What the body is called with at a step, -/
def bodyPre (c : Dev nD) (t : Fin cfg1.N) : sProp 𝕄 :=
  iprop((dats g x o 0 c).Φ t.castSucc ∗ (dats g x o 0 c).owesAt none t.castSucc
    ∗ (∃ d, owns (c : Thread nD τ) (st1_0 t) fullShare ((dats g x o 0 c).before 0 t d))
    ∗ (∃ d, owns (c : Thread nD τ) (st1_1 t) fullShare ((dats g x o 0 c).before 1 t d))
    ∗ (∃ d, owns (c : Thread nD τ) (st1_2 t) fullShare ((dats g x o 0 c).before 2 t d)))

/-- and what it returns. -/
def bodyPost (c : Dev nD) (t : Fin cfg1.N) : sProp 𝕄 :=
  iprop((dats g x o 0 c).Φ t.succ ∗ (dats g x o 0 c).owesAt none t.succ
    ∗ owns (c : Thread nD τ) (st1_0 t) fullShare ((dats g x o 0 c).after 0 t)
    ∗ owns (c : Thread nD τ) (st1_1 t) fullShare ((dats g x o 0 c).after 1 t)
    ∗ owns (c : Thread nD τ) (st1_2 t) fullShare ((dats g x o 0 c).after 2 t))

/-- The body at any step: the inputs' staging blocks hold the arrays' blocks, so the step's triple applies; the
    invariant and what the core owes pass through unread. -/
theorem sound_body (c : Dev nD) (t : Fin cfg1.N) :
    bodyPre g x o c t ⊢ wp frame (wpE (defs₀ (F := F)) Variants.none c none) Set.univ (bodyAt1 t) (fun _ => bodyPost g x o c t) := by
  unfold bodyPre bodyPost bodyAt1
  simp only [before1_0, before1_1]
  rw [show (dats g x o 0 c).Φ t.succ = (dats g x o 0 c).Φ t.castSucc from rfl,
    show (dats g x o 0 c).owesAt none t.succ = (dats g x o 0 c).owesAt none t.castSucc from rfl,
    after1_0, after1_1, after1_2]
  iintro ⟨HΦ, Ho, ⟨%d0, H0⟩, ⟨%d1, H1⟩, ⟨%d2, H2⟩⟩
  iapply (sound_kernel c Set.univ (grid1.coords t) _ _ _ _ _ _ (iblk g x o c 0 t) (iblk g x o c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation for the step's body, at every step. -/
theorem body_obligation (c : Dev nD) : BodyObligation (dats (F := F) g x o 0 c) (defs₀ (F := F)) 𝒱₀ none Set.univ := fun t => by
  rw [bigSep_W1, bigSep_W1]
  exact sound_body g x o c t

/-! ## The result array after the grid -/

/-- The step's arithmetic at an entry of the block: the feature times the entry of row `dd` plus that of row `64 + dd`
    (the two loaded halves), both at the entry's lane. -/
theorem pay_apply (v0 v2 : Vec F S1x64x128 .f32) (v4 : Vec F S200x64x128 .f32) (l : Fin 200) (dd : Fin 64) (k : Fin 128) :
    k1_pay1 v0 v2 v4 (ix3 l dd k) = FloatOps.addf (FloatOps.mulf (v4 (ix3 l dd k)) (v0 (ix3 0 dd k))) (v2 (ix3 0 dd k)) := by
  have h5 : shapeCast S200x64x128 v4 shapeCasts_S200x64x128_S200x64x128 = v4 := shapeCast_self _ _
  have h6 : ∀ v : Vec F S1x64x128 .f32, shapeCast S1x64x128 (shapeCast S64x128 v shapeCasts_S1x64x128_S64x128) shapeCasts_S64x128_S1x64x128 = v :=
    fun v => shapeCast_shapeCast _ _ _
  have hb : ∀ v : Vec F S1x64x128 .f32, broadcastTo S200x64x128 v broadcasts_S1x64x128_S200x64x128 (ix3 l dd k) = v (ix3 0 dd k) :=
    fun v => broadcastTo_apply v _ (ix3 l dd k) (ix3 0 dd k) (fun a => by match a with | ⟨0, _⟩ => rfl | ⟨1, _⟩ => rfl | ⟨2, _⟩ => rfl)
  unfold k1_pay1
  show FloatOps.addf (FloatOps.mulf (shapeCast S200x64x128 v4 shapeCasts_S200x64x128_S200x64x128 (ix3 l dd k))
      (broadcastTo S200x64x128 (shapeCast S1x64x128 (shapeCast S64x128 v0 shapeCasts_S1x64x128_S64x128) shapeCasts_S64x128_S1x64x128) broadcasts_S1x64x128_S200x64x128 (ix3 l dd k)))
    (broadcastTo S200x64x128 (shapeCast S1x64x128 (shapeCast S64x128 v2 shapeCasts_S1x64x128_S64x128) shapeCasts_S64x128_S1x64x128) broadcasts_S1x64x128_S200x64x128 (ix3 l dd k)) = _
  rw [h5, h6, h6, hb, hb]

/-- The printed index maps over the grid: step `t` takes row `t` of the chosen entries and column block `t` of the
    features and of the result, all other block indices zero. -/
theorem idx_facts : ∀ t : Fin cfg1.N,
    win1_0.index t (0 : Fin 3) = win1_2.index t (2 : Fin 3) ∧ win1_0.index t (1 : Fin 3) = 0 ∧ win1_0.index t (2 : Fin 3) = 0
    ∧ win1_1.index t (0 : Fin 3) = 0 ∧ win1_1.index t (1 : Fin 3) = 0 ∧ win1_1.index t (2 : Fin 3) = win1_2.index t (2 : Fin 3)
    ∧ win1_2.index t (0 : Fin 3) = 0 ∧ win1_2.index t (1 : Fin 3) = 0 ∧ win1_2.index t (2 : Fin 3) ≤ 31 :=
  (by decide +kernel : ∀ t : Fin grid1.N, _)

/-- Every column block is some step's. -/
theorem idx_onto : ∀ q : Fin 32, ∃ t : Fin cfg1.N, win1_2.index t = ![0, 0, q.val] :=
  (by decide +kernel : ∀ q : Fin 32, ∃ t : Fin grid1.N, win1_2.index t = ![0, 0, q.val])

/-- What step `t` writes back is block `t` of the modulation. -/
theorem flushed_eq (c : Dev nD) (t : Fin cfg1.N) :
    (dats g x o 0 c).flushed 2 t = ((cfg1.win 2).blk t).view.read (Elt F) (filmOf g x) := by
  show (cfg1.win 2).cut (grid1.coords t) ((dats g x o 0 c).after 2 t) = _
  rw [after1_2]
  unfold outBlk
  rw [View.canon_unit_zero hz3]
  simp only [View.ld_unit_zero (S := S200x64x128) hz3]
  obtain ⟨e00, e01, e02, e10, e11, e12, e20, e21, e22⟩ := idx_facts t
  funext j
  obtain ⟨l, dd, k, rfl⟩ : ∃ (l : Fin 200) (dd : Fin 64) (k : Fin 128), j = ix3 l dd k := ⟨j 0, j 1, j 2, eq_ix3 j⟩
  show k1_pay1 (View.ld (iblk g x o c 0 t) rLo) (View.ld (iblk g x o c 0 t) rHi) (iblk g x o c 1 t) (ix3 l dd k)
    = filmOf g x (((cfg1.win 2).blk t).view.emb (ix3 l dd k))
  rw [pay_apply]
  have hl := l.isLt; have hdd := dd.isLt; have hk := k.isLt
  show FloatOps.addf (FloatOps.mulf (x (((cfg1.win 1).blk t).view.emb (ix3 l dd k))) (g (((cfg1.win 0).blk t).view.emb (rLo.idx (ix3 0 dd k)))))
      (g (((cfg1.win 0).blk t).view.emb (rHi.idx (ix3 0 dd k))))
    = filmAt g x ((((cfg1.win 2).blk t).view.emb (ix3 l dd k)) 0) ((((cfg1.win 2).blk t).view.emb (ix3 l dd k)) 1) ((((cfg1.win 2).blk t).view.emb (ix3 l dd k)) 2)
  unfold filmAt
  refine congrArg₂ FloatOps.addf (congrArg₂ FloatOps.mulf (congrArg x ?_) (congrArg g ?_)) (congrArg g ?_)
  · funext a; apply Fin.ext
    match a with
    | ⟨0, _⟩ => show win1_1.index t (0 : Fin 3) * 200 + 1 * l.val = win1_2.index t (0 : Fin 3) * 200 + 1 * l.val; omega
    | ⟨1, _⟩ => show win1_1.index t (1 : Fin 3) * 64 + 1 * dd.val = win1_2.index t (1 : Fin 3) * 64 + 1 * dd.val; omega
    | ⟨2, _⟩ => show win1_1.index t (2 : Fin 3) * 128 + 1 * k.val = win1_2.index t (2 : Fin 3) * 128 + 1 * k.val; omega
  · funext a; apply Fin.ext
    match a with
    | ⟨0, _⟩ => show win1_0.index t (0 : Fin 3) * 1 + 1 * (0 + 1 * 0) = (win1_2.index t (2 : Fin 3) * 128 + 1 * k.val) / 128; omega
    | ⟨1, _⟩ => show win1_0.index t (1 : Fin 3) * 128 + 1 * (0 + 1 * dd.val) = win1_2.index t (1 : Fin 3) * 64 + 1 * dd.val; omega
    | ⟨2, _⟩ => show win1_0.index t (2 : Fin 3) * 128 + 1 * (0 + 1 * k.val) = (win1_2.index t (2 : Fin 3) * 128 + 1 * k.val) % 128; omega
  · funext a; apply Fin.ext
    match a with
    | ⟨0, _⟩ => show win1_0.index t (0 : Fin 3) * 1 + 1 * (0 + 1 * 0) = (win1_2.index t (2 : Fin 3) * 128 + 1 * k.val) / 128; omega
    | ⟨1, _⟩ => show win1_0.index t (1 : Fin 3) * 128 + 1 * (64 + 1 * dd.val) = 64 + (win1_2.index t (1 : Fin 3) * 64 + 1 * dd.val); omega
    | ⟨2, _⟩ => show win1_0.index t (2 : Fin 3) * 128 + 1 * (0 + 1 * k.val) = (win1_2.index t (2 : Fin 3) * 128 + 1 * k.val) % 128; omega

/-- An index of the result's array is in step `t`'s block iff each coordinate is in the block's range on its axis. -/
theorem mem_blk (t : Fin cfg1.N) (i : S200x64x4096.Idx) :
    i ∈ ((cfg1.win 2).blk t).view.set ↔ ∀ a : Fin 3, win1_2.index t a * S200x64x128.size a ≤ (i a).val ∧ (i a).val < win1_2.index t a * S200x64x128.size a + S200x64x128.size a := by
  show i ∈ ((View.whole main_v2).slice (win1_2.rect t)).set ↔ _
  rw [View.set_slice_whole, Rect.mem_set_unit]
  exact Iff.rfl

/-- Every index is in some step's block: the one of its column block. -/
theorem cover (i : S200x64x4096.Idx) : ∃ t : Fin cfg1.N, (cfg1.win 2).flush t = true ∧ i ∈ ((cfg1.win 2).blk t).view.set := by
  have hi0 : (i 0).val < 200 := (i 0).isLt
  have hi1 : (i 1).val < 64 := (i 1).isLt
  have hi2 : (i 2).val < 4096 := (i 2).isLt
  obtain ⟨t, ht⟩ := idx_onto ⟨(i 2).val / 128, by omega⟩
  have q0 : win1_2.index t (0 : Fin 3) = 0 := congrFun ht 0
  have q1 : win1_2.index t (1 : Fin 3) = 0 := congrFun ht 1
  have q2 : win1_2.index t (2 : Fin 3) = (i 2).val / 128 := congrFun ht 2
  refine ⟨t, flush1_2 t, ?_⟩
  rw [mem_blk]
  intro a
  match a with
  | ⟨0, _⟩ => show win1_2.index t (0 : Fin 3) * 200 ≤ (i 0).val ∧ (i 0).val < win1_2.index t (0 : Fin 3) * 200 + 200; omega
  | ⟨1, _⟩ => show win1_2.index t (1 : Fin 3) * 64 ≤ (i 1).val ∧ (i 1).val < win1_2.index t (1 : Fin 3) * 64 + 64; omega
  | ⟨2, _⟩ => show win1_2.index t (2 : Fin 3) * 128 ≤ (i 2).val ∧ (i 2).val < win1_2.index t (2 : Fin 3) * 128 + 128; omega

/-- The result array after the grid is the modulation of its two inputs. -/
theorem final (c : Dev nD) : (dats g x o 0 c).arrAt 2 cfg1.N = filmOf g x :=
  (dats g x o 0 c).arrAt_eq_of_cover 2 (filmOf g x) (fun t _ => flushed_eq g x o c t) cover

/-! ## The grid as a region of the program -/

/-- The pairs the grid's own waits record are among those: their index sits at the lowest level. -/
theorem bound_sub (c : Dev nD) (t : Fin (cfg1.N + 1)) : (dats (F := F) g x o 0 c).bound none t ⊆ recd (F := F) c := by
  refine Set.union_subset (fun p hp => hp) ?_
  rintro p ⟨w, s, rfl⟩
  show (K (F := F)).lev _ none ≤ 8 * 1
  rw [SparseCore.Cfg.lev_none]; omega

theorem hshare (c : Dev nD) : ∀ w, (dats (F := F) g x o 0 c).share w = fullShare := (dats g x o 0 c).share_full fun _ => rfl

/-- The three arrays, held whole, are the grid's arrays as it finds them, -/
theorem arrays_entry (c : Dev nD) :
    iprop((gbtLoc c ↦{fullShare} g) ∗ (ftLoc c ↦{fullShare} x) ∗ (otLoc c ↦{fullShare} o))
      ⊢ ((dats g x o 0 c).arrays ((dats g x o 0 c).arrAt · 0) : sProp 𝕄) := by
  rw [Pipeline.arrays_eq cfgs (dats g x o) 0 c launch1.arr_whole (hshare g x o c), bigSep_W1]
  exact .rfl

/-- and as it leaves them: the inputs as found, the result's array at the modulation of them. -/
theorem arrays_exit (c : Dev nD) :
    ((dats g x o 0 c).arrays ((dats g x o 0 c).arrAt · cfg1.N) : sProp 𝕄)
      ⊢ iprop((gbtLoc c ↦{fullShare} g) ∗ (ftLoc c ↦{fullShare} x) ∗ (otLoc c ↦{fullShare} filmOf g x)) := by
  rw [Pipeline.arrays_eq cfgs (dats g x o) 0 c launch1.arr_whole (hshare g x o c), bigSep_W1,
    (dats g x o 0 c).arrAt_in 0 rfl, (dats g x o 0 c).arrAt_in 1 rfl, final g x o c]
  exact .rfl

/-- What the region is entered from and left with. -/
def regPre (c : Dev nD) : sProp 𝕄 :=
  iprop((dats g x o 0 c).arrays ((dats g x o 0 c).arrAt · 0) ∗ Pipeline.owesWithin c (0 : CellTallies nD τ sig (HIx 1)) (recd (F := F) c))
def regPost (c : Dev nD) : sProp 𝕄 :=
  iprop((dats g x o 0 c).arrays ((dats g x o 0 c).arrAt · cfg1.N) ∗ Pipeline.owesWithin c (0 : CellTallies nD τ sig (HIx 1)) (recd (F := F) c))

set_option backward.isDefEq.respectTransparency.types false in
/-- The grid as a region of the program: the decided layout, no semaphore of its own, the body obligation, nothing
    owed at any step; the arrays enter and leave, nothing else passes through its invariant. -/
def reg : Pipeline.RegionSeg (pcfgs (F := F)) adm (dats g x o) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation g x o c).loose
  hwaits := Pipeline.hwaits_of_owed_zero _ _ _ _ _ _ 0 fun _ _ => rfl
  pre c := regPre g x o c
  post c := regPost g x o c
  X c := iprop(emp)
  Y c := iprop(emp)
  Z c := iprop(emp)
  hentry c := by
    unfold regPre
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (Set.subset_union_left (s := recd (F := F) c) (t := cfg1.waitPairs none))); iexact HO
    isplitl <;> iempintro
  hin c := by
    show iprop(iprop(emp) ∗ Pipeline.prefHeld (pcfgs (F := F) 0).pre c (fun _ => fullShare) (adm (F := F) 0).1
        ∗ Pipeline.scopedRest (Ix := HIx 1) (Name := ℕ) (U := UU) (Lvl := ℕ) (Val := Elt F) spec1 c)
      ⊢ (Pipeline.scopedRest (Ix := HIx 1) (Name := ℕ) (U := UU) (Lvl := ℕ) (Val := Elt F) spec1 c : sProp 𝕄)
    iintro ⟨-, -, Hr⟩
    iexact Hr
  hout c := by
    rw [Pipeline.ownSems0_none]
    show (Pipeline.scopedRest (Ix := HIx 1) (Name := ℕ) (U := UU) (Lvl := ℕ) (Val := Elt F) spec1 c : sProp 𝕄)
      ⊢ iprop(emp ∗ emp ∗ Pipeline.scopedRest (Ix := HIx 1) (Name := ℕ) (U := UU) (Lvl := ℕ) (Val := Elt F) spec1 c)
    iintro Hr
    isplitr; · iempintro
    isplitr; · iempintro
    iexact Hr
  hexit c := by
    unfold regPost
    iintro ⟨Ha, HO, -, -⟩
    imodintro
    isplitl [Ha]; · iexact Ha
    iapply (Pipeline.owesWithin_mono c 0 (bound_sub g x o c (Fin.last cfg1.N))); iexact HO

/-! ## The tail's run -/

abbrev aFeat : DevRef τ sig := Proc.devRef .tc (main_arg0 : Ref sig .tc)
abbrev aFt : DevRef τ sig := Proc.devRef .tc (main_v1 : Ref sig .tc)
abbrev aOt : DevRef τ sig := Proc.devRef .tc (main_v2 : Ref sig .tc)
abbrev aOut : DevRef τ sig := Proc.devRef .tc (main_v3 : Ref sig .tc)

/-- The two transpositions as the program's operations. -/
abbrev opT1 : HloOp τ sig (Elt F) := StableHlo.unary main_arg0 main_v1 ((transpose S200x64x4096 [1, 2, 0] · transposes_S4096x200x64_S200x64x4096_1_2_0) : (⟨S4096x200x64, .f32⟩ : BufTy).Contents (Elt F) → (⟨S200x64x4096, .f32⟩ : BufTy).Contents (Elt F))
abbrev opT2 : HloOp τ sig (Elt F) := StableHlo.unary main_v2 main_v3 ((transpose S4096x200x64 [2, 0, 1] · transposes_S200x64x4096_S4096x200x64_2_0_1) : (⟨S200x64x4096, .f32⟩ : BufTy).Contents (Elt F) → (⟨S4096x200x64, .f32⟩ : BufTy).Contents (Elt F))

abbrev S1 : Finset (DevRef τ sig) := {aFeat, aFt}
abbrev S2 : Finset (DevRef τ sig) := {aOt, aOut}

theorem hT1 : (opT1 (F := F)).bufs ⊆ S1 := show ({aFeat, aFt} : Finset (DevRef τ sig)) ⊆ S1 by decide
theorem hT2 : (opT2 (F := F)).bufs ⊆ S2 := show ({aOt, aOut} : Finset (DevRef τ sig)) ⊆ S2 by decide

omit [FloatOps F] in
theorem held_S1 (d : Dev nD) (W : Valuation τ sig (Elt F)) :
    (held (T d) S1 W : sProp 𝕄) = iprop((featLoc d ↦{fullShare} W aFeat) ∗ (ftLoc d ↦{fullShare} W aFt)) := by
  unfold held S1
  rw [SparseCore.bigSep_insert' (by decide), bigSep_singleton]
omit [FloatOps F] in
theorem held_S2 (d : Dev nD) (W : Valuation τ sig (Elt F)) :
    (held (T d) S2 W : sProp 𝕄) = iprop((otLoc d ↦{fullShare} W aOt) ∗ (outLoc d ↦{fullShare} W aOut)) := by
  unfold held S2
  rw [SparseCore.bigSep_insert' (by decide), bigSep_singleton]

/-- The launch valuation, and it with the grid's result array at given contents. -/
def V0 (d : Dev nD) : Valuation τ sig (Elt F) := fun b => m (d, b)
def V2 (d : Dev nD) (f : S200x64x4096.Idx → Elt F .f32) : Valuation τ sig (Elt F) := Function.update (V0 m d) aOt f

/-- The features transposed. -/
abbrev xT (d : Dev nD) : S200x64x4096.Idx → Elt F .f32 :=
  transpose S200x64x4096 [1, 2, 0] (m (featLoc d)) transposes_S4096x200x64_S200x64x4096_1_2_0

theorem r1_feat (d : Dev nD) : (opT1 (F := F)).result (V0 m d) aFeat = m (featLoc d) :=
  StableHlo.unary_result_ne _ _ _ _ _ _ (show (main_arg0 : Ref sig .tc) ≠ main_v1 by decide)
theorem r1_ft (d : Dev nD) : (opT1 (F := F)).result (V0 m d) aFt = xT m d :=
  StableHlo.unary_result _ _ _ _ _ _
theorem r2_ot (d : Dev nD) (f : S200x64x4096.Idx → Elt F .f32) : (opT2 (F := F)).result (V2 m d f) aOt = f :=
  (StableHlo.unary_result_ne _ _ _ _ _ _ (show (main_v2 : Ref sig .tc) ≠ main_v3 by decide)).trans (Function.update_self _ _ _)
theorem r2_out (d : Dev nD) (f : S200x64x4096.Idx → Elt F .f32) :
    (opT2 (F := F)).result (V2 m d f) aOut = transpose S4096x200x64 [2, 0, 1] f transposes_S200x64x4096_S4096x200x64_2_0_1 :=
  (StableHlo.unary_result _ _ _ _ _ _).trans (congrArg (transpose S4096x200x64 [2, 0, 1] · transposes_S200x64x4096_S4096x200x64_2_0_1) (Function.update_self _ _ _))
theorem V2_out (d : Dev nD) (f : S200x64x4096.Idx → Elt F .f32) : V2 m d f aOut = m (outLoc d) :=
  Function.update_of_ne (show aOut ≠ aOt by decide) _ _
theorem V2_ot (d : Dev nD) (f : S200x64x4096.Idx → Elt F .f32) : V2 m d f aOt = f := Function.update_self _ _ _

/-- The TensorCore's handshake state after the one call holds what it owes — nothing — with its recorded pairs
    bounded, and is restored from that. -/
theorem tcSt_owes (d : Dev nD) :
    (K (F := F)).tcSt (EH (F := F)) d 1
      ⊢ iprop(Pipeline.owesWithin d (0 : CellTallies nD τ sig (HIx 1)) (recd (F := F) d)
          ∗ (Pipeline.owesWithin d (0 : CellTallies nD τ sig (HIx 1)) (recd (F := F) d) -∗ (K (F := F)).tcSt (EH (F := F)) d 1)) := by
  unfold SparseCore.Cfg.tcSt
  rw [(K (F := F)).Otc_end d (le_refl 1)]
  iintro ⟨⟨%W, %hW, HO⟩, Hrest⟩
  isplitl [HO]
  · iexists W; isplitr; · ipureintro; exact fun p hp => hW p hp
    iexact HO
  iintro ⟨%W', %hW', HO'⟩
  isplitl [HO']
  · iexists W'; isplitr; · ipureintro; exact fun p hp => hW' hp
    iexact HO'
  iexact Hrest

theorem held_T1 (d : Dev nD) :
    (held (T d) S1 ((opT1 (F := F)).result (V0 m d)) : sProp 𝕄) = iprop((featLoc d ↦{fullShare} m (featLoc d)) ∗ (ftLoc d ↦{fullShare} xT m d)) := by
  rw [held_S1, r1_feat, r1_ft]
theorem held_T2 (d : Dev nD) (f : S200x64x4096.Idx → Elt F .f32) :
    (held (T d) S2 ((opT2 (F := F)).result (V2 m d f)) : sProp 𝕄)
      = iprop((otLoc d ↦{fullShare} f) ∗ (outLoc d ↦{fullShare} transpose S4096x200x64 [2, 0, 1] f transposes_S200x64x4096_S4096x200x64_2_0_1)) := by
  rw [held_S2, r2_ot, r2_out]

/-- The grid's call in the program is the region's entry, lifted to the program's labels. -/
theorem lift_entry : (Prog.lift (.customCall (SparseCore.inner (Pipeline.entry 0)) ()) : Prog (TpuEff nD τ sig (Elt F) (SparseCore.Sig (ΛP (F := F)) 1) .tc) PUnit)
    = SparseCore.liftProg (Q := 1) (.op (.customCall (Pipeline.entry 0) ()) fun _ => .ret ⟨⟩) := rfl

theorem reg_pre (d : Dev nD) : (reg g x o).pre d = regPre g x o d := rfl
theorem reg_post (d : Dev nD) : (reg g x o).post d = regPost g x o d := rfl

set_option backward.isDefEq.respectTransparency.types false in
set_option maxHeartbeats 1000000 in
/-- The grid's call on a device: from the region boundary, the three arrays, what the core owes, the level facts and
    the staging cells' launch state, to the boundary and the arrays as the grid leaves them. -/
theorem region_step (d : Dev nD) (Φ : PUnit.{1} → sProp 𝕄) :
    iprop((iprop(boundary (d.tc : Thread nD τ) ∗ (reg g x o).post d) -∗ wp frame (wpE (D (F := F)) 𝒱 (d.tc : Thread nD τ) none) Set.univ (.ret ⟨⟩) Φ)
        ∗ boundary (d.tc : Thread nD τ) ∗ (reg g x o).pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Φ := by
  rw [lift_entry]
  have h1 := Pipeline.RegionSeg.wp (pcfgs (F := F)) adm (dats g x o) none cellOf_inj (EP (F := F)) defs₀ 𝒱₀ (K (F := F)).L (K (F := F)).lev
      (reg g x o) d none (fun _ h => nomatch h) (fun _ => .ret ⟨⟩) Φ
  have h2 := (K (F := F)).wp_liftProg (D (F := F)) 𝒱 (SparseCore.T d) Set.univ none (.op (.customCall (Pipeline.entry 0) ()) fun _ => .ret ⟨⟩) Φ
  exact h1.trans h2

/-- What the tail leaves in the result: the modulation of the transposed features, transposed back. -/
def kerRes (d : Dev nD) (g : Buf (Elt F) (gbtLoc d)) : Buf (Elt F) (outLoc d) :=
  transpose S4096x200x64 [2, 0, 1] (filmOf g (xT m d)) transposes_S200x64x4096_S4096x200x64_2_0_1

set_option backward.isDefEq.respectTransparency.types false in
set_option maxHeartbeats 2000000 in
/-- The tail on a device: the features are transposed, the grid leaves the modulation of them in its result array,
    that is transposed back; the arguments stay as they were and the TensorCore's handshake state is as after the call. -/
theorem tc_tail (κ : GSem nD τ sig → ℕ) (d : Dev nD) (g : Buf (Elt F) (gbtLoc d)) :
    iprop((K (F := F)).ctx EH (P m) κ ∗ (K (F := F)).tcSt EH d 1 ∗ boundary (SparseCore.T d) ∗ (K (F := F)).tcSems0 d ∗ prngReg d (ρ d) ∗ Gd d
        ∗ (featLoc d ↦{fullShare} m (featLoc d)) ∗ (idxLoc d ↦{fullShare} m (idxLoc d)) ∗ (gamLoc d ↦{fullShare} m (gamLoc d)) ∗ (betLoc d ↦{fullShare} m (betLoc d))
        ∗ (gbtLoc d ↦{fullShare} g) ∗ (ftLoc d ↦{fullShare} m (ftLoc d)) ∗ (otLoc d ↦{fullShare} m (otLoc d)) ∗ (outLoc d ↦{fullShare} m (outLoc d)))
      ⊢ wp frame (wpE ((K (F := F)).defs (D (F := F))) 𝒱 (SparseCore.T d) none) Set.univ (tail d)
          fun _ => iprop((K (F := F)).tcSt EH d 1 ∗ (featLoc d ↦{fullShare} m (featLoc d)) ∗ (idxLoc d ↦{fullShare} m (idxLoc d)) ∗ (gamLoc d ↦{fullShare} m (gamLoc d)) ∗ (betLoc d ↦{fullShare} m (betLoc d)) ∗ (outLoc d ↦{fullShare} kerRes m d g)) := by
  simp only [tail, wp_bind, wp_pure]
  unfold Gd kerRes
  iintro ⟨#Hctx, Hst, Hb, -, -, ⟨Hcg, Htk⟩, Hfeat, Hidx, Hgam, Hbet, Hgbt, Hft, Hot, Hout⟩
  ihave Hlev := (SparseCore.Cfg.ctx_levAts κ) $$ Hctx
  ihave Hst' := (tcSt_owes d) $$ Hst
  icases Hst' with ⟨HO, Hback⟩
  -- the features transposed
  iapply (wp_hlo_within 𝒱 (SparseCore.T d) none Set.univ (op := opT1) (S := S1) hT1 (V := V0 m d)) $$ [Hb Hfeat Hft]
  · isplitl [Hb]; · iexact Hb
    rw [held_S1]
    isplitl [Hfeat]; · iexact Hfeat
    iexact Hft
  iintro ⟨Hb, Hheld⟩
  ihave Hh := (Entails.of_eq (held_T1 m d)) $$ Hheld
  icases Hh with ⟨Hfeat, Hft⟩
  rw [wp_ret]; imodintro
  -- the grid
  iapply (region_step g (xT m d) (m (otLoc d)) d _) $$ [Hb Hgbt Hft Hot HO Hcg Htk Hfeat Hidx Hgam Hbet Hout Hback]
  isplitr [Hb Hgbt Hft Hot HO Hcg Htk]
  swap
  · isplitl [Hb]; · iexact Hb
    isplitl [Hgbt Hft Hot HO]
    · rw [reg_pre]; unfold regPre
      isplitl [Hgbt Hft Hot]
      · iapply (arrays_entry g (xT m d) (m (otLoc d)) d)
        isplitl [Hgbt]; · iexact Hgbt
        isplitl [Hft]; · iexact Hft
        iexact Hot
      · iexact HO
    isplitr; · iexact Hlev
    isplitl [Hcg]; · iexact Hcg
    iexact Htk
  iintro ⟨Hb, Hpost⟩
  rw [wp_ret]; imodintro
  ihave Hp := (Entails.of_eq (reg_post g (xT m d) (m (otLoc d)) d)) $$ Hpost
  unfold regPost
  icases Hp with ⟨Ha, HO⟩
  ihave Ha' := (arrays_exit g (xT m d) (m (otLoc d)) d) $$ Ha
  icases Ha' with ⟨Hgbt, Hft, Hot⟩
  -- the result transposed back
  iapply (wp_hlo_within 𝒱 (SparseCore.T d) none Set.univ (op := opT2) (S := S2) hT2 (V := V2 m d (filmOf g (xT m d)))) $$ [Hb Hot Hout]
  · isplitl [Hb]; · iexact Hb
    rw [held_S2, V2_ot, V2_out]
    isplitl [Hot]; · iexact Hot
    iexact Hout
  iintro ⟨Hb, Hheld⟩
  ihave Hh := (Entails.of_eq (held_T2 m d (filmOf g (xT m d)))) $$ Hheld
  icases Hh with ⟨Hot, Hout⟩
  rw [wp_ret]; imodintro; imodintro
  isplitl [HO Hback]
  · iapply Hback; iexact HO
  isplitl [Hfeat]; · iexact Hfeat
  isplitl [Hidx]; · iexact Hidx
  isplitl [Hgam]; · iexact Hgam
  isplitl [Hbet]; · iexact Hbet
  iexact Hout

end Cert.Proof.KBTensor

end
-- ==== Proof.PreRange.lean ====
/-
  The last conjunct of the input-domain predicate, decoded: every index word is one of 0, 1, 2, 3.

  The predicate is a conjunction of four "all" reductions; the last one says of every entry x of the
  index vector that 0 ≤ x and x ≤ 3 as signed words. A signed word that is nonnegative is its own
  unsigned value, so x.toNat ≤ 3.
-/
import proofs.«202883_g575525617868_bridgefix_179_20_alg».proof.Pre_input_domain
import proofs.«202883_g575525617868_bridgefix_179_20_alg».proof.Proof.Gen.Pre_input_domain
import Idealize.ShloMosaic.Lib.ReduceAll
import Idealize.ShloMosaic.Lib.ValueIdx

noncomputable section

namespace Cert.Proof.PreRange

open Idealize.ShloMosaic Idealize.ShloMosaic.ValueIdx

/-- The rank-0 shape has one index. -/
instance : Subsingleton Cert.Pre_input_domain.S_.Idx := ⟨fun a b => funext fun d => d.elim0⟩

/-- A 32-bit word that is at least 0 and at most 3 as a signed word is at most 3 as a natural number. -/
theorem word_le3 (x : BitVec 32) (h0 : IntOp.cmpi .sge x 0#32 = 1#1) (h3 : IntOp.cmpi .sle x 3#32 = 1#1) :
    x.toNat ≤ 3 := by
  rw [IntOp.cmpi_sge] at h0
  rw [IntOp.cmpi_sle] at h3
  simp only [BitVec.toInt_eq_toNat_cond, BitVec.toNat_ofNat, Nat.reducePow, Nat.reduceMod] at h0 h3
  omega

/-- Under the input-domain predicate every entry of the index vector is at most 3. -/
theorem idx_le3 {F : FTy → Type} [FloatOps F] (a0 : FVec F Cert.Pre_input_domain.S4096x200x64 .f32)
    (a1 : IVec Cert.Pre_input_domain.S4096 32) (a2 a3 : FVec F Cert.Pre_input_domain.S4x64 .f32)
    (h : Cert.Pre_input_domain.fn (F := F) a0 a1 a2 a3 = fun _ => 1#1) (b : Fin 4096) :
    (a1 (Idealize.ShloMosaic.ValueIdx.ix1 b)).toNat ≤ 3 := by
  have e := congrFun h ValueIdx.ix0
  dsimp only [Cert.Pre_input_domain.fn, Cert.Pre_input_domain.fn_part1] at e
  have e2 : Host.reduce IntOp.andi
      (andi (cmpi .sge a1 (broadcastInDim Cert.Pre_input_domain.S4096 ![] Cert.Pre_input_domain.Facts.bcast_S_S4096 (constantI Cert.Pre_input_domain.S_ 32 0#32)))
        (cmpi .sle a1 (broadcastInDim Cert.Pre_input_domain.S4096 ![] Cert.Pre_input_domain.Facts.bcast_S_S4096 (constantI Cert.Pre_input_domain.S_ 32 3#32))))
      (constantI Cert.Pre_input_domain.S_ 1 1#1) Cert.Pre_input_domain.Facts.reducesTo_S4096_S_d0 Cert.Pre_input_domain.Facts.h_S_ ix0 = 1#1 :=
    (IntOp.andi_eq_one.1 e).2
  have e3 := Host.reduce_andi_all _ _ _ _ _ e2 (ix1 b)
  obtain ⟨h0, h3⟩ := IntOp.andi_eq_one.1 e3
  exact word_le3 _ h0 h3

end Cert.Proof.PreRange

end
-- ==== Proof.RefRun.lean ====
/-
  The looked-up side's run and its value.

  The program is fifty-two tensor operations in a straight line: twice the row lookup (negative indices wrapped by
  adding four, the test 0 ≤ i ≤ 3, the gather of whole rows, the choice between the gathered row and a
  not-a-number word where the test fails), then two broadcasts along the middle axis, a product and a sum.
  Every weakly fair execution ends with the result buffer at the composed term of the four arguments and the
  arguments unchanged (`run_term`). For index words that are 0, 1, 2 or 3 the wrap is the identity, the test passes
  everywhere, the gather reads the row the word names, and the composed term read at (b, l, d) is
    feat (b, l, d) · gamma (idx b, d) + beta (idx b, d)
  (`outTerm_eq_refOut`), which gives `run`.
-/
import proofs.«202883_g575525617868_bridgefix_179_20_alg».proof.ReferenceIdeal
import proofs.«202883_g575525617868_bridgefix_179_20_alg».proof.Proof.Gen.ReferenceIdeal
import proofs.«202883_g575525617868_bridgefix_179_20_alg».proof.Proof.Spec
import Idealize.ShloMosaic.Lib.StableHlo.Run
import Idealize.ShloMosaic.Lib.ValueIdx
import Idealize.ShloMosaic.Lib.ValueIdxCoords
import Idealize.ShloMosaic.Lib.Pipeline.Value
import Idealize.ShloMosaic.Lib.Affine
import Idealize.ShloMosaic.PureOps.Reduce

noncomputable section

namespace Cert.Proof.RefSide

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The composed term -/

/-- An index vector with its negative entries moved up by four. -/
def wrapIdx (idx : IVec S4096 32) : IVec S4096 32 :=
  select (cmpi .slt idx (broadcastInDim S4096 ![] bcast_S_S4096 (constantI S_ 32 0#32)))
    (addi idx (broadcastInDim S4096 ![] bcast_S_S4096 (constantI S_ 32 4#32))) idx

/-- The wrapped indices as a column: the gather's start indices. -/
def colIdx (idx : IVec S4096 32) : IVec S4096x1 32 :=
  broadcastInDim S4096x1 ![0] bcast_S4096_S4096x1_0 (wrapIdx idx)

/-- The test 0 ≤ i ≤ 3 on the column. -/
def inRange (idx : IVec S4096 32) : IVec S4096x1 1 :=
  andi (cmpi .sge (colIdx idx) (broadcastInDim S4096x1 ![] bcast_S_S4096x1 (constantI S_ 32 0#32)))
    (cmpi .sle (colIdx idx)
      (broadcastInDim S4096x1 ![0, 1] bcast_S1x1_S4096x1_0_1 (broadcastInDim S1x1 ![1] bcast_S1_S1x1_1 (constantI S1 32 3#32))))

/-- The test reduced by "and" over the column's unit axis: one bit per sample. -/
def mask (idx : IVec S4096 32) : IVec S4096 1 :=
  Host.reduce IntOp.andi (inRange idx) (constantI S_ 1 1#1) reducesTo_S4096x1_S4096_d1 h_S_

/-- One row lookup: the gathered rows where the test passes, the not-a-number word elsewhere. -/
def takeTerm (tbl : FVec F S4x64 .f32) (idx : IVec S4096 32) : FVec F S4096x64 .f32 :=
  select (broadcastInDim S4096x64 ![0] bcast_S4096_S4096x64_0 (mask idx))
    (Host.gather gather_S4x64_S4096x1_S4096x64_1_0_n_n_0_1_164 tbl (colIdx idx))
    (broadcastInDim S4096x64 ![] bcast_S_S4096x64 (constant S_ .f32 0x7FC00000#32))

/-- A per-sample row repeated along the middle axis. -/
def spread (g : FVec F S4096x64 .f32) : FVec F S4096x200x64 .f32 :=
  broadcastInDim S4096x200x64 ![0, 1, 2] bcast_S4096x1x64_S4096x200x64_0_1_2
    (broadcastInDim S4096x1x64 ![0, 2] bcast_S4096x64_S4096x1x64_0_2 g)

/-- The program's result as a term of its four arguments. -/
def outTerm (feat : FVec F S4096x200x64 .f32) (idx : IVec S4096 32) (gamma beta : FVec F S4x64 .f32) :
    FVec F S4096x200x64 .f32 :=
  addf (mulf feat (spread (takeTerm gamma idx))) (spread (takeTerm beta idx))

/-! ## The composed term read at an index -/

/-- A word at most 3 is nonnegative as a signed word: the wrap leaves it. -/
theorem wrapIdx_apply (idx : IVec S4096 32) (b : Fin 4096) (h : (idx (ix1 b)).toNat ≤ 3) :
    wrapIdx idx (ix1 b) = idx (ix1 b) := by
  show Scalar.select (IntOp.cmpi .slt (idx (ix1 b)) 0#32) (IntOp.addi (idx (ix1 b)) 4#32) (idx (ix1 b)) = idx (ix1 b)
  have hz : IntOp.cmpi .slt (idx (ix1 b)) 0#32 = 0#1 := eq_zero_of_ne_one (fun e => by
    rw [IntOp.cmpi_slt] at e
    simp only [BitVec.toInt_eq_toNat_cond, BitVec.toNat_ofNat, Nat.reducePow, Nat.reduceMod] at e
    omega)
  rw [hz, select_zero]

/-- The column at (b, 0) is the wrapped index of sample b. -/
theorem colIdx_apply (idx : IVec S4096 32) (b : Fin 4096) (u : Fin 1) : colIdx idx (ix2 b u) = wrapIdx idx (ix1 b) := by
  unfold colIdx
  exact broadcastInDim_apply _ _ _ (ix2 b u) (ix1 b) (fun a => match a with | ⟨0, _⟩ => rfl)

/-- The test passes at every entry. -/
theorem inRange_apply (idx : IVec S4096 32) (h : ∀ b : Fin 4096, (idx (ix1 b)).toNat ≤ 3) (i : S4096x1.Idx) :
    inRange idx i = 1#1 := by
  obtain ⟨b, u, rfl⟩ : ∃ b u, i = ix2 b u := ⟨i 0, i 1, eq_ix2 i⟩
  show IntOp.andi (IntOp.cmpi .sge (colIdx idx (ix2 b u)) 0#32) (IntOp.cmpi .sle (colIdx idx (ix2 b u)) 3#32) = 1#1
  rw [colIdx_apply, wrapIdx_apply _ _ (h b), IntOp.andi_eq_one, IntOp.cmpi_sge, IntOp.cmpi_sle]
  have := h b
  simp only [BitVec.toInt_eq_toNat_cond, BitVec.toNat_ofNat, Nat.reducePow, Nat.reduceMod]
  omega

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; decide
    rw [List.foldl_cons, ha]
    exact foldl_andi_one f l (fun n hn => h n (List.mem_cons_of_mem _ hn))

/-- So the reduced test is 1 for every sample. -/
theorem mask_apply (idx : IVec S4096 32) (h : ∀ b : Fin 4096, (idx (ix1 b)).toNat ≤ 3) (j : S4096.Idx) : mask idx j = 1#1 := by
  unfold mask
  rw [Host.reduce_eq_foldl]
  exact foldl_andi_one (inRange idx) _ (fun i _ => inRange_apply idx h i)

/-- The gather of whole rows read at (b, d): the table at the row the start index (b, 0) names, read signed and
    clamped to 0 … 3, and column d. -/
theorem gather_apply {α : Type} (x : S4x64.Idx → α) (ci : IVec S4096x1 32) (b : Fin 4096) (d : Fin 64) :
    Host.gather gather_S4x64_S4096x1_S4096x64_1_0_n_n_0_1_164 x ci (ix2 b d)
      = x (ix2 (⟨min (ci (ix2 b u0)).toInt.toNat 3, by omega⟩ : Fin 4) d) := by
  unfold Host.gather
  congr 1
  funext a
  refine Fin.ext ?_
  match a with
  | ⟨0, _⟩ =>
    show gather_S4x64_S4096x1_S4096x64_1_0_n_n_0_1_164.start (ix2 b d) ci 0 + gather_S4x64_S4096x1_S4096x64_1_0_n_n_0_1_164.batchCoord (ix2 b d) 0 + gather_S4x64_S4096x1_S4096x64_1_0_n_n_0_1_164.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4x64_S4096x1_S4096x64_1_0_n_n_0_1_164.startIndexMap from List.mem_singleton.mpr rfl)]
    have hsi : gather_S4x64_S4096x1_S4096x64_1_0_n_n_0_1_164.siIdx (ix2 b d)
        ⟨List.idxOf (0 : Fin 2) gather_S4x64_S4096x1_S4096x64_1_0_n_n_0_1_164.startIndexMap, List.idxOf_lt_length_iff.2 (List.mem_singleton.mpr rfl)⟩ = ix2 b u0 := by
      funext c; refine Fin.ext ?_
      match c with
      | ⟨0, _⟩ => rfl
      | ⟨1, _⟩ => rfl
    rw [hsi]
    rfl
  | ⟨1, _⟩ =>
    show gather_S4x64_S4096x1_S4096x64_1_0_n_n_0_1_164.start (ix2 b d) ci 1 + gather_S4x64_S4096x1_S4096x64_1_0_n_n_0_1_164.batchCoord (ix2 b d) 1 + gather_S4x64_S4096x1_S4096x64_1_0_n_n_0_1_164.offCoord (ix2 b d) 1 = d.val
    have hs : gather_S4x64_S4096x1_S4096x64_1_0_n_n_0_1_164.start (ix2 b d) ci 1 = 0 := by
      unfold GatherDims.start
      rw [dif_neg (show (1 : Fin 2) ∉ gather_S4x64_S4096x1_S4096x64_1_0_n_n_0_1_164.startIndexMap by decide)]
    have ho : gather_S4x64_S4096x1_S4096x64_1_0_n_n_0_1_164.offCoord (ix2 b d) 1 = d.val := by
      unfold GatherDims.offCoord
      rw [dif_pos (show (1 : Fin 2) ∈ gather_S4x64_S4096x1_S4096x64_1_0_n_n_0_1_164.sKept by decide)]
      rfl
    rw [GatherDims.batchCoord_eq_zero _ _ _ List.not_mem_nil, hs, ho]
    omega

/-- One lookup at (b, d), for index words that name a row: the table at that row. -/
theorem takeTerm_apply (tbl : FVec F S4x64 .f32) (idx : IVec S4096 32) (h : ∀ b : Fin 4096, (idx (ix1 b)).toNat ≤ 3)
    (b : Fin 4096) (d : Fin 64) :
    takeTerm tbl idx (ix2 b d) = tbl (ix2 (Cert.Proof.Affine.rowOf (idx (ix1 b))) d) := by
  unfold takeTerm
  rw [select_apply]
  have hm : broadcastInDim S4096x64 ![0] bcast_S4096_S4096x64_0 (mask idx) (ix2 b d) = 1#1 :=
    (broadcastInDim_apply _ _ _ (ix2 b d) (ix1 b) (fun a => match a with | ⟨0, _⟩ => rfl)).trans (mask_apply idx h _)
  rw [hm, select_one, gather_apply]
  refine congrArg (fun r => tbl (ix2 r d)) (Fin.ext ?_)
  show min (colIdx idx (ix2 b u0)).toInt.toNat 3 = (idx (ix1 b)).toNat % 4
  rw [colIdx_apply, wrapIdx_apply _ _ (h b), BitVec.toInt_eq_toNat_cond]
  have := h b
  omega

/-- The repeated row at (b, l, d) is the row's entry (b, d). -/
theorem spread_apply (g : FVec F S4096x64 .f32) (b : Fin 4096) (l : Fin 200) (d : Fin 64) :
    spread g (ix3 b l d) = g (ix2 b d) := by
  unfold spread
  refine (broadcastInDim_apply _ _ _ (ix3 b l d) (ix3 b u0 d)
    (fun a => match a with | ⟨0, _⟩ => rfl | ⟨1, _⟩ => rfl | ⟨2, _⟩ => rfl)).trans ?_
  exact broadcastInDim_apply _ _ _ (ix3 b u0 d) (ix2 b d) (fun a => match a with | ⟨0, _⟩ => rfl | ⟨1, _⟩ => rfl)

/-- For index words that name a row the composed term is the looked-up modulation, entry by entry. -/
theorem outTerm_eq_refOut (feat : FVec F S4096x200x64 .f32) (idx : IVec S4096 32) (gamma beta : FVec F S4x64 .f32)
    (h : ∀ b : Fin 4096, (idx (ix1 b)).toNat ≤ 3) :
    outTerm feat idx gamma beta = Cert.Proof.Affine.refOut feat idx gamma beta := by
  funext j
  obtain ⟨b, l, d, rfl⟩ : ∃ b l d, j = ix3 b l d := ⟨j 0, j 1, j 2, eq_ix3 j⟩
  show FloatOps.addf (FloatOps.mulf (feat (ix3 b l d)) (spread (takeTerm gamma idx) (ix3 b l d)))
      (spread (takeTerm beta idx) (ix3 b l d)) = _
  rw [spread_apply, spread_apply, takeTerm_apply _ _ h, takeTerm_apply _ _ h]
  rfl

/-! ## The program as a list of operations -/

/-- The program's fifty-two operations, in order: the first lookup's twenty-three (the wrap's select is the inner
    function's one operation), the second's, then the six of the modulation. -/
abbrev ops : List (HloOp τ sig (Elt F)) :=
  [ TRef.nullary main_call0.c (constantI S_ 32 0#32),
    TRef.unary main_call0.c main_call0.v0 (broadcastInDim S4096 ![] bcast_S_S4096),
    TRef.binary (.of main_arg1) main_call0.v0 main_call0.v1 (cmpi .slt),
    TRef.nullary main_call0.c_0 (constantI S_ 32 4#32),
    TRef.unary main_call0.c_0 main_call0.v2 (broadcastInDim S4096 ![] bcast_S_S4096),
    TRef.binary (.of main_arg1) main_call0.v2 main_call0.v3 addi,
    TRef.ternary main_call0.v1 main_call0.v3 (.of main_arg1) main_call0.call0.v0 select,
    TRef.unary main_call0.call0.v0 main_call0.v5 (broadcastInDim S4096x1 ![0] bcast_S4096_S4096x1_0),
    TRef.nullary main_call0.c_1 (constantI S1 32 3#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg2) main_call0.v5 main_call0.v13 (fun x i => Host.gather gather_S4x64_S4096x1_S4096x64_1_0_n_n_0_1_164 x i),
    TRef.unary main_call0.v12 main_call0.v14 (broadcastInDim S4096x64 ![0] bcast_S4096_S4096x64_0),
    TRef.nullary main_call0.cst (constant S_ .f32 0x7FC00000#32),
    TRef.unary main_call0.cst main_call0.v15 (broadcastInDim S4096x64 ![] bcast_S_S4096x64),
    TRef.ternary main_call0.v14 main_call0.v13 main_call0.v15 main_call0.v16 select,
    TRef.nullary main_call1.c (constantI S_ 32 0#32),
    TRef.unary main_call1.c main_call1.v0 (broadcastInDim S4096 ![] bcast_S_S4096),
    TRef.binary (.of main_arg1) main_call1.v0 main_call1.v1 (cmpi .slt),
    TRef.nullary main_call1.c_0 (constantI S_ 32 4#32),
    TRef.unary main_call1.c_0 main_call1.v2 (broadcastInDim S4096 ![] bcast_S_S4096),
    TRef.binary (.of main_arg1) main_call1.v2 main_call1.v3 addi,
    TRef.ternary main_call1.v1 main_call1.v3 (.of main_arg1) main_call1.call0.v0 select,
    TRef.unary main_call1.call0.v0 main_call1.v5 (broadcastInDim S4096x1 ![0] bcast_S4096_S4096x1_0),
    TRef.nullary main_call1.c_1 (constantI S1 32 3#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_arg3) main_call1.v5 main_call1.v13 (fun x i => Host.gather gather_S4x64_S4096x1_S4096x64_1_0_n_n_0_1_164 x i),
    TRef.unary main_call1.v12 main_call1.v14 (broadcastInDim S4096x64 ![0] bcast_S4096_S4096x64_0),
    TRef.nullary main_call1.cst (constant S_ .f32 0x7FC00000#32),
    TRef.unary main_call1.cst main_call1.v15 (broadcastInDim S4096x64 ![] bcast_S_S4096x64),
    TRef.ternary main_call1.v14 main_call1.v13 main_call1.v15 main_call1.v16 select,
    unary main_v0 main_v2 (broadcastInDim S4096x1x64 ![0, 2] bcast_S4096x64_S4096x1x64_0_2 : (⟨S4096x64, .f32⟩ : BufTy).Contents (Elt F) → (⟨S4096x1x64, .f32⟩ : BufTy).Contents (Elt F)),
    unary main_v2 main_v3 (broadcastInDim S4096x200x64 ![0, 1, 2] bcast_S4096x1x64_S4096x200x64_0_1_2 : (⟨S4096x1x64, .f32⟩ : BufTy).Contents (Elt F) → (⟨S4096x200x64, .f32⟩ : BufTy).Contents (Elt F)),
    binary main_arg0 main_v3 main_v4 (mulf : (⟨S4096x200x64, .f32⟩ : BufTy).Contents (Elt F) → (⟨S4096x200x64, .f32⟩ : BufTy).Contents (Elt F) → (⟨S4096x200x64, .f32⟩ : BufTy).Contents (Elt F)),
    unary main_v1 main_v5 (broadcastInDim S4096x1x64 ![0, 2] bcast_S4096x64_S4096x1x64_0_2 : (⟨S4096x64, .f32⟩ : BufTy).Contents (Elt F) → (⟨S4096x1x64, .f32⟩ : BufTy).Contents (Elt F)),
    unary main_v5 main_v6 (broadcastInDim S4096x200x64 ![0, 1, 2] bcast_S4096x1x64_S4096x200x64_0_1_2 : (⟨S4096x1x64, .f32⟩ : BufTy).Contents (Elt F) → (⟨S4096x200x64, .f32⟩ : BufTy).Contents (Elt F)),
    binary main_v4 main_v6 main_v7 (addf : (⟨S4096x200x64, .f32⟩ : BufTy).Contents (Elt F) → (⟨S4096x200x64, .f32⟩ : BufTy).Contents (Elt F) → (⟨S4096x200x64, .f32⟩ : BufTy).Contents (Elt F)) ]

set_option maxRecDepth 2048 in
/-- The program is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., unary_bufs_sub .., unary_bufs_sub .., binary_bufs_sub ..⟩

/-- Every weakly fair execution terminates with each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The run -/

attribute [local irreducible] Host.reduce Host.gather in
set_option maxRecDepth 8192 in
/-- The fold at the result buffer is the composed term of the launch contents at the four argument buffers. -/
theorem out_eq (V : Valuation τ sig (Elt F)) :
    after ops V (main_v7 : DevRef τ sig)
      = outTerm (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- Every weakly fair execution terminates with the result buffer at the composed term of the arguments and the
    arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = outTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v7).trans (out_eq (launchContents m c)),
        (h c main_arg0).trans (arg0_eq (launchContents m c)),
        (h c main_arg1).trans (arg1_eq (launchContents m c)),
        (h c main_arg2).trans (arg2_eq (launchContents m c)),
        (h c main_arg3).trans (arg3_eq (launchContents m c))⟩)
    (run_after m ρ)

/-- At the ideal instance, from a memory whose index words each name a row: every weakly fair execution terminates
    with the result buffer at the looked-up modulation of the arguments, entry by entry, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg)
    (hidx : ∀ (c : Dev Cert.ReferenceIdeal.nD) (b : Fin 4096),
      ((m ((c.tc : Thread Cert.ReferenceIdeal.nD Cert.ReferenceIdeal.τ).loc Cert.ReferenceIdeal.main_arg1) : IVec Cert.ReferenceIdeal.S4096 32)
        (ValueIdx.ix1 b)).toNat ≤ 3) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v7)
          = Cert.Proof.Affine.refOut (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)) :=
  (θ_run Cert.ReferenceIdeal.defs _ _).mono
    (fun _ h c => ⟨(h c).1.trans (outTerm_eq_refOut (F := Ideal) _ _ _ _ (hidx c)), (h c).2⟩)
    (run_term (F := Ideal) m ρ)

end Cert.Proof.RefSide

end
-- ==== Proof.lean ====
/-
  Two programs compute one function, and a third is the word-level printing of the first.

  A batch of 4096 samples, each a 200 × 64 array of features, is modulated per sample: sample `b` carries an index
  `a b` into the four rows of two 4 × 64 tables `γ` and `β`, and the result is
    out (b, l, d) = feat (b, l, d) · γ (a b, d) + β (a b, d).
  The reference looks the rows up (negative indices wrapped, out-of-range ones replaced by a marker) and multiplies and
  adds. The kernel has thirty-two vector subcores each take 128 consecutive samples and build a 128 × 128 array whose
  row `d` holds, per sample, `γ (a b, d)` and whose row `64 + d` holds `β (a b, d)`, the row chosen by three
  comparisons of the index with 0 and 2; the TensorCore then multiplies and adds on the features transposed so that
  samples run along the last axis, and transposes back.

  Under the precondition every index is 0, 1, 2 or 3. Then the three comparisons choose the row the index names and
  the reference's wrap and range test change nothing, so both programs apply the same product and the same sum to
  the same three numbers at every entry: no law of the extended reals' arithmetic is needed, and the precondition's
  finiteness is not used. The frames: each program's run is proved with its result named and its four arguments
  unchanged, and the frame is that run with the result forgotten; the kernel's run is the launch of its thirty-five
  threads (the TensorCore, two sequencers, thirty-two subcores), each subcore's task proved once for a symbolic
  subcore. The idealization rewrote no operation, so what it preserves is nothing to prove.
-/
import proofs.«202883_g575525617868_bridgefix_179_20_alg».proof.Defs
import proofs.«202883_g575525617868_bridgefix_179_20_alg».proof.Proof.Gen.Kernel
import proofs.«202883_g575525617868_bridgefix_179_20_alg».proof.Proof.Gen.KernelIdeal
import proofs.«202883_g575525617868_bridgefix_179_20_alg».proof.Proof.Gen.ReferenceIdeal
import proofs.«202883_g575525617868_bridgefix_179_20_alg».proof.Proof.Gen.Pre_input_domain
import proofs.«202883_g575525617868_bridgefix_179_20_alg».proof.Proof.KIBridge
import proofs.«202883_g575525617868_bridgefix_179_20_alg».proof.Proof.KITensor
import proofs.«202883_g575525617868_bridgefix_179_20_alg».proof.Proof.KBLaunch
import proofs.«202883_g575525617868_bridgefix_179_20_alg».proof.Proof.KBTensor
import proofs.«202883_g575525617868_bridgefix_179_20_alg».proof.Proof.PreRange
import proofs.«202883_g575525617868_bridgefix_179_20_alg».proof.Proof.RefRun
import Idealize.ShloMosaic.Adequacy
import Idealize.ShloMosaic.Init

noncomputable section

namespace Cert.Proof

open Idealize.ShloMosaic Idealize.ShloMosaic.ValueIdx Idealize.SL.Sem

/-- The word-level kernel runs to the end, faults nowhere and leaves its arguments as they were. -/
theorem frame_k : Cert.frame_Kernel := fun m ρ _ =>
  (θ_run (Cert.Kernel.defs (F := Bits)) _ _).mono (fun _ h c => ⟨(h c).2.1, (h c).2.2.1, (h c).2.2.2.1, (h c).2.2.2.2⟩)
    (KBLaunch.run_main (F := Bits) m ρ KBTensor.uP₀ (KBTensor.Gd (F := Bits)) (KBTensor.fundP (F := Bits))
      (KBTensor.tail (F := Bits)) (KBTensor.main_eq (F := Bits)) (KBTensor.tc_tail (F := Bits) m ρ))

/-- The idealized kernel's run: the result at the modulation through the block array, the arguments unchanged. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (KILaunch.QC (F := Ideal) m) :=
  KILaunch.run_main (F := Ideal) m ρ KITensor.uP₀ (KITensor.Gd (F := Ideal)) (KITensor.fundP (F := Ideal))
    (KITensor.tail (F := Ideal)) (KITensor.main_eq (F := Ideal)) (KITensor.tc_tail (F := Ideal) m ρ)

theorem frame_ki : Cert.frame_KernelIdeal := fun m ρ _ =>
  (θ_run (Cert.KernelIdeal.defs (F := Ideal)) _ _).mono (fun _ h c => ⟨(h c).2.1, (h c).2.2.1, (h c).2.2.2.1, (h c).2.2.2.2⟩) (run_ki m ρ)

/-- The reference's frame: its run with the result forgotten; the run needs the indices in range. -/
theorem frame_ri : Cert.frame_ReferenceIdeal := fun m ρ hpre =>
  (θ_run (Cert.ReferenceIdeal.defs (F := Ideal)) _ _).mono (fun _ h c => (h c).2)
    (RefSide.run m ρ (fun c b => PreRange.idx_le3 (F := Ideal) _ _ _ _ (hpre c) b))

theorem preserves : Cert.preserves_Kernel_KernelIdeal := trivial

/-- From memories agreeing on the arguments both programs end with the looked-up modulation of those arguments. -/
theorem algebraic : Cert.algebraic_KernelIdeal_ReferenceIdeal := by
  intro m ρ m' ρ' hpre hagree
  have hidx : ∀ (c : Dev Cert.KernelIdeal.nD) (b : Fin 4096),
      ((m (KISetup.idxLoc c) : Cert.KernelIdeal.S4096.Idx → BitVec 32) (ix1 b)).toNat ≤ 3 :=
    fun c b => PreRange.idx_le3 (F := Ideal) _ _ _ _ (hpre c) b
  refine ⟨fun c => Affine.refOut (F := Ideal) (m (KISetup.featLoc c)) (m (KISetup.idxLoc c)) (m (KISetup.gamLoc c)) (m (KISetup.betLoc c)), ?_, ?_⟩
  · exact (θ_run (Cert.KernelIdeal.defs (F := Ideal)) _ _).mono
      (fun _ h c => ⟨(h c).1.trans (KIBridge.kerRes_eq_refOut (F := Ideal) m c (hidx c)), (h c).2⟩) (run_ki m ρ)
  · refine (θ_run (Cert.ReferenceIdeal.defs (F := Ideal)) _ _).mono (fun _ h c => ⟨?_, (h c).2⟩)
      (RefSide.run m' ρ' (fun c b => by rw [(hagree c).2.1]; exact hidx c b))
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
